-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v123)) (v1 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S474x256 : Shape := ⟨2, ![474, 256]⟩
abbrev S256x256 : Shape := ⟨2, ![256, 256]⟩
abbrev S1x256 : Shape := ⟨2, ![1, 256]⟩
abbrev S256 : Shape := ⟨1, ![256]⟩
abbrev S2x1000000 : Shape := ⟨2, ![2, 1000000]⟩
abbrev S1000000 : Shape := ⟨1, ![1000000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S474x256 : S_.BroadcastsInDim S474x256 (![] : Fin 0 → Fin S474x256.rank)
  reducesTo_S474x256_S_d0_1 : S474x256.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x256 .f32) (main_arg5 : FVec F S256x256 .f32) (main_arg6 : FVec F S1x256 .f32) (main_arg7 : FVec F S256 .f32) (main_arg8 : FVec F S256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x256 .f32) (main_arg1 : FVec F S474x256 .f32) (main_arg2 : FVec F S256x256 .f32) (main_arg3 : FVec F S256x256 .f32) (main_arg4 : FVec F S256x256 .f32) (main_arg5 : FVec F S256x256 .f32) (main_arg6 : FVec F S1x256 .f32) (main_arg7 : FVec F S256 .f32) (main_arg8 : FVec F S256 .f32) (main_arg9 : FVec F S256 .f32) (main_arg10 : IVec S2x1000000 32) (main_arg11 : IVec S1000000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S474x256 .f32 := Host.absf main_arg1
  let main_cst_0 : FVec F S_ .f32 := constant S_ .f32 0x7F800000#32
  let main_v5 : FVec F S474x256 .f32 := broadcastInDim S474x256 ![] bcast_S_S474x256 main_cst_0
  let main_v6 : IVec S474x256 1 := cmpf .olt main_v4 main_v5
  let main_c_1 : IVec S_ 1 := constantI S_ 1 1#1
  let main_v7 : IVec S_ 1 := (fun x v => Host.reduce IntOp.andi x v reducesTo_S474x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_v13 main_v16
-- ==== Kernel.lean ====
abbrev S100000x256 : Shape := ⟨2, ![100000, 256]⟩
abbrev S474x256 : Shape := ⟨2, ![474, 256]⟩
abbrev S256x256 : Shape := ⟨2, ![256, 256]⟩
abbrev S1x256 : Shape := ⟨2, ![1, 256]⟩
abbrev S256 : Shape := ⟨1, ![256]⟩
abbrev S2x1000000 : Shape := ⟨2, ![2, 1000000]⟩
abbrev S1000000 : Shape := ⟨1, ![1000000]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S475x256 : Shape := ⟨2, ![475, 256]⟩
abbrev S256x768 : Shape := ⟨2, ![256, 768]⟩
abbrev S100000x768 : Shape := ⟨2, ![100000, 768]⟩
abbrev S4000x256 : Shape := ⟨2, ![4000, 256]⟩
abbrev S4000x768 : Shape := ⟨2, ![4000, 768]⟩
abbrev S500000 : Shape := ⟨1, ![500000]⟩
abbrev S500000x1 : Shape := ⟨2, ![500000, 1]⟩
abbrev S500000x256 : Shape := ⟨2, ![500000, 256]⟩
abbrev S1000000x256 : Shape := ⟨2, ![1000000, 256]⟩

abbrev nBuf : Space → Nat
  | .hbm => 184
  | .vmem => 5
  | .smem => 0
  | _ => 0

abbrev hbmTy0_0 (i : Nat) : BufTy := match i % 128 with
  | 0 => ⟨S100000x256, .f32⟩
  | 1 => ⟨S474x256, .f32⟩
  | 2 => ⟨S256x256, .f32⟩
  | 3 => ⟨S256x256, .f32⟩
  | 4 => ⟨S256x256, .f32⟩
  | 5 => ⟨S256x256, .f32⟩
  | 6 => ⟨S1x256, .f32⟩
  | 7 => ⟨S256, .f32⟩
  | 8 => ⟨S256, .f32⟩
  | 9 => ⟨S256, .f32⟩
  | 10 => ⟨S2x1000000, .i32⟩
  | 11 => ⟨S1000000, .i32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000, .f32⟩
  | 50 => ⟨S1000000, .f32⟩
  | 51 => ⟨S475x256, .f32⟩
  | 52 => ⟨S256x768, .f32⟩
  | 53 => ⟨S100000x256, .bf16⟩
  | 54 => ⟨S256x768, .bf16⟩
  | 55 => ⟨S100000x768, .f32⟩
  | 56 => ⟨S100000x256, .f32⟩
  | 57 => ⟨S100000x256, .f32⟩
  | 58 => ⟨S100000x256, .f32⟩
  | 59 => ⟨S475x256, .bf16⟩
  | 60 => ⟨S256x256, .bf16⟩
  | 61 => ⟨S475x256, .f32⟩
  | 62 => ⟨S256x256, .bf16⟩
  | 63 => ⟨S475x256, .f32⟩
  | 64 => ⟨S1x256, .bf16⟩
  | 65 => ⟨S256x256, .bf16⟩
  | 66 => ⟨S1x256, .f32⟩
  | 67 => ⟨S100000x256, .bf16⟩
  | 68 => ⟨S100000x256, .bf16⟩
  | 69 => ⟨S475x256, .bf16⟩
  | 70 => ⟨S475x256, .bf16⟩
  | 71 => ⟨S500000, .i32⟩
  | 72 => ⟨S500000, .i32⟩
  | 73 => ⟨S500000, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000x256, .bf16⟩
  | 83 => ⟨S500000x256, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x256, .bf16⟩
  | 93 => ⟨S500000x256, .f32⟩
  | 94 => ⟨S500000x256, .f32⟩
  | 95 => ⟨S500000x1, .f32⟩
  | 96 => ⟨S500000x256, .f32⟩
  | 97 => ⟨S500000x256, .f32⟩
  | 98 => ⟨S500000, .i32⟩
  | 99 => ⟨S500000, .i32⟩
  | 100 => ⟨S500000, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x256, .bf16⟩
  | 110 => ⟨S500000x256, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x256, .bf16⟩
  | 120 => ⟨S500000x256, .f32⟩
  | 121 => ⟨S500000x256, .f32⟩
  | 122 => ⟨S500000x1, .f32⟩
  | 123 => ⟨S500000x256, .f32⟩
  | 124 => ⟨S500000x256, .f32⟩
  | 125 => ⟨S1000000x256, .f32⟩
  | 126 => ⟨S_, .f32⟩
  | 127 => ⟨S100000x256, .f32⟩
  | _ => ⟨S100000x256, .f32⟩

abbrev hbmTy0_1 (i : Nat) : BufTy := match i % 128 with
  | 0 => ⟨S1000000x1, .i32⟩
  | 1 => ⟨S100000x256, .f32⟩
  | 2 => ⟨S100000x256, .f32⟩
  | 3 => ⟨S100000x256, .f32⟩
  | 4 => ⟨S100000x256, .f32⟩
  | 5 => ⟨S1x256, .f32⟩
  | 6 => ⟨S100000x256, .f32⟩
  | 7 => ⟨S100000x256, .f32⟩
  | 8 => ⟨S_, .f32⟩
  | 9 => ⟨S256, .f32⟩
  | 10 => ⟨S_, .f32⟩
  | 11 => ⟨S256, .f32⟩
  | 12 => ⟨S256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S100000x256, .f32⟩
  | 21 => ⟨S100000x256, .f32⟩
  | 22 => ⟨S100000x256, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S1x256, .f32⟩
  | 37 => ⟨S100000x256, .f32⟩
  | 38 => ⟨S100000x256, .f32⟩
  | 39 => ⟨S1x256, .f32⟩
  | 40 => ⟨S100000x256, .f32⟩
  | 41 => ⟨S100000x256, .f32⟩
  | 42 => ⟨S_, .f32⟩
  | 43 => ⟨S256, .f32⟩
  | 44 => ⟨S256, .f32⟩
  | 45 => ⟨S256, .f32⟩
  | 46 => ⟨S1x256, .f32⟩
  | 47 => ⟨S100000x256, .f32⟩
  | 48 => ⟨S100000x256, .f32⟩
  | 49 => ⟨S1x256, .f32⟩
  | 50 => ⟨S100000x256, .f32⟩
  | 51 => ⟨S100000x256, .f32⟩
  | 52 => ⟨S100000x256, .f32⟩
  | 53 => ⟨S474x256, .bf16⟩
  | 54 => ⟨S256x256, .bf16⟩
  | 55 => ⟨S474x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .bf16⟩
  | .local _ .vmem, ⟨1, _⟩ => ⟨S4000x256, .bf16⟩
  | .local _ .vmem, ⟨2, _⟩ => ⟨S256x768, .bf16⟩
  | .local _ .vmem, ⟨3, _⟩ => ⟨S4000x768, .f32⟩
  | .local _ .vmem, ⟨4, _⟩ => ⟨S4000x768, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_7 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_9 : Ref sig .tc := ⟨.hbm, 84, rfl⟩
abbrev main_v59 : Ref sig .tc := ⟨.hbm, 85, rfl⟩
abbrev main_v60 : Ref sig .tc := ⟨.hbm, 86, rfl⟩
abbrev main_c_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_11 : Ref sig .tc := ⟨.hbm, 101, rfl⟩
abbrev main_v74 : Ref sig .tc := ⟨.hbm, 102, rfl⟩
abbrev main_v75 : Ref sig .tc := ⟨.hbm, 103, rfl⟩
abbrev main_c_12 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_13 : Ref sig .tc := ⟨.hbm, 111, rfl⟩
abbrev main_v82 : Ref sig .tc := ⟨.hbm, 112, rfl⟩
abbrev main_v83 : Ref sig .tc := ⟨.hbm, 113, rfl⟩
abbrev main_c_14 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_15 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_16 : Ref sig .tc := ⟨.hbm, 136, rfl⟩
abbrev main_v104 : Ref sig .tc := ⟨.hbm, 137, rfl⟩
abbrev main_cst_17 : Ref sig .tc := ⟨.hbm, 138, rfl⟩
abbrev main_v105 : Ref sig .tc := ⟨.hbm, 139, rfl⟩
abbrev main_v106 : Ref sig .tc := ⟨.hbm, 140, rfl⟩
abbrev main_c_18 : Ref sig .tc := ⟨.hbm, 141, rfl⟩
abbrev main_call1_cst : Ref sig .tc := ⟨.hbm, 142, rfl⟩
abbrev main_call1_v0 : Ref sig .tc := ⟨.hbm, 143, rfl⟩
abbrev main_call1_v1 : Ref sig .tc := ⟨.hbm, 144, rfl⟩
abbrev main_call1_cst_0 : Ref sig .tc := ⟨.hbm, 145, rfl⟩
abbrev main_call1_v2 : Ref sig .tc := ⟨.hbm, 146, rfl⟩
abbrev main_call1_v3 : Ref sig .tc := ⟨.hbm, 147, rfl⟩
abbrev main_call1_v4 : Ref sig .tc := ⟨.hbm, 148, rfl⟩
abbrev main_call1_v5 : Ref sig .tc := ⟨.hbm, 149, rfl⟩
abbrev main_call1_v6 : Ref sig .tc := ⟨.hbm, 150, rfl⟩
abbrev main_call1_v7 : Ref sig .tc := ⟨.hbm, 151, rfl⟩
abbrev main_call1_cst_1 : Ref sig .tc := ⟨.hbm, 152, rfl⟩
abbrev main_call1_v8 : Ref sig .tc := ⟨.hbm, 153, rfl⟩
abbrev main_call1_cst_2 : Ref sig .tc := ⟨.hbm, 154, rfl⟩
abbrev main_call1_v9 : Ref sig .tc := ⟨.hbm, 155, rfl⟩
abbrev main_call1_v10 : Ref sig .tc := ⟨.hbm, 156, rfl⟩
abbrev main_call1_v11 : Ref sig .tc := ⟨.hbm, 157, rfl⟩
abbrev main_call1_cst_3 : Ref sig .tc := ⟨.hbm, 158, rfl⟩
abbrev main_call1_v12 : Ref sig .tc := ⟨.hbm, 159, rfl⟩
abbrev main_call1_cst_4 : Ref sig .tc := ⟨.hbm, 160, rfl⟩
abbrev main_call1_call0_v0 : Ref sig .tc := ⟨.hbm, 161, rfl⟩
abbrev main_call1_call0_v1 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_cst_19 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  concatenates_S474x256_S1x256_S475x256_d0 : Shape.Concatenates [S474x256, S1x256] S475x256 0
  concatenates_S256x256_S256x256_S256x256_S256x768_d1 : Shape.Concatenates [S256x256, S256x256, S256x256] S256x768 1
  bitsLt_bf16_f32 : FTy.bits .bf16 < FTy.bits .f32
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S4000x768_S4000x768_0_0 : ∀ a, (![0, 0] : Fin 2 → Nat) a + S4000x768.size a ≤ S4000x768.size a
  h_S4000x768 : 0 < S4000x768.numel
  slices_S100000x768_S100000x256_0_0 : S100000x768.Slices ![0, 0] S100000x256
  slices_S100000x768_S100000x256_0_256 : S100000x768.Slices ![0, 256] S100000x256
  slices_S100000x768_S100000x256_0_512 : S100000x768.Slices ![0, 512] S100000x256
  slices_S1000000_S500000_0 : S1000000.Slices ![0] S500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  slices_S1000000_S500000_500000 : S1000000.Slices ![500000] S500000
  concatenates_S500000x256_S500000x256_S1000000x256_d0 : Shape.Concatenates [S500000x256, S500000x256] S1000000x256 0
  bcast_S_S100000x256 : S_.BroadcastsInDim S100000x256 (![] : Fin 0 → Fin S100000x256.rank)
  bcast_S1x256_S100000x256_0_1 : S1x256.BroadcastsInDim S100000x256 (![0, 1] : Fin 2 → Fin S100000x256.rank)
  bcast_S256_S1x256_1 : S256.BroadcastsInDim S1x256 (![1] : Fin 1 → Fin S1x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S4000x256_S256x768_S4000x768_1_0_0_1_n_n_wf : DotDims.WF S4000x256 S256x768 S4000x768 [1] [0] [0] [1] [] []
  dot_S475x256_S256x256_S475x256_1_0_0_1_n_n_wf : DotDims.WF S475x256 S256x256 S475x256 [1] [0] [0] [1] [] []
  dot_S1x256_S256x256_S1x256_1_0_0_1_n_n_wf : DotDims.WF S1x256 S256x256 S1x256 [1] [0] [0] [1] [] []
  gather_S100000x256_S500000x1_S500000x256_1_0_n_n_0_1_1256_wf : GatherDims.WF S100000x256 S500000x1 S500000x256 [1] [0] [] [0] [] 1 ![1, 256]
  gather_S475x256_S500000x1_S500000x256_1_0_n_n_0_1_1256_wf : GatherDims.WF S475x256 S500000x1 S500000x256 [1] [0] [] [0] [] 1 ![1, 256]
  scatter_S100000x256_S1000000x1_S1000000x256_1_0_0_1_wf : ScatterDims.WF S100000x256 S1000000x1 S1000000x256 [1] [0] [0] 1
  dot_S474x256_S256x256_S474x256_1_0_0_1_n_n_wf : DotDims.WF S474x256 S256x256 S474x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .bf16 = 32 ∨ (Rect.block (s := S100000x256) S4000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x768.size a ≤ S100000x768.size a
  hwx0_2 : ∀ i : grid0.Coords, EltTy.bits .f32 = 32 ∨ (Rect.block (s := S100000x768) S4000x768.size (cc0_transform_2 i) (hinb0_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S4000x256_S256x768_S4000x768_1_0_0_1_n_n : DotDims S4000x256 S256x768 S4000x768 where
  lhsContracting := [1]
  rhsContracting := [0]
  lhsNonContracting := [0]
  rhsNonContracting := [1]
  lhsBatch := []
  rhsBatch := []
  wf := dot_S4000x256_S256x768_S4000x768_1_0_0_1_n_n_wf
def dot_S475x256_S256x256_S475x256_1_0_0_1_n_n : DotDims S475x256 S256x256 S475x256 where
  lhsContracting := [1]
  rhsContracting := [0]
  lhsNonContracting := [0]
  rhsNonContracting := [1]
  lhsBatch := []
  rhsBatch := []
  wf := dot_S475x256_S256x256_S475x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def gather_S475x256_S500000x1_S500000x256_1_0_n_n_0_1_1256 : GatherDims S475x256 S500000x1 S500000x256 where
  offsetDims := [1]
  collapsedSliceDims := [0]
  operandBatchingDims := []
  startIndicesBatchingDims := []
  startIndexMap := [0]
  indexVectorDim := 1
  sliceSizes := ![1, 256]
  wf := gather_S475x256_S500000x1_S500000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S474x256_S256x256_S474x256_1_0_0_1_n_n : DotDims S474x256 S256x256 S474x256 where
  lhsContracting := [1]
  rhsContracting := [0]
  lhsNonContracting := [0]
  rhsNonContracting := [1]
  lhsBatch := []
  rhsBatch := []
  wf := dot_S474x256_S256x256_S474x256_1_0_0_1_n_n_wf

abbrev win0_0 : Pipeline.Window sig grid0 :=
  Pipeline.Window.ofSpec (Memref.whole main_v30) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S474x256 : Shape := ⟨2, ![474, 256]⟩
abbrev S256x256 : Shape := ⟨2, ![256, 256]⟩
abbrev S1x256 : Shape := ⟨2, ![1, 256]⟩
abbrev S256 : Shape := ⟨1, ![256]⟩
abbrev S2x1000000 : Shape := ⟨2, ![2, 1000000]⟩
abbrev S1000000 : Shape := ⟨1, ![1000000]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S475x256 : Shape := ⟨2, ![475, 256]⟩
abbrev S500000 : Shape := ⟨1, ![500000]⟩
abbrev S500000x1 : Shape := ⟨2, ![500000, 1]⟩
abbrev S500000x256 : Shape := ⟨2, ![500000, 256]⟩

abbrev nBuf : Space → Nat
  | .hbm => 168
  | .vmem => 0
  | .smem => 0
  | _ => 0

abbrev hbmTy0_0 (i : Nat) : BufTy := match i % 128 with
  | 0 => ⟨S100000x256, .f32⟩
  | 1 => ⟨S474x256, .f32⟩
  | 2 => ⟨S256x256, .f32⟩
  | 3 => ⟨S256x256, .f32⟩
  | 4 => ⟨S256x256, .f32⟩
  | 5 => ⟨S256x256, .f32⟩
  | 6 => ⟨S1x256, .f32⟩
  | 7 => ⟨S256, .f32⟩
  | 8 => ⟨S256, .f32⟩
  | 9 => ⟨S256, .f32⟩
  | 10 => ⟨S2x1000000, .i32⟩
  | 11 => ⟨S1000000, .i32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000, .f32⟩
  | 50 => ⟨S1000000, .f32⟩
  | 51 => ⟨S475x256, .f32⟩
  | 52 => ⟨S500000, .i32⟩
  | 53 => ⟨S500000, .i32⟩
  | 54 => ⟨S500000, .i32⟩
  | 55 => ⟨S500000, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x256, .f32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x256, .f32⟩
  | 74 => ⟨S500000x256, .f32⟩
  | 75 => ⟨S500000x256, .f32⟩
  | 76 => ⟨S500000x1, .f32⟩
  | 77 => ⟨S500000x256, .f32⟩
  | 78 => ⟨S500000x256, .f32⟩
  | 79 => ⟨S_, .f32⟩
  | 80 => ⟨S100000x256, .f32⟩
  | 81 => ⟨S500000x1, .i32⟩
  | 82 => ⟨S100000x256, .f32⟩
  | 83 => ⟨S500000, .i32⟩
  | 84 => ⟨S500000, .i32⟩
  | 85 => ⟨S500000, .i32⟩
  | 86 => ⟨S500000, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x256, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x256, .f32⟩
  | 105 => ⟨S500000x256, .f32⟩
  | 106 => ⟨S500000x256, .f32⟩
  | 107 => ⟨S500000x1, .f32⟩
  | 108 => ⟨S500000x256, .f32⟩
  | 109 => ⟨S500000x256, .f32⟩
  | 110 => ⟨S_, .f32⟩
  | 111 => ⟨S100000x256, .f32⟩
  | 112 => ⟨S500000x1, .i32⟩
  | 113 => ⟨S100000x256, .f32⟩
  | 114 => ⟨S100000x256, .f32⟩
  | 115 => ⟨S100000x256, .f32⟩
  | 116 => ⟨S100000x256, .f32⟩
  | 117 => ⟨S100000x256, .f32⟩
  | 118 => ⟨S100000x256, .f32⟩
  | 119 => ⟨S1x256, .f32⟩
  | 120 => ⟨S100000x256, .f32⟩
  | 121 => ⟨S100000x256, .f32⟩
  | 122 => ⟨S_, .f32⟩
  | 123 => ⟨S256, .f32⟩
  | 124 => ⟨S_, .f32⟩
  | 125 => ⟨S256, .f32⟩
  | 126 => ⟨S256, .f32⟩
  | 127 => ⟨S_, .i32⟩
  | _ => ⟨S100000x256, .f32⟩

abbrev hbmTy0_1 (i : Nat) : BufTy := match i % 128 with
  | 0 => ⟨S_, .f32⟩
  | 1 => ⟨S256, .f32⟩
  | 2 => ⟨S1x256, .f32⟩
  | 3 => ⟨S_, .f32⟩
  | 4 => ⟨S1x256, .f32⟩
  | 5 => ⟨S1x256, .f32⟩
  | 6 => ⟨S100000x256, .f32⟩
  | 7 => ⟨S100000x256, .f32⟩
  | 8 => ⟨S100000x256, .f32⟩
  | 9 => ⟨S_, .f32⟩
  | 10 => ⟨S_, .f32⟩
  | 11 => ⟨S_, .f32⟩
  | 12 => ⟨S_, .f32⟩
  | 13 => ⟨S256, .f32⟩
  | 14 => ⟨S256, .f32⟩
  | 15 => ⟨S256, .f32⟩
  | 16 => ⟨S_, .f32⟩
  | 17 => ⟨S_, .i1⟩
  | 18 => ⟨S_, .f32⟩
  | 19 => ⟨S_, .f32⟩
  | 20 => ⟨S256, .f32⟩
  | 21 => ⟨S256, .f32⟩
  | 22 => ⟨S1x256, .f32⟩
  | 23 => ⟨S100000x256, .f32⟩
  | 24 => ⟨S100000x256, .f32⟩
  | 25 => ⟨S1x256, .f32⟩
  | 26 => ⟨S100000x256, .f32⟩
  | 27 => ⟨S100000x256, .f32⟩
  | 28 => ⟨S_, .f32⟩
  | 29 => ⟨S256, .f32⟩
  | 30 => ⟨S256, .f32⟩
  | 31 => ⟨S256, .f32⟩
  | 32 => ⟨S1x256, .f32⟩
  | 33 => ⟨S100000x256, .f32⟩
  | 34 => ⟨S100000x256, .f32⟩
  | 35 => ⟨S1x256, .f32⟩
  | 36 => ⟨S100000x256, .f32⟩
  | 37 => ⟨S100000x256, .f32⟩
  | 38 => ⟨S100000x256, .f32⟩
  | 39 => ⟨S474x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_cst_18 : Ref sig .tc := ⟨.hbm, 124, rfl⟩
abbrev main_v90 : Ref sig .tc := ⟨.hbm, 125, rfl⟩
abbrev main_v91 : Ref sig .tc := ⟨.hbm, 126, rfl⟩
abbrev main_c_19 : Ref sig .tc := ⟨.hbm, 127, rfl⟩
abbrev main_call1_cst : Ref sig .tc := ⟨.hbm, 128, rfl⟩
abbrev main_call1_v0 : Ref sig .tc := ⟨.hbm, 129, rfl⟩
abbrev main_call1_v1 : Ref sig .tc := ⟨.hbm, 130, rfl⟩
abbrev main_call1_cst_0 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_call1_v5 : Ref sig .tc := ⟨.hbm, 135, rfl⟩
abbrev main_call1_v6 : Ref sig .tc := ⟨.hbm, 136, rfl⟩
abbrev main_call1_v7 : Ref sig .tc := ⟨.hbm, 137, rfl⟩
abbrev main_call1_cst_1 : Ref sig .tc := ⟨.hbm, 138, rfl⟩
abbrev main_call1_v8 : Ref sig .tc := ⟨.hbm, 139, rfl⟩
abbrev main_call1_cst_2 : Ref sig .tc := ⟨.hbm, 140, rfl⟩
abbrev main_call1_v9 : Ref sig .tc := ⟨.hbm, 141, rfl⟩
abbrev main_call1_v10 : Ref sig .tc := ⟨.hbm, 142, rfl⟩
abbrev main_call1_v11 : Ref sig .tc := ⟨.hbm, 143, rfl⟩
abbrev main_call1_cst_3 : Ref sig .tc := ⟨.hbm, 144, rfl⟩
abbrev main_call1_v12 : Ref sig .tc := ⟨.hbm, 145, rfl⟩
abbrev main_call1_cst_4 : Ref sig .tc := ⟨.hbm, 146, rfl⟩
abbrev main_call1_call0_v0 : Ref sig .tc := ⟨.hbm, 147, rfl⟩
abbrev main_call1_call0_v1 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_20 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  concatenates_S474x256_S1x256_S475x256_d0 : Shape.Concatenates [S474x256, S1x256] S475x256 0
  slices_S1000000_S500000_0 : S1000000.Slices ![0] S500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  slices_S1000000_S500000_500000 : S1000000.Slices ![500000] S500000
  bcast_S1x256_S100000x256_0_1 : S1x256.BroadcastsInDim S100000x256 (![0, 1] : Fin 2 → Fin S100000x256.rank)
  bcast_S256_S1x256_1 : S256.BroadcastsInDim S1x256 (![1] : Fin 1 → Fin S1x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x256_S500000x1_S500000x256_1_0_n_n_0_1_1256_wf : GatherDims.WF S100000x256 S500000x1 S500000x256 [1] [0] [] [0] [] 1 ![1, 256]
  gather_S475x256_S500000x1_S500000x256_1_0_n_n_0_1_1256_wf : GatherDims.WF S475x256 S500000x1 S500000x256 [1] [0] [] [0] [] 1 ![1, 256]
  dot_S500000x256_S256x256_S500000x256_1_0_0_1_n_n_wf : DotDims.WF S500000x256 S256x256 S500000x256 [1] [0] [0] [1] [] []
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []
  dot_S474x256_S256x256_S474x256_1_0_0_1_n_n_wf : DotDims.WF S474x256 S256x256 S474x256 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def gather_S475x256_S500000x1_S500000x256_1_0_n_n_0_1_1256 : GatherDims S475x256 S500000x1 S500000x256 where
  offsetDims := [1]
  collapsedSliceDims := [0]
  operandBatchingDims := []
  startIndicesBatchingDims := []
  startIndexMap := [0]
  indexVectorDim := 1
  sliceSizes := ![1, 256]
  wf := gather_S475x256_S500000x1_S500000x256_1_0_n_n_0_1_1256_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S474x256_S256x256_S474x256_1_0_0_1_n_n : DotDims S474x256 S256x256 S474x256 where
  lhsContracting := [1]
  rhsContracting := [0]
  lhsNonContracting := [0]
  rhsNonContracting := [1]
  lhsBatch := []
  rhsBatch := []
  wf := dot_S474x256_S256x256_S474x256_1_0_0_1_n_n_wf

class Facts : Prop extends Facts₀ where

variable [Facts]
-- ==== Proof.KDefs.lean ====
/-
  The matrix-product kernel's proof data. The one region walks 25 row blocks of the node features: at point t it
  is handed rows 4000·t … 4000·t+3999 of the bf16 features (window 0) and the whole 256×768 bf16 weight matrix
  (window 1, fetched once), and leaves in its output buffer (window 2) the 4000×768 block of their product.
  Here: the buffer contents the region finds (the fold of the host lines before it over the launch memory), a
  window's block read off its array, the output buffer after the body as the one store's value over the two input
  blocks, and the proof data over these.
-/
import proofs.«117589_j28346784154211_2_alg».proof.Proof.Gen.KernelIdeal.Launch
import proofs.«117589_j28346784154211_2_alg».proof.Proof.Gen.KernelIdeal.Skeleton
import proofs.«117589_j28346784154211_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the host lines before it, folded over the launch
    memory. -/
abbrev V0 (c : Dev nD) : Valuation τ sig (Elt F) :=
  StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each is its buffer's whole rectangle. -/
abbrev r0_0 : Rect S4000x256 := Rect.unit (s := S4000x256) ![0, 0] S4000x256.size inb_S4000x256_S4000x256_0_0
abbrev r0_1 : Rect S256x768 := Rect.unit (s := S256x768) ![0, 0] S256x768.size inb_S256x768_S256x768_0_0
abbrev r0_2 : Rect S4000x768 := Rect.unit (s := S4000x768) ![0, 0] S4000x768.size inb_S4000x768_S4000x768_0_0

/-- The output buffer after the body: its one store, the product of the two loaded blocks. -/
def out0_2 (x0 : Vec F S4000x256 .bf16) (x1 : Vec F S256x768 .bf16) : Vec F S4000x768 .f32 :=
  View.canon [⟨r0_2, k0_pay1 (View.ld x0 r0_0) (View.ld x1 r0_1)⟩]

/-- The one store covers the buffer. -/
theorem cover0_2 (p0 : Vec F S4000x768 .f32) (y : S4000x768.Idx) :
    ∃ pc ∈ ([⟨r0_2, p0⟩] : List (View.Piece (Elt F) S4000x768 .f32)), y ∈ pc.1.set :=
  View.cover_of_tiled [⟨r0_2, p0⟩] S4000x768.size (by rfl) y

/-- The proof data of the pipeline on core `c`: the arrays as the region finds them; after the body at point `t`
    each input buffer still at its block and the output buffer at the product of the two blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.GenH

end
-- ==== Proof.KFrame.lean ====
/-
  The frame of the program around its one region. @main is three stretches of host lines, the region, and three
  more stretches. Here: @main reduces to the region continued by the later lines; no host line writes an argument
  array, and no later line writes an array of the pipeline; hence each argument array ends as launched. Then the
  body's triple (two loads, an ignored load of the output buffer, one covering store), the body obligation at every
  point, the frame run and the frame.
-/
import proofs.«117589_j28346784154211_2_alg».proof.Proof.KDefs

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main reduces to the region continued by the later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (by simp only [List.Forall]; exact ⟨hostOps0_sub, hostOps0_1_sub, hostOps0_2_sub⟩)
    (by simp only [List.Forall]; exact ⟨hostOps0_fresh, hostOps0_1_fresh, hostOps0_2_fresh⟩) main_chain

/-! ## What the host lines leave alone -/

/-- The twelve argument arrays. -/
abbrev argList : List (Ref sig .tc) :=
  [main_arg0, main_arg1, main_arg2, main_arg3, main_arg4, main_arg5, main_arg6, main_arg7, main_arg8, main_arg9, main_arg10, main_arg11]

/-- No line before the region writes an argument array: each writes its own result buffer only. -/
theorem hostOps0_keeps : (hostOps0 : List (HloOp τ sig (Elt F))).Forall fun op => ∀ r ∈ argList, Proc.devRef .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (by revert r; decide)
theorem hostOps0_1_keeps : (hostOps0_1 : List (HloOp τ sig (Elt F))).Forall fun op => ∀ r ∈ argList, Proc.devRef .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (by revert r; decide)
theorem hostOps0_2_keeps : (hostOps0_2 : List (HloOp τ sig (Elt F))).Forall fun op => ∀ r ∈ argList, Proc.devRef .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (by revert r; decide)

/-- No line after the region writes an argument array or an array of the pipeline. -/
theorem hostOps1_1_keeps : (hostOps1_1 : List (HloOp τ sig (Elt F))).Forall fun op =>
    (∀ r ∈ argList, Proc.devRef .tc r ∉ op.writes) ∧ ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals first
    | exact fun r hr => StableHlo.devRef_ne_of_ne (by revert r; decide)
    | exact fun w => StableHlo.devRef_ne_of_ne (by revert w; decide)
theorem hostOps1_2_keeps : (hostOps1_2 : List (HloOp τ sig (Elt F))).Forall fun op =>
    (∀ r ∈ argList, Proc.devRef .tc r ∉ op.writes) ∧ ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals first
    | exact fun r hr => StableHlo.devRef_ne_of_ne (by revert r; decide)
    | exact fun w => StableHlo.devRef_ne_of_ne (by revert w; decide)

set_option maxHeartbeats 40000000 in
theorem hostOps1_keeps : (hostOps1 : List (HloOp τ sig (Elt F))).Forall fun op =>
    (∀ r ∈ argList, Proc.devRef .tc r ∉ op.writes) ∧ ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals first
    | exact fun r hr => StableHlo.devRef_ne_of_ne (by revert r; decide)
    | exact fun w => StableHlo.devRef_ne_of_ne (by revert w; decide)

/-- The lines after the region touch the pipeline's arrays and the bypassing buffers only: each operation's buffers are
    unscoped references, and with nothing prefetched every such reference is one or the other. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact ((List.forall_iff_forall_mem.mp hostOps1_keeps) op hop).2
  · exact ((List.forall_iff_forall_mem.mp hostOps1_1_keeps) op hop).2
  · exact ((List.forall_iff_forall_mem.mp hostOps1_2_keeps) op hop).2

/-- No line before the region writes an argument array, -/
theorem pre_keeps : ∀ op ∈ List.flatten ([hostOps0, hostOps0_1, hostOps0_2] : List (List (HloOp τ sig (Elt F)))),
    ∀ r ∈ argList, Proc.devRef .tc r ∉ op.writes := by
  intro op hop
  obtain ⟨ops, hops, hop⟩ := List.mem_flatten.mp hop
  simp only [List.mem_cons, List.mem_nil_iff, or_false] at hops
  rcases hops with rfl | rfl | rfl
  · exact (List.forall_iff_forall_mem.mp hostOps0_keeps) op hop
  · exact (List.forall_iff_forall_mem.mp hostOps0_1_keeps) op hop
  · exact (List.forall_iff_forall_mem.mp hostOps0_2_keeps) op hop
/-- and none after it. -/
theorem tail_keeps : ∀ op ∈ List.flatten ([hostOps1, hostOps1_1, hostOps1_2] : List (List (HloOp τ sig (Elt F)))),
    ∀ r ∈ argList, Proc.devRef .tc r ∉ op.writes := by
  intro op hop
  obtain ⟨ops, hops, hop⟩ := List.mem_flatten.mp hop
  simp only [List.mem_cons, List.mem_nil_iff, or_false] at hops
  rcases hops with rfl | rfl | rfl
  · exact ((List.forall_iff_forall_mem.mp hostOps1_keeps) op hop).1
  · exact ((List.forall_iff_forall_mem.mp hostOps1_1_keeps) op hop).1
  · exact ((List.forall_iff_forall_mem.mp hostOps1_2_keeps) op hop).1

/-- An argument array is unscoped and is no array of the pipeline. -/
theorem args_unscoped : ∀ r ∈ argList, r.isScoped = false := by decide
theorem args_no_arr : ∀ r ∈ argList, ∀ w, (spec0 w).arr.view.ref ≠ r := by decide
theorem arr_ne : ∀ r ∈ argList, ∀ w, Pipeline.arrRef spec0 w ≠ r := by decide

/-- The region finds every argument array as launched. -/
theorem V_arg (c : Dev nD) (r : Ref sig .tc) (hr : r ∈ argList) : V m c r = m ((c : Thread nD τ).loc r) :=
  StableHlo.after_of_forall_not_mem (b := Proc.devRef .tc r) _ _ (fun op hop => pre_keeps op hop r hr)

/-- Every argument array ends as launched: no later line writes it, it is no array of the pipeline, and the region
    found it as launched. -/
theorem W_arg (dats : (p : Fin 1) → (c : Dev nD) → Dat τ (Elt F) Unit ℕ (UR sig nD τ) ℕ (cfgs p) c) (c : Dev nD)
    (r : Ref sig .tc) (hr : r ∈ argList) :
    Pipeline.afterTail₀ cfgs dats 0 (V0 m) [hostOps1, hostOps1_1, hostOps1_2] c r = m ((c : Thread nD τ).loc r) := by
  unfold Pipeline.afterTail₀
  rw [StableHlo.after_of_forall_not_mem (b := Proc.devRef .tc r) _ _ (fun op hop => tail_keeps op hop r hr),
    Pipeline.withArrays_of_ne _ c (V0 m c) _ r (arr_ne r hr)]
  exact V_arg m c r hr
theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)
theorem V_main_arg5 (c : Dev nD) : V m c main_arg5 = m ((c : Thread nD τ).loc main_arg5) := V_arg m c main_arg5 (by decide)
theorem V_main_arg6 (c : Dev nD) : V m c main_arg6 = m ((c : Thread nD τ).loc main_arg6) := V_arg m c main_arg6 (by decide)
theorem V_main_arg7 (c : Dev nD) : V m c main_arg7 = m ((c : Thread nD τ).loc main_arg7) := V_arg m c main_arg7 (by decide)
theorem V_main_arg8 (c : Dev nD) : V m c main_arg8 = m ((c : Thread nD τ).loc main_arg8) := V_arg m c main_arg8 (by decide)
theorem V_main_arg9 (c : Dev nD) : V m c main_arg9 = m ((c : Thread nD τ).loc main_arg9) := V_arg m c main_arg9 (by decide)
theorem V_main_arg10 (c : Dev nD) : V m c main_arg10 = m ((c : Thread nD τ).loc main_arg10) := V_arg m c main_arg10 (by decide)
theorem V_main_arg11 (c : Dev nD) : V m c main_arg11 = m ((c : Thread nD τ).loc main_arg11) := V_arg m c main_arg11 (by decide)
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := W_arg m dats c main_arg0 (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := W_arg m dats c main_arg1 (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := W_arg m dats c main_arg2 (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := W_arg m dats c main_arg3 (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := W_arg m dats c main_arg4 (by decide)
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := W_arg m dats c main_arg5 (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := W_arg m dats c main_arg6 (by decide)
theorem W_main_arg7 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := W_arg m dats c main_arg7 (by decide)
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := W_arg m dats c main_arg8 (by decide)
theorem W_main_arg9 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) := W_arg m dats c main_arg9 (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg10 = m ((c : Thread nD τ).loc main_arg10) := W_arg m dats c main_arg10 (by decide)
theorem W_main_arg11 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg11 = m ((c : Thread nD τ).loc main_arg11) := W_arg m dats c main_arg11 (by decide)

/-! ## The windows' blocks -/

/-- Each input window's current staging buffer holds its block at every point, fetched there or not (unfetched, the block
    index has not moved), for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A state in the frame run's post has each argument array as launched: the array is unscoped and no array of the
    pipeline, so the post's second clause reads it, at what the later lines leave, which is the launch contents. -/
theorem arg_end (dats : (p : Fin 1) → (c : Dev nD) → Dat τ (Elt F) Unit ℕ (UR sig nD τ) ℕ (cfgs p) c) (st : PUnit × MemSt nD τ sig (Elt F))
    (h : Pipeline.FramePost cfgs dats 0 (Pipeline.afterTail₀ cfgs dats 0 (V0 m) [hostOps1, hostOps1_1, hostOps1_2]) st) (c : Dev nD) (r : Ref sig .tc) (hr : r ∈ argList) :
    st.2.mem ((c.tc : Thread nD τ).loc r) = m ((c.tc : Thread nD τ).loc r) :=
  ((h c).2 r (Pipeline.mem_restRefs_of r (args_unscoped r hr) (args_no_arr r hr))).trans (W_arg m dats c r hr)

/-- From a frame run to the post "every array of the pipeline as computed, every other unscoped buffer as the later lines
    leave it", read at the twelve argument arrays: each is unscoped and no array of the pipeline, and ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun st h c =>
    ⟨arg_end m dats st h c main_arg0 (by decide),
     arg_end m dats st h c main_arg1 (by decide),
     arg_end m dats st h c main_arg2 (by decide),
     arg_end m dats st h c main_arg3 (by decide),
     arg_end m dats st h c main_arg4 (by decide),
     arg_end m dats st h c main_arg5 (by decide),
     arg_end m dats st h c main_arg6 (by decide),
     arg_end m dats st h c main_arg7 (by decide),
     arg_end m dats st h c main_arg8 (by decide),
     arg_end m dats st h c main_arg9 (by decide),
     arg_end m dats st h c main_arg10 (by decide),
     arg_end m dats st h c main_arg11 (by decide)⟩) h

/-! ## The body's triple -/

set_option maxHeartbeats 1000000 in
/-- The kernel body on whole staging memrefs, the two inputs' at read contents `x0`, `x1` and the output's at anything,
    runs to the continuation holding the inputs' as they were and the output's at the product of the two: two loads, a
    load of the output buffer whose value is unused, one store that covers the buffer. -/
theorem sound_kernel (c : Dev nD) (E : Set ℕ) (i : grid0.Coords)
    (arg1 : Memref sig .tc .vmem S4000x256 .bf16) (harg1 : arg1.IsWhole)
    (arg2 : Memref sig .tc .vmem S256x768 .bf16) (harg2 : arg2.IsWhole)
    (arg3 : Memref sig .tc .vmem S4000x768 .f32) (harg3 : arg3.IsWhole)
    (x0 : Vec F S4000x256 .bf16) (x1 : Vec F S256x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    every array of the pipeline at what is computed from the proof data and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs, and its twelve argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.GenH

end
-- ==== Proof.KDefsBits.lean ====
/-
  The matrix-product kernel's proof data. The one region walks 25 row blocks of the node features: at point t it
  is handed rows 4000·t … 4000·t+3999 of the bf16 features (window 0) and the whole 256×768 bf16 weight matrix
  (window 1, fetched once), and leaves in its output buffer (window 2) the 4000×768 block of their product.
  Here: the buffer contents the region finds (the fold of the host lines before it over the launch memory), a
  window's block read off its array, the output buffer after the body as the one store's value over the two input
  blocks, and the proof data over these.
-/
import proofs.«117589_j28346784154211_2_alg».proof.Proof.Gen.Kernel.Launch
import proofs.«117589_j28346784154211_2_alg».proof.Proof.Gen.Kernel.Skeleton
import proofs.«117589_j28346784154211_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the host lines before it, folded over the launch
    memory. -/
abbrev V0 (c : Dev nD) : Valuation τ sig (Elt F) :=
  StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each is its buffer's whole rectangle. -/
abbrev r0_0 : Rect S4000x256 := Rect.unit (s := S4000x256) ![0, 0] S4000x256.size inb_S4000x256_S4000x256_0_0
abbrev r0_1 : Rect S256x768 := Rect.unit (s := S256x768) ![0, 0] S256x768.size inb_S256x768_S256x768_0_0
abbrev r0_2 : Rect S4000x768 := Rect.unit (s := S4000x768) ![0, 0] S4000x768.size inb_S4000x768_S4000x768_0_0

/-- The output buffer after the body: its one store, the product of the two loaded blocks. -/
def out0_2 (x0 : Vec F S4000x256 .bf16) (x1 : Vec F S256x768 .bf16) : Vec F S4000x768 .f32 :=
  View.canon [⟨r0_2, k0_pay1 (View.ld x0 r0_0) (View.ld x1 r0_1)⟩]

/-- The one store covers the buffer. -/
theorem cover0_2 (p0 : Vec F S4000x768 .f32) (y : S4000x768.Idx) :
    ∃ pc ∈ ([⟨r0_2, p0⟩] : List (View.Piece (Elt F) S4000x768 .f32)), y ∈ pc.1.set :=
  View.cover_of_tiled [⟨r0_2, p0⟩] S4000x768.size (by rfl) y

/-- The proof data of the pipeline on core `c`: the arrays as the region finds them; after the body at point `t`
    each input buffer still at its block and the output buffer at the product of the two blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.GenH

end
-- ==== Proof.KFrameBits.lean ====
/-
  The frame of the program around its one region. @main is three stretches of host lines, the region, and three
  more stretches. Here: @main reduces to the region continued by the later lines; no host line writes an argument
  array, and no later line writes an array of the pipeline; hence each argument array ends as launched. Then the
  body's triple (two loads, an ignored load of the output buffer, one covering store), the body obligation at every
  point, the frame run and the frame.
-/
import proofs.«117589_j28346784154211_2_alg».proof.Proof.KDefsBits

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main reduces to the region continued by the later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (by simp only [List.Forall]; exact ⟨hostOps0_sub, hostOps0_1_sub, hostOps0_2_sub⟩)
    (by simp only [List.Forall]; exact ⟨hostOps0_fresh, hostOps0_1_fresh, hostOps0_2_fresh⟩) main_chain

/-! ## What the host lines leave alone -/

/-- The twelve argument arrays. -/
abbrev argList : List (Ref sig .tc) :=
  [main_arg0, main_arg1, main_arg2, main_arg3, main_arg4, main_arg5, main_arg6, main_arg7, main_arg8, main_arg9, main_arg10, main_arg11]

/-- No line before the region writes an argument array: each writes its own result buffer only. -/
theorem hostOps0_keeps : (hostOps0 : List (HloOp τ sig (Elt F))).Forall fun op => ∀ r ∈ argList, Proc.devRef .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (by revert r; decide)
theorem hostOps0_1_keeps : (hostOps0_1 : List (HloOp τ sig (Elt F))).Forall fun op => ∀ r ∈ argList, Proc.devRef .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (by revert r; decide)
theorem hostOps0_2_keeps : (hostOps0_2 : List (HloOp τ sig (Elt F))).Forall fun op => ∀ r ∈ argList, Proc.devRef .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact fun r hr => StableHlo.devRef_ne_of_ne (by revert r; decide)

/-- No line after the region writes an argument array or an array of the pipeline. -/
theorem hostOps1_1_keeps : (hostOps1_1 : List (HloOp τ sig (Elt F))).Forall fun op =>
    (∀ r ∈ argList, Proc.devRef .tc r ∉ op.writes) ∧ ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals first
    | exact fun r hr => StableHlo.devRef_ne_of_ne (by revert r; decide)
    | exact fun w => StableHlo.devRef_ne_of_ne (by revert w; decide)
theorem hostOps1_2_keeps : (hostOps1_2 : List (HloOp τ sig (Elt F))).Forall fun op =>
    (∀ r ∈ argList, Proc.devRef .tc r ∉ op.writes) ∧ ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals first
    | exact fun r hr => StableHlo.devRef_ne_of_ne (by revert r; decide)
    | exact fun w => StableHlo.devRef_ne_of_ne (by revert w; decide)

set_option maxHeartbeats 40000000 in
theorem hostOps1_keeps : (hostOps1 : List (HloOp τ sig (Elt F))).Forall fun op =>
    (∀ r ∈ argList, Proc.devRef .tc r ∉ op.writes) ∧ ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals first
    | exact fun r hr => StableHlo.devRef_ne_of_ne (by revert r; decide)
    | exact fun w => StableHlo.devRef_ne_of_ne (by revert w; decide)

/-- The lines after the region touch the pipeline's arrays and the bypassing buffers only: each operation's buffers are
    unscoped references, and with nothing prefetched every such reference is one or the other. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact ((List.forall_iff_forall_mem.mp hostOps1_keeps) op hop).2
  · exact ((List.forall_iff_forall_mem.mp hostOps1_1_keeps) op hop).2
  · exact ((List.forall_iff_forall_mem.mp hostOps1_2_keeps) op hop).2

/-- No line before the region writes an argument array, -/
theorem pre_keeps : ∀ op ∈ List.flatten ([hostOps0, hostOps0_1, hostOps0_2] : List (List (HloOp τ sig (Elt F)))),
    ∀ r ∈ argList, Proc.devRef .tc r ∉ op.writes := by
  intro op hop
  obtain ⟨ops, hops, hop⟩ := List.mem_flatten.mp hop
  simp only [List.mem_cons, List.mem_nil_iff, or_false] at hops
  rcases hops with rfl | rfl | rfl
  · exact (List.forall_iff_forall_mem.mp hostOps0_keeps) op hop
  · exact (List.forall_iff_forall_mem.mp hostOps0_1_keeps) op hop
  · exact (List.forall_iff_forall_mem.mp hostOps0_2_keeps) op hop
/-- and none after it. -/
theorem tail_keeps : ∀ op ∈ List.flatten ([hostOps1, hostOps1_1, hostOps1_2] : List (List (HloOp τ sig (Elt F)))),
    ∀ r ∈ argList, Proc.devRef .tc r ∉ op.writes := by
  intro op hop
  obtain ⟨ops, hops, hop⟩ := List.mem_flatten.mp hop
  simp only [List.mem_cons, List.mem_nil_iff, or_false] at hops
  rcases hops with rfl | rfl | rfl
  · exact ((List.forall_iff_forall_mem.mp hostOps1_keeps) op hop).1
  · exact ((List.forall_iff_forall_mem.mp hostOps1_1_keeps) op hop).1
  · exact ((List.forall_iff_forall_mem.mp hostOps1_2_keeps) op hop).1

/-- An argument array is unscoped and is no array of the pipeline. -/
theorem args_unscoped : ∀ r ∈ argList, r.isScoped = false := by decide
theorem args_no_arr : ∀ r ∈ argList, ∀ w, (spec0 w).arr.view.ref ≠ r := by decide
theorem arr_ne : ∀ r ∈ argList, ∀ w, Pipeline.arrRef spec0 w ≠ r := by decide

/-- The region finds every argument array as launched. -/
theorem V_arg (c : Dev nD) (r : Ref sig .tc) (hr : r ∈ argList) : V m c r = m ((c : Thread nD τ).loc r) :=
  StableHlo.after_of_forall_not_mem (b := Proc.devRef .tc r) _ _ (fun op hop => pre_keeps op hop r hr)

/-- Every argument array ends as launched: no later line writes it, it is no array of the pipeline, and the region
    found it as launched. -/
theorem W_arg (dats : (p : Fin 1) → (c : Dev nD) → Dat τ (Elt F) Unit ℕ (UR sig nD τ) ℕ (cfgs p) c) (c : Dev nD)
    (r : Ref sig .tc) (hr : r ∈ argList) :
    Pipeline.afterTail₀ cfgs dats 0 (V0 m) [hostOps1, hostOps1_1, hostOps1_2] c r = m ((c : Thread nD τ).loc r) := by
  unfold Pipeline.afterTail₀
  rw [StableHlo.after_of_forall_not_mem (b := Proc.devRef .tc r) _ _ (fun op hop => tail_keeps op hop r hr),
    Pipeline.withArrays_of_ne _ c (V0 m c) _ r (arr_ne r hr)]
  exact V_arg m c r hr
theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)
theorem V_main_arg5 (c : Dev nD) : V m c main_arg5 = m ((c : Thread nD τ).loc main_arg5) := V_arg m c main_arg5 (by decide)
theorem V_main_arg6 (c : Dev nD) : V m c main_arg6 = m ((c : Thread nD τ).loc main_arg6) := V_arg m c main_arg6 (by decide)
theorem V_main_arg7 (c : Dev nD) : V m c main_arg7 = m ((c : Thread nD τ).loc main_arg7) := V_arg m c main_arg7 (by decide)
theorem V_main_arg8 (c : Dev nD) : V m c main_arg8 = m ((c : Thread nD τ).loc main_arg8) := V_arg m c main_arg8 (by decide)
theorem V_main_arg9 (c : Dev nD) : V m c main_arg9 = m ((c : Thread nD τ).loc main_arg9) := V_arg m c main_arg9 (by decide)
theorem V_main_arg10 (c : Dev nD) : V m c main_arg10 = m ((c : Thread nD τ).loc main_arg10) := V_arg m c main_arg10 (by decide)
theorem V_main_arg11 (c : Dev nD) : V m c main_arg11 = m ((c : Thread nD τ).loc main_arg11) := V_arg m c main_arg11 (by decide)
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := W_arg m dats c main_arg0 (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := W_arg m dats c main_arg1 (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := W_arg m dats c main_arg2 (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := W_arg m dats c main_arg3 (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := W_arg m dats c main_arg4 (by decide)
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := W_arg m dats c main_arg5 (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := W_arg m dats c main_arg6 (by decide)
theorem W_main_arg7 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := W_arg m dats c main_arg7 (by decide)
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := W_arg m dats c main_arg8 (by decide)
theorem W_main_arg9 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) := W_arg m dats c main_arg9 (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg10 = m ((c : Thread nD τ).loc main_arg10) := W_arg m dats c main_arg10 (by decide)
theorem W_main_arg11 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg11 = m ((c : Thread nD τ).loc main_arg11) := W_arg m dats c main_arg11 (by decide)

/-! ## The windows' blocks -/

/-- Each input window's current staging buffer holds its block at every point, fetched there or not (unfetched, the block
    index has not moved), for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A state in the frame run's post has each argument array as launched: the array is unscoped and no array of the
    pipeline, so the post's second clause reads it, at what the later lines leave, which is the launch contents. -/
theorem arg_end (dats : (p : Fin 1) → (c : Dev nD) → Dat τ (Elt F) Unit ℕ (UR sig nD τ) ℕ (cfgs p) c) (st : PUnit × MemSt nD τ sig (Elt F))
    (h : Pipeline.FramePost cfgs dats 0 (Pipeline.afterTail₀ cfgs dats 0 (V0 m) [hostOps1, hostOps1_1, hostOps1_2]) st) (c : Dev nD) (r : Ref sig .tc) (hr : r ∈ argList) :
    st.2.mem ((c.tc : Thread nD τ).loc r) = m ((c.tc : Thread nD τ).loc r) :=
  ((h c).2 r (Pipeline.mem_restRefs_of r (args_unscoped r hr) (args_no_arr r hr))).trans (W_arg m dats c r hr)

/-- From a frame run to the post "every array of the pipeline as computed, every other unscoped buffer as the later lines
    leave it", read at the twelve argument arrays: each is unscoped and no array of the pipeline, and ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun st h c =>
    ⟨arg_end m dats st h c main_arg0 (by decide),
     arg_end m dats st h c main_arg1 (by decide),
     arg_end m dats st h c main_arg2 (by decide),
     arg_end m dats st h c main_arg3 (by decide),
     arg_end m dats st h c main_arg4 (by decide),
     arg_end m dats st h c main_arg5 (by decide),
     arg_end m dats st h c main_arg6 (by decide),
     arg_end m dats st h c main_arg7 (by decide),
     arg_end m dats st h c main_arg8 (by decide),
     arg_end m dats st h c main_arg9 (by decide),
     arg_end m dats st h c main_arg10 (by decide),
     arg_end m dats st h c main_arg11 (by decide)⟩) h

/-! ## The body's triple -/

set_option maxHeartbeats 1000000 in
/-- The kernel body on whole staging memrefs, the two inputs' at read contents `x0`, `x1` and the output's at anything,
    runs to the continuation holding the inputs' as they were and the output's at the product of the two: two loads, a
    load of the output buffer whose value is unused, one store that covers the buffer. -/
theorem sound_kernel (c : Dev nD) (E : Set ℕ) (i : grid0.Coords)
    (arg1 : Memref sig .tc .vmem S4000x256 .bf16) (harg1 : arg1.IsWhole)
    (arg2 : Memref sig .tc .vmem S256x768 .bf16) (harg2 : arg2.IsWhole)
    (arg3 : Memref sig .tc .vmem S4000x768 .f32) (harg3 : arg3.IsWhole)
    (x0 : Vec F S4000x256 .bf16) (x1 : Vec F S256x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    every array of the pipeline at what is computed from the proof data and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs, and its twelve argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.GenH

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefRunA.lean ====
/-
  The reference program as one straight line of host operations, and its run.

  The program's body is 156 operations: its own, and at the two places where it calls an outlined function (the
  selection that guards the inverse square root of the degrees, and the variance over the nodes, which itself
  calls a second selection) the called function's operations over that call's buffers. They are listed here in
  program order as 18 short stretches; the whole list is their concatenation. The body equals the sequential
  composition of the list, every operation touches only buffers of the device, none allocates, so every fair
  execution ends with each buffer at the fold of the operations' results over the contents at the start.
  For each stretch the buffers it writes are listed, and a buffer outside that list keeps its contents through it.
-/
import proofs.«117589_j28346784154211_2_alg».proof.Proof.Gen.ReferenceIdeal
import proofs.«117589_j28346784154211_2_alg».proof.Proof.LibHostFold
import Idealize.ShloMosaic.Lib.StableHlo.Run
import Idealize.ShloMosaic.Lib.Pipeline.Regions

noncomputable section

namespace Cert.ReferenceIdeal.RunH

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- Operations 1 … 9 of 156. -/
abbrev w1 : List (HloOp τ sig (Elt F)) :=
  [ StableHlo.unary main_arg10 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg10 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_cst (constant S_ .f32 0x3F800000#32),
    StableHlo.unary main_cst main_v4 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v1 main_v6 (broadcastInDim S1000000x1 ![0] bcast_S1000000_S1000000x1_0 : (⟨S1000000, .i32⟩ : BufTy).Contents (Elt F) → (⟨S1000000x1, .i32⟩ : BufTy).Contents (Elt F)) ]
theorem w1_sub : (w1 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub ..⟩
theorem w1_fresh : ∀ op ∈ (w1 : List (HloOp τ sig (Elt F))), op.fresh = ∅ := by
  intro _ h; (repeat (cases h with | head => rfl | tail _ h => ?_)); exact nomatch h
/-- The buffers this stretch writes. -/
abbrev w1_W : List (Ref sig .tc) := [main_v0, main_v1, main_v2, main_v3, main_cst, main_v4, main_cst_0, main_v5, main_v6]
theorem w1_writes : (w1 : List (HloOp τ sig (Elt F))).Forall fun op => op.writes ⊆ (w1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w1_keep (W : Valuation τ sig (Elt F)) (r : Ref sig .tc) (h : r ∉ w1_W) :
    after w1 W (Proc.devRef .tc r) = W (Proc.devRef .tc r) :=
  after_of_writes_sub w1 W w1_writes h

/-- Operations 10 … 17 of 156. -/
abbrev w2 : List (HloOp τ sig (Elt F)) :=
  [ StableHlo.ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v7 main_v10 main_v11 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32) ]
theorem w2_sub : (w2 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., nullary_bufs_sub ..⟩
theorem w2_fresh : ∀ op ∈ (w2 : List (HloOp τ sig (Elt F))), op.fresh = ∅ := by
  intro _ h; (repeat (cases h with | head => rfl | tail _ h => ?_)); exact nomatch h
/-- The buffers this stretch writes. -/
abbrev w2_W : List (Ref sig .tc) := [main_v7, main_cst_1, main_v8, main_v9, main_cst_2, main_v10, main_v11, main_cst_3]
theorem w2_writes : (w2 : List (HloOp τ sig (Elt F))).Forall fun op => op.writes ⊆ (w2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w2_keep (W : Valuation τ sig (Elt F)) (r : Ref sig .tc) (h : r ∉ w2_W) :
    after w2 W (Proc.devRef .tc r) = W (Proc.devRef .tc r) :=
  after_of_writes_sub w2 W w2_writes h

/-- Operations 18 … 20 of 156. -/
abbrev w3 : List (HloOp τ sig (Elt F)) :=
  [ StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v9 : StableHlo.TRef sig ⟨S100000, .i1⟩) (.of main_v11 : StableHlo.TRef sig ⟨S100000, .f32⟩) (.of main_call0_v1 : StableHlo.TRef sig ⟨S100000, .f32⟩) (.of main_v12 : StableHlo.TRef sig ⟨S100000, .f32⟩) select ]
theorem w3_sub : (w3 : List (HloOp τ sig (Elt F))).Forall fun op => op.bufs ⊆ tcRefs τ sig :=
  ⟨unary_bufs_sub .., unary_bufs_sub .., ternary_bufs_sub ..⟩
theorem w3_fresh : ∀ op ∈ (w3 : List (HloOp τ sig (Elt F))), op.fresh = ∅ := by
  intro _ h; (repeat (cases h with | head => rfl | tail _ h => ?_)); exact nomatch h
/-- The buffers this stretch writes. -/
abbrev w3_W : List (Ref sig .tc) := [main_call0_v0, main_call0_v1, main_v12]
theorem w3_writes : (w3 : List (HloOp τ sig (Elt F))).Forall fun op => op.writes ⊆ (w3_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w3_keep (W : Valuation τ sig (Elt F)) (r : Ref sig .tc) (h : r ∉ w3_W) :
    after w3 W (Proc.devRef .tc r) = W (Proc.devRef .tc r) :=
  after_of_writes_sub w3 W w3_writes h

/-- Operations 21 … 31 of 156. -/
abbrev w4 : List (HloOp τ sig (Elt F)) :=
  [ StableHlo.nullary main_c (constantI S_ 32 0#32),
    StableHlo.unary main_c main_v13 (broadcastInDim S1000000 ![] bcast_S_S1000000 : (⟨S_, .i32⟩ : BufTy).Contents (Elt F) → (⟨S1000000, .i32⟩ : BufTy).Contents (Elt F)),
    StableHlo.binary main_v1 main_v13 main_v14 (cmpi .slt : (⟨S1000000, .i32⟩ : BufTy).Contents (Elt F) → (⟨S1000000, .i32⟩ : BufTy).Contents (Elt F) → (⟨S1000000, .i1⟩ : BufTy).Contents (Elt F)),
    StableHlo.nullary main_c_4 (constantI S_ 32 100000#32),
    StableHlo.unary main_c_4 main_v15 (broadcastInDim S1000000 ![] bcast_S_S1000000 : (⟨S_, .i32⟩ : BufTy).Contents (Elt F) → (⟨S1000000, .i32⟩ : BufTy).Contents (Elt F)),
    StableHlo.binary main_v1 main_v15 main_v16 (addi : (⟨S1000000, .i32⟩ : BufTy).Contents (Elt F) → (⟨S1000000, .i32⟩ : BufTy).Contents (Elt F) → (⟨S1000000, .i32⟩ : BufTy).Contents (Elt F)),
    StableHlo.ternary main_v14 main_v16 main_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v17 main_v18 (broadcastInDim S1000000x1 ![0] bcast_S1000000_S1000000x1_0 : (⟨S1000000, .i32⟩ : BufTy).Contents (Elt F) → (⟨S1000000x1, .i32⟩ : BufTy).Contents (Elt F)),
    StableHlo.binary main_v12 main_v18 main_v19 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.nullary main_c_5 (constantI S_ 32 0#32),
    StableHlo.unary main_c_5 main_v20 (broadcastInDim S1000000 ![] bcast_S_S1000000 : (⟨S_, .i32⟩ : BufTy).Contents (Elt F) → (⟨S1000000, .i32⟩ : BufTy).Contents (Elt F)) ]
theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩
theorem w4_fresh : ∀ op ∈ (w4 : List (HloOp τ sig (Elt F))), op.fresh = ∅ := by
  intro _ h; (repeat (cases h with | head => rfl | tail _ h => ?_)); exact nomatch h
/-- The buffers this stretch writes. -/
abbrev w4_W : List (Ref sig .tc) := [main_c, main_v13, main_v14, main_c_4, main_v15, main_v16, main_v17, main_v18, main_v19, main_c_5, main_v20]
theorem w4_writes : (w4 : List (HloOp τ sig (Elt F))).Forall fun op => op.writes ⊆ (w4_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w4_keep (W : Valuation τ sig (Elt F)) (r : Ref sig .tc) (h : r ∉ w4_W) :
    after w4 W (Proc.devRef .tc r) = W (Proc.devRef .tc r) :=
  after_of_writes_sub w4 W w4_writes h

/-- Operations 32 … 42 of 156. -/
abbrev w5 : List (HloOp τ sig (Elt F)) :=
  [ StableHlo.binary main_v3 main_v20 main_v21 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v22 (broadcastInDim S1000000 ![] bcast_S_S1000000 : (⟨S_, .i32⟩ : BufTy).Contents (Elt F) → (⟨S1000000, .i32⟩ : BufTy).Contents (Elt F)),
    StableHlo.binary main_v3 main_v22 main_v23 (addi : (⟨S1000000, .i32⟩ : BufTy).Contents (Elt F) → (⟨S1000000, .i32⟩ : BufTy).Contents (Elt F) → (⟨S1000000, .i32⟩ : BufTy).Contents (Elt F)),
    StableHlo.ternary main_v21 main_v23 main_v3 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v24 main_v25 (broadcastInDim S1000000x1 ![0] bcast_S1000000_S1000000x1_0 : (⟨S1000000, .i32⟩ : BufTy).Contents (Elt F) → (⟨S1000000x1, .i32⟩ : BufTy).Contents (Elt F)),
    StableHlo.binary main_v12 main_v25 main_v26 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.binary main_v19 main_v26 main_v27 (mulf : (⟨S1000000, .f32⟩ : BufTy).Contents (Elt F) → (⟨S1000000, .f32⟩ : BufTy).Contents (Elt F) → (⟨S1000000, .f32⟩ : BufTy).Contents (Elt F)),
    StableHlo.binary main_arg1 main_arg6 main_v28 ((fun a b => concatenate S475x256 0 [⟨S474x256, a⟩, ⟨S1x256, b⟩] concatenates_S474x256_S1x256_S475x256_d0) : (⟨S474x256, .f32⟩ : BufTy).Contents (Elt F) → (⟨S1x256, .f32⟩ : BufTy).Contents (Elt F) → (⟨S475x256, .f32⟩ : BufTy).Contents (Elt F)),
    StableHlo.unary main_v1 main_v29 ((extractStridedSlice S500000 ![0] · slices_S1000000_S500000_0) : (⟨S1000000, .i32⟩ : BufTy).Contents (Elt F) → (⟨S500000, .i32⟩ : BufTy).Contents (Elt F)),
    StableHlo.unary main_v3 main_v30 ((extractStridedSlice S500000 ![0] · slices_S1000000_S500000_0) : (⟨S1000000, .i32⟩ : BufTy).Contents (Elt F) → (⟨S500000, .i32⟩ : BufTy).Contents (Elt F)) ]
theorem w5_sub : (w5 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub .., binary_bufs_sub .., unary_bufs_sub .., unary_bufs_sub ..⟩
theorem w5_fresh : ∀ op ∈ (w5 : List (HloOp τ sig (Elt F))), op.fresh = ∅ := by
  intro _ h; (repeat (cases h with | head => rfl | tail _ h => ?_)); exact nomatch h
/-- The buffers this stretch writes. -/
abbrev w5_W : List (Ref sig .tc) := [main_v21, main_c_6, main_v22, main_v23, main_v24, main_v25, main_v26, main_v27, main_v28, main_v29, main_v30]
theorem w5_writes : (w5 : List (HloOp τ sig (Elt F))).Forall fun op => op.writes ⊆ (w5_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w5_keep (W : Valuation τ sig (Elt F)) (r : Ref sig .tc) (h : r ∉ w5_W) :
    after w5 W (Proc.devRef .tc r) = W (Proc.devRef .tc r) :=
  after_of_writes_sub w5 W w5_writes h

/-- Operations 43 … 53 of 156. -/
abbrev w6 : List (HloOp τ sig (Elt F)) :=
  [ StableHlo.unary main_arg11 main_v31 ((extractStridedSlice S500000 ![0] · slices_S1000000_S500000_0) : (⟨S1000000, .i32⟩ : BufTy).Contents (Elt F) → (⟨S500000, .i32⟩ : BufTy).Contents (Elt F)),
    StableHlo.unary main_v27 main_v32 ((extractStridedSlice S500000 ![0] · slices_S1000000_S500000_0) : (⟨S1000000, .f32⟩ : BufTy).Contents (Elt F) → (⟨S500000, .f32⟩ : BufTy).Contents (Elt F)),
    StableHlo.nullary main_c_7 (constantI S_ 32 0#32),
    StableHlo.unary main_c_7 main_v33 (broadcastInDim S500000 ![] bcast_S_S500000 : (⟨S_, .i32⟩ : BufTy).Contents (Elt F) → (⟨S500000, .i32⟩ : BufTy).Contents (Elt F)),
    StableHlo.binary main_v30 main_v33 main_v34 (cmpi .slt : (⟨S500000, .i32⟩ : BufTy).Contents (Elt F) → (⟨S500000, .i32⟩ : BufTy).Contents (Elt F) → (⟨S500000, .i1⟩ : BufTy).Contents (Elt F)),
    StableHlo.nullary main_c_8 (constantI S_ 32 100000#32),
    StableHlo.unary main_c_8 main_v35 (broadcastInDim S500000 ![] bcast_S_S500000 : (⟨S_, .i32⟩ : BufTy).Contents (Elt F) → (⟨S500000, .i32⟩ : BufTy).Contents (Elt F)),
    StableHlo.binary main_v30 main_v35 main_v36 (addi : (⟨S500000, .i32⟩ : BufTy).Contents (Elt F) → (⟨S500000, .i32⟩ : BufTy).Contents (Elt F) → (⟨S500000, .i32⟩ : BufTy).Contents (Elt F)),
    StableHlo.ternary main_v34 main_v36 main_v30 main_v37 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v37 main_v38 (broadcastInDim S500000x1 ![0] bcast_S500000_S500000x1_0 : (⟨S500000, .i32⟩ : BufTy).Contents (Elt F) → (⟨S500000x1, .i32⟩ : BufTy).Contents (Elt F)),
    StableHlo.binary main_arg0 main_v38 main_v39 ((fun x i => Host.gather gather_S100000x256_S500000x1_S500000x256_1_0_n_n_0_1_1256 x i) : (⟨S100000x256, .f32⟩ : BufTy).Contents (Elt F) → (⟨S500000x1, .i32⟩ : BufTy).Contents (Elt F) → (⟨S500000x256, .f32⟩ : BufTy).Contents (Elt F)) ]
theorem w6_sub : (w6 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem w6_fresh : ∀ op ∈ (w6 : List (HloOp τ sig (Elt F))), op.fresh = ∅ := by
  intro _ h; (repeat (cases h with | head => rfl | tail _ h => ?_)); exact nomatch h
/-- The buffers this stretch writes. -/
abbrev w6_W : List (Ref sig .tc) := [main_v31, main_v32, main_c_7, main_v33, main_v34, main_c_8, main_v35, main_v36, main_v37, main_v38, main_v39]
theorem w6_writes : (w6 : List (HloOp τ sig (Elt F))).Forall fun op => op.writes ⊆ (w6_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w6_keep (W : Valuation τ sig (Elt F)) (r : Ref sig .tc) (h : r ∉ w6_W) :
    after w6 W (Proc.devRef .tc r) = W (Proc.devRef .tc r) :=
  after_of_writes_sub w6 W w6_writes h

/-- Operations 54 … 62 of 156. -/
abbrev w7 : List (HloOp τ sig (Elt F)) :=
  [ StableHlo.nullary main_c_9 (constantI S_ 32 0#32),
    StableHlo.unary main_c_9 main_v40 (broadcastInDim S500000 ![] bcast_S_S500000 : (⟨S_, .i32⟩ : BufTy).Contents (Elt F) → (⟨S500000, .i32⟩ : BufTy).Contents (Elt F)),
    StableHlo.binary main_v31 main_v40 main_v41 (cmpi .slt : (⟨S500000, .i32⟩ : BufTy).Contents (Elt F) → (⟨S500000, .i32⟩ : BufTy).Contents (Elt F) → (⟨S500000, .i1⟩ : BufTy).Contents (Elt F)),
    StableHlo.nullary main_c_10 (constantI S_ 32 475#32),
    StableHlo.unary main_c_10 main_v42 (broadcastInDim S500000 ![] bcast_S_S500000 : (⟨S_, .i32⟩ : BufTy).Contents (Elt F) → (⟨S500000, .i32⟩ : BufTy).Contents (Elt F)),
    StableHlo.binary main_v31 main_v42 main_v43 (addi : (⟨S500000, .i32⟩ : BufTy).Contents (Elt F) → (⟨S500000, .i32⟩ : BufTy).Contents (Elt F) → (⟨S500000, .i32⟩ : BufTy).Contents (Elt F)),
    StableHlo.ternary main_v41 main_v43 main_v31 main_v44 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v44 main_v45 (broadcastInDim S500000x1 ![0] bcast_S500000_S500000x1_0 : (⟨S500000, .i32⟩ : BufTy).Contents (Elt F) → (⟨S500000x1, .i32⟩ : BufTy).Contents (Elt F)),
    StableHlo.binary main_v28 main_v45 main_v46 ((fun x i => Host.gather gather_S475x256_S500000x1_S500000x256_1_0_n_n_0_1_1256 x i) : (⟨S475x256, .f32⟩ : BufTy).Contents (Elt F) → (⟨S500000x1, .i32⟩ : BufTy).Contents (Elt F) → (⟨S500000x256, .f32⟩ : BufTy).Contents (Elt F)) ]
theorem w7_sub : (w7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem w7_fresh : ∀ op ∈ (w7 : List (HloOp τ sig (Elt F))), op.fresh = ∅ := by
  intro _ h; (repeat (cases h with | head => rfl | tail _ h => ?_)); exact nomatch h
/-- The buffers this stretch writes. -/
abbrev w7_W : List (Ref sig .tc) := [main_c_9, main_v40, main_v41, main_c_10, main_v42, main_v43, main_v44, main_v45, main_v46]
theorem w7_writes : (w7 : List (HloOp τ sig (Elt F))).Forall fun op => op.writes ⊆ (w7_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w7_keep (W : Valuation τ sig (Elt F)) (r : Ref sig .tc) (h : r ∉ w7_W) :
    after w7 W (Proc.devRef .tc r) = W (Proc.devRef .tc r) :=
  after_of_writes_sub w7 W w7_writes h

/-- Operations 63 … 73 of 156. -/
abbrev w8 : List (HloOp τ sig (Elt F)) :=
  [ StableHlo.binary main_v39 main_v46 main_v47 (subf : (⟨S500000x256, .f32⟩ : BufTy).Contents (Elt F) → (⟨S500000x256, .f32⟩ : BufTy).Contents (Elt F) → (⟨S500000x256, .f32⟩ : BufTy).Contents (Elt F)),
    StableHlo.binary main_v47 main_arg2 main_v48 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    StableHlo.unary main_v32 main_v49 (broadcastInDim S500000x1 ![0] bcast_S500000_S500000x1_0 : (⟨S500000, .f32⟩ : BufTy).Contents (Elt F) → (⟨S500000x1, .f32⟩ : BufTy).Contents (Elt F)),
    StableHlo.unary main_v49 main_v50 (broadcastInDim S500000x256 ![0, 1] bcast_S500000x1_S500000x256_0_1 : (⟨S500000x1, .f32⟩ : BufTy).Contents (Elt F) → (⟨S500000x256, .f32⟩ : BufTy).Contents (Elt F)),
    StableHlo.binary main_v48 main_v50 main_v51 (mulf : (⟨S500000x256, .f32⟩ : BufTy).Contents (Elt F) → (⟨S500000x256, .f32⟩ : BufTy).Contents (Elt F) → (⟨S500000x256, .f32⟩ : BufTy).Contents (Elt F)),
    StableHlo.nullary main_cst_11 (constant S_ .f32 0x00000000#32),
    StableHlo.unary main_cst_11 main_v52 (broadcastInDim S100000x256 ![] bcast_S_S100000x256 : (⟨S_, .f32⟩ : BufTy).Contents (Elt F) → (⟨S100000x256, .f32⟩ : BufTy).Contents (Elt F)),
    StableHlo.unary main_v29 main_v53 (broadcastInDim S500000x1 ![0] bcast_S500000_S500000x1_0 : (⟨S500000, .i32⟩ : BufTy).Contents (Elt F) → (⟨S500000x1, .i32⟩ : BufTy).Contents (Elt F)),
    StableHlo.ternary main_v52 main_v53 main_v51 main_v54 ((fun x i u => Host.scatterAdd scatter_S100000x256_S500000x1_S500000x256_1_0_0_1 x i u) : (⟨S100000x256, .f32⟩ : BufTy).Contents (Elt F) → (⟨S500000x1, .i32⟩ : BufTy).Contents (Elt F) → (⟨S500000x256, .f32⟩ : BufTy).Contents (Elt F) → (⟨S100000x256, .f32⟩ : BufTy).Contents (Elt F)),
    StableHlo.unary main_v1 main_v55 ((extractStridedSlice S500000 ![500000] · slices_S1000000_S500000_500000) : (⟨S1000000, .i32⟩ : BufTy).Contents (Elt F) → (⟨S500000, .i32⟩ : BufTy).Contents (Elt F)),
    StableHlo.unary main_v3 main_v56 ((extractStridedSlice S500000 ![500000] · slices_S1000000_S500000_500000) : (⟨S1000000, .i32⟩ : BufTy).Contents (Elt F) → (⟨S500000, .i32⟩ : BufTy).Contents (Elt F)) ]
theorem w8_sub : (w8 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., unary_bufs_sub .., ternary_bufs_sub .., unary_bufs_sub .., unary_bufs_sub ..⟩
theorem w8_fresh : ∀ op ∈ (w8 : List (HloOp τ sig (Elt F))), op.fresh = ∅ := by
  intro _ h; (repeat (cases h with | head => rfl | tail _ h => ?_)); exact nomatch h
/-- The buffers this stretch writes. -/
abbrev w8_W : List (Ref sig .tc) := [main_v47, main_v48, main_v49, main_v50, main_v51, main_cst_11, main_v52, main_v53, main_v54, main_v55, main_v56]
theorem w8_writes : (w8 : List (HloOp τ sig (Elt F))).Forall fun op => op.writes ⊆ (w8_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w8_keep (W : Valuation τ sig (Elt F)) (r : Ref sig .tc) (h : r ∉ w8_W) :
    after w8 W (Proc.devRef .tc r) = W (Proc.devRef .tc r) :=
  after_of_writes_sub w8 W w8_writes h

/-- Operations 74 … 84 of 156. -/
abbrev w9 : List (HloOp τ sig (Elt F)) :=
  [ StableHlo.unary main_arg11 main_v57 ((extractStridedSlice S500000 ![500000] · slices_S1000000_S500000_500000) : (⟨S1000000, .i32⟩ : BufTy).Contents (Elt F) → (⟨S500000, .i32⟩ : BufTy).Contents (Elt F)),
    StableHlo.unary main_v27 main_v58 ((extractStridedSlice S500000 ![500000] · slices_S1000000_S500000_500000) : (⟨S1000000, .f32⟩ : BufTy).Contents (Elt F) → (⟨S500000, .f32⟩ : BufTy).Contents (Elt F)),
    StableHlo.nullary main_c_12 (constantI S_ 32 0#32),
    StableHlo.unary main_c_12 main_v59 (broadcastInDim S500000 ![] bcast_S_S500000 : (⟨S_, .i32⟩ : BufTy).Contents (Elt F) → (⟨S500000, .i32⟩ : BufTy).Contents (Elt F)),
    StableHlo.binary main_v56 main_v59 main_v60 (cmpi .slt : (⟨S500000, .i32⟩ : BufTy).Contents (Elt F) → (⟨S500000, .i32⟩ : BufTy).Contents (Elt F) → (⟨S500000, .i1⟩ : BufTy).Contents (Elt F)),
    StableHlo.nullary main_c_13 (constantI S_ 32 100000#32),
    StableHlo.unary main_c_13 main_v61 (broadcastInDim S500000 ![] bcast_S_S500000 : (⟨S_, .i32⟩ : BufTy).Contents (Elt F) → (⟨S500000, .i32⟩ : BufTy).Contents (Elt F)),
    StableHlo.binary main_v56 main_v61 main_v62 (addi : (⟨S500000, .i32⟩ : BufTy).Contents (Elt F) → (⟨S500000, .i32⟩ : BufTy).Contents (Elt F) → (⟨S500000, .i32⟩ : BufTy).Contents (Elt F)),
    StableHlo.ternary main_v60 main_v62 main_v56 main_v63 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v63 main_v64 (broadcastInDim S500000x1 ![0] bcast_S500000_S500000x1_0 : (⟨S500000, .i32⟩ : BufTy).Contents (Elt F) → (⟨S500000x1, .i32⟩ : BufTy).Contents (Elt F)),
    StableHlo.binary main_arg0 main_v64 main_v65 ((fun x i => Host.gather gather_S100000x256_S500000x1_S500000x256_1_0_n_n_0_1_1256 x i) : (⟨S100000x256, .f32⟩ : BufTy).Contents (Elt F) → (⟨S500000x1, .i32⟩ : BufTy).Contents (Elt F) → (⟨S500000x256, .f32⟩ : BufTy).Contents (Elt F)) ]
theorem w9_sub : (w9 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem w9_fresh : ∀ op ∈ (w9 : List (HloOp τ sig (Elt F))), op.fresh = ∅ := by
  intro _ h; (repeat (cases h with | head => rfl | tail _ h => ?_)); exact nomatch h
/-- The buffers this stretch writes. -/
abbrev w9_W : List (Ref sig .tc) := [main_v57, main_v58, main_c_12, main_v59, main_v60, main_c_13, main_v61, main_v62, main_v63, main_v64, main_v65]
theorem w9_writes : (w9 : List (HloOp τ sig (Elt F))).Forall fun op => op.writes ⊆ (w9_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w9_keep (W : Valuation τ sig (Elt F)) (r : Ref sig .tc) (h : r ∉ w9_W) :
    after w9 W (Proc.devRef .tc r) = W (Proc.devRef .tc r) :=
  after_of_writes_sub w9 W w9_writes h

/-- Operations 85 … 95 of 156. -/
abbrev w10 : List (HloOp τ sig (Elt F)) :=
  [ StableHlo.nullary main_c_14 (constantI S_ 32 0#32),
    StableHlo.unary main_c_14 main_v66 (broadcastInDim S500000 ![] bcast_S_S500000 : (⟨S_, .i32⟩ : BufTy).Contents (Elt F) → (⟨S500000, .i32⟩ : BufTy).Contents (Elt F)),
    StableHlo.binary main_v57 main_v66 main_v67 (cmpi .slt : (⟨S500000, .i32⟩ : BufTy).Contents (Elt F) → (⟨S500000, .i32⟩ : BufTy).Contents (Elt F) → (⟨S500000, .i1⟩ : BufTy).Contents (Elt F)),
    StableHlo.nullary main_c_15 (constantI S_ 32 475#32),
    StableHlo.unary main_c_15 main_v68 (broadcastInDim S500000 ![] bcast_S_S500000 : (⟨S_, .i32⟩ : BufTy).Contents (Elt F) → (⟨S500000, .i32⟩ : BufTy).Contents (Elt F)),
    StableHlo.binary main_v57 main_v68 main_v69 (addi : (⟨S500000, .i32⟩ : BufTy).Contents (Elt F) → (⟨S500000, .i32⟩ : BufTy).Contents (Elt F) → (⟨S500000, .i32⟩ : BufTy).Contents (Elt F)),
    StableHlo.ternary main_v67 main_v69 main_v57 main_v70 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v70 main_v71 (broadcastInDim S500000x1 ![0] bcast_S500000_S500000x1_0 : (⟨S500000, .i32⟩ : BufTy).Contents (Elt F) → (⟨S500000x1, .i32⟩ : BufTy).Contents (Elt F)),
    StableHlo.binary main_v28 main_v71 main_v72 ((fun x i => Host.gather gather_S475x256_S500000x1_S500000x256_1_0_n_n_0_1_1256 x i) : (⟨S475x256, .f32⟩ : BufTy).Contents (Elt F) → (⟨S500000x1, .i32⟩ : BufTy).Contents (Elt F) → (⟨S500000x256, .f32⟩ : BufTy).Contents (Elt F)),
    StableHlo.binary main_v65 main_v72 main_v73 (subf : (⟨S500000x256, .f32⟩ : BufTy).Contents (Elt F) → (⟨S500000x256, .f32⟩ : BufTy).Contents (Elt F) → (⟨S500000x256, .f32⟩ : BufTy).Contents (Elt F)),
    StableHlo.binary main_v73 main_arg3 main_v74 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)) ]
theorem w10_sub : (w10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩
theorem w10_fresh : ∀ op ∈ (w10 : List (HloOp τ sig (Elt F))), op.fresh = ∅ := by
  intro _ h; (repeat (cases h with | head => rfl | tail _ h => ?_)); exact nomatch h
/-- The buffers this stretch writes. -/
abbrev w10_W : List (Ref sig .tc) := [main_c_14, main_v66, main_v67, main_c_15, main_v68, main_v69, main_v70, main_v71, main_v72, main_v73, main_v74]
theorem w10_writes : (w10 : List (HloOp τ sig (Elt F))).Forall fun op => op.writes ⊆ (w10_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w10_keep (W : Valuation τ sig (Elt F)) (r : Ref sig .tc) (h : r ∉ w10_W) :
    after w10 W (Proc.devRef .tc r) = W (Proc.devRef .tc r) :=
  after_of_writes_sub w10 W w10_writes h

/-- Operations 96 … 106 of 156. -/
abbrev w11 : List (HloOp τ sig (Elt F)) :=
  [ StableHlo.unary main_v58 main_v75 (broadcastInDim S500000x1 ![0] bcast_S500000_S500000x1_0 : (⟨S500000, .f32⟩ : BufTy).Contents (Elt F) → (⟨S500000x1, .f32⟩ : BufTy).Contents (Elt F)),
    StableHlo.unary main_v75 main_v76 (broadcastInDim S500000x256 ![0, 1] bcast_S500000x1_S500000x256_0_1 : (⟨S500000x1, .f32⟩ : BufTy).Contents (Elt F) → (⟨S500000x256, .f32⟩ : BufTy).Contents (Elt F)),
    StableHlo.binary main_v74 main_v76 main_v77 (mulf : (⟨S500000x256, .f32⟩ : BufTy).Contents (Elt F) → (⟨S500000x256, .f32⟩ : BufTy).Contents (Elt F) → (⟨S500000x256, .f32⟩ : BufTy).Contents (Elt F)),
    StableHlo.nullary main_cst_16 (constant S_ .f32 0x00000000#32),
    StableHlo.unary main_cst_16 main_v78 (broadcastInDim S100000x256 ![] bcast_S_S100000x256 : (⟨S_, .f32⟩ : BufTy).Contents (Elt F) → (⟨S100000x256, .f32⟩ : BufTy).Contents (Elt F)),
    StableHlo.unary main_v55 main_v79 (broadcastInDim S500000x1 ![0] bcast_S500000_S500000x1_0 : (⟨S500000, .i32⟩ : BufTy).Contents (Elt F) → (⟨S500000x1, .i32⟩ : BufTy).Contents (Elt F)),
    StableHlo.ternary main_v78 main_v79 main_v77 main_v80 ((fun x i u => Host.scatterAdd scatter_S100000x256_S500000x1_S500000x256_1_0_0_1 x i u) : (⟨S100000x256, .f32⟩ : BufTy).Contents (Elt F) → (⟨S500000x1, .i32⟩ : BufTy).Contents (Elt F) → (⟨S500000x256, .f32⟩ : BufTy).Contents (Elt F) → (⟨S100000x256, .f32⟩ : BufTy).Contents (Elt F)),
    StableHlo.unary main_arg6 main_v81 (broadcastInDim S100000x256 ![0, 1] bcast_S1x256_S100000x256_0_1 : (⟨S1x256, .f32⟩ : BufTy).Contents (Elt F) → (⟨S100000x256, .f32⟩ : BufTy).Contents (Elt F)),
    StableHlo.binary main_arg0 main_v81 main_v82 (subf : (⟨S100000x256, .f32⟩ : BufTy).Contents (Elt F) → (⟨S100000x256, .f32⟩ : BufTy).Contents (Elt F) → (⟨S100000x256, .f32⟩ : BufTy).Contents (Elt F)),
    StableHlo.binary main_v82 main_arg4 main_v83 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v54 main_v80 main_v84 (addf : (⟨S100000x256, .f32⟩ : BufTy).Contents (Elt F) → (⟨S100000x256, .f32⟩ : BufTy).Contents (Elt F) → (⟨S100000x256, .f32⟩ : BufTy).Contents (Elt F)) ]
theorem w11_sub : (w11 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., unary_bufs_sub .., binary_bufs_sub .., binary_bufs_sub .., binary_bufs_sub ..⟩
theorem w11_fresh : ∀ op ∈ (w11 : List (HloOp τ sig (Elt F))), op.fresh = ∅ := by
  intro _ h; (repeat (cases h with | head => rfl | tail _ h => ?_)); exact nomatch h
/-- The buffers this stretch writes. -/
abbrev w11_W : List (Ref sig .tc) := [main_v75, main_v76, main_v77, main_cst_16, main_v78, main_v79, main_v80, main_v81, main_v82, main_v83, main_v84]
theorem w11_writes : (w11 : List (HloOp τ sig (Elt F))).Forall fun op => op.writes ⊆ (w11_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w11_keep (W : Valuation τ sig (Elt F)) (r : Ref sig .tc) (h : r ∉ w11_W) :
    after w11 W (Proc.devRef .tc r) = W (Proc.devRef .tc r) :=
  after_of_writes_sub w11 W w11_writes h

/-- Operations 107 … 116 of 156. -/
abbrev w12 : List (HloOp τ sig (Elt F)) :=
  [ StableHlo.binary main_v84 main_v83 main_v85 (addf : (⟨S100000x256, .f32⟩ : BufTy).Contents (Elt F) → (⟨S100000x256, .f32⟩ : BufTy).Contents (Elt F) → (⟨S100000x256, .f32⟩ : BufTy).Contents (Elt F)),
    StableHlo.unary main_arg7 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S100000x256 ![0, 1] bcast_S1x256_S100000x256_0_1 : (⟨S1x256, .f32⟩ : BufTy).Contents (Elt F) → (⟨S100000x256, .f32⟩ : BufTy).Contents (Elt F)),
    StableHlo.binary main_v85 main_v87 main_v88 (addf : (⟨S100000x256, .f32⟩ : BufTy).Contents (Elt F) → (⟨S100000x256, .f32⟩ : BufTy).Contents (Elt F) → (⟨S100000x256, .f32⟩ : BufTy).Contents (Elt F)),
    StableHlo.nullary main_cst_17 (constant S_ .f32 0x00000000#32),
    StableHlo.binary main_v88 main_cst_17 main_v89 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_18 (constant S_ .f32 0x47C35000#32),
    StableHlo.unary main_cst_18 main_v90 (broadcastInDim S256 ![] bcast_S_S256 : (⟨S_, .f32⟩ : BufTy).Contents (Elt F) → (⟨S256, .f32⟩ : BufTy).Contents (Elt F)),
    StableHlo.binary main_v89 main_v90 main_v91 (Host.divf : (⟨S256, .f32⟩ : BufTy).Contents (Elt F) → (⟨S256, .f32⟩ : BufTy).Contents (Elt F) → (⟨S256, .f32⟩ : BufTy).Contents (Elt F)),
    StableHlo.nullary main_c_19 (constantI S_ 32 0#32) ]
theorem w12_sub : (w12 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub ..⟩
theorem w12_fresh : ∀ op ∈ (w12 : List (HloOp τ sig (Elt F))), op.fresh = ∅ := by
  intro _ h; (repeat (cases h with | head => rfl | tail _ h => ?_)); exact nomatch h
/-- The buffers this stretch writes. -/
abbrev w12_W : List (Ref sig .tc) := [main_v85, main_v86, main_v87, main_v88, main_cst_17, main_v89, main_cst_18, main_v90, main_v91, main_c_19]
theorem w12_writes : (w12 : List (HloOp τ sig (Elt F))).Forall fun op => op.writes ⊆ (w12_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w12_keep (W : Valuation τ sig (Elt F)) (r : Ref sig .tc) (h : r ∉ w12_W) :
    after w12 W (Proc.devRef .tc r) = W (Proc.devRef .tc r) :=
  after_of_writes_sub w12 W w12_writes h

/-- Operations 117 … 126 of 156. -/
abbrev w13 : List (HloOp τ sig (Elt F)) :=
  [ StableHlo.TRef.nullary (.of main_call1_cst : StableHlo.TRef sig ⟨S_, .f32⟩) (constant S_ .f32 0x00000000#32),
    StableHlo.TRef.binary (.of main_v88 : StableHlo.TRef sig ⟨S100000x256, .f32⟩) (.of main_call1_cst : StableHlo.TRef sig ⟨S_, .f32⟩) (.of main_call1_v0 : StableHlo.TRef sig ⟨S256, .f32⟩) (fun x v => Host.reduceAdd x v reducesTo_S100000x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x47C35000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S100000x256, .f32⟩) (broadcastInDim S100000x256 ![0, 1] bcast_S1x256_S100000x256_0_1),
    StableHlo.TRef.binary (.of main_v88 : StableHlo.TRef sig ⟨S100000x256, .f32⟩) (.of main_call1_v4 : StableHlo.TRef sig ⟨S100000x256, .f32⟩) (.of main_call1_v5 : StableHlo.TRef sig ⟨S100000x256, .f32⟩) subf,
    StableHlo.TRef.binary (.of main_call1_v5 : StableHlo.TRef sig ⟨S100000x256, .f32⟩) (.of main_call1_v5 : StableHlo.TRef sig ⟨S100000x256, .f32⟩) (.of main_call1_v6 : StableHlo.TRef sig ⟨S100000x256, .f32⟩) mulf,
    StableHlo.TRef.unary (.of main_c_19 : StableHlo.TRef sig ⟨S_, .i32⟩) (.of main_call1_v7 : StableHlo.TRef sig ⟨S_, .f32⟩) (sitofp .f32) ]
theorem w13_sub : (w13 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub ..⟩
theorem w13_fresh : ∀ op ∈ (w13 : List (HloOp τ sig (Elt F))), op.fresh = ∅ := by
  intro _ h; (repeat (cases h with | head => rfl | tail _ h => ?_)); exact nomatch h
/-- The buffers this stretch writes. -/
abbrev w13_W : List (Ref sig .tc) := [main_call1_cst, main_call1_v0, main_call1_v1, main_call1_cst_0, main_call1_v2, main_call1_v3, main_call1_v4, main_call1_v5, main_call1_v6, main_call1_v7]
theorem w13_writes : (w13 : List (HloOp τ sig (Elt F))).Forall fun op => op.writes ⊆ (w13_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w13_keep (W : Valuation τ sig (Elt F)) (r : Ref sig .tc) (h : r ∉ w13_W) :
    after w13 W (Proc.devRef .tc r) = W (Proc.devRef .tc r) :=
  after_of_writes_sub w13 W w13_writes h

/-- Operations 127 … 135 of 156. -/
abbrev w14 : List (HloOp τ sig (Elt F)) :=
  [ StableHlo.TRef.nullary (.of main_call1_cst_1 : StableHlo.TRef sig ⟨S_, .f32⟩) (constant S_ .f32 0x47C35000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S100000x256, .f32⟩) (.of main_call1_cst_2 : StableHlo.TRef sig ⟨S_, .f32⟩) (.of main_call1_v9 : StableHlo.TRef sig ⟨S256, .f32⟩) (fun x v => Host.reduceAdd x v reducesTo_S100000x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32) ]
theorem w14_sub : (w14 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub .., binary_bufs_sub .., nullary_bufs_sub ..⟩
theorem w14_fresh : ∀ op ∈ (w14 : List (HloOp τ sig (Elt F))), op.fresh = ∅ := by
  intro _ h; (repeat (cases h with | head => rfl | tail _ h => ?_)); exact nomatch h
/-- The buffers this stretch writes. -/
abbrev w14_W : List (Ref sig .tc) := [main_call1_cst_1, main_call1_v8, main_call1_cst_2, main_call1_v9, main_call1_v10, main_call1_v11, main_call1_cst_3, main_call1_v12, main_call1_cst_4]
theorem w14_writes : (w14 : List (HloOp τ sig (Elt F))).Forall fun op => op.writes ⊆ (w14_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w14_keep (W : Valuation τ sig (Elt F)) (r : Ref sig .tc) (h : r ∉ w14_W) :
    after w14 W (Proc.devRef .tc r) = W (Proc.devRef .tc r) :=
  after_of_writes_sub w14 W w14_writes h

/-- Operations 136 … 138 of 156. -/
abbrev w15 : List (HloOp τ sig (Elt F)) :=
  [ StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v92 : StableHlo.TRef sig ⟨S256, .f32⟩) (fun p a b => select (broadcastInDim S256 ![] bcast_S_S256 p) a b) ]
theorem w15_sub : (w15 : List (HloOp τ sig (Elt F))).Forall fun op => op.bufs ⊆ tcRefs τ sig :=
  ⟨unary_bufs_sub .., unary_bufs_sub .., ternary_bufs_sub ..⟩
theorem w15_fresh : ∀ op ∈ (w15 : List (HloOp τ sig (Elt F))), op.fresh = ∅ := by
  intro _ h; (repeat (cases h with | head => rfl | tail _ h => ?_)); exact nomatch h
/-- The buffers this stretch writes. -/
abbrev w15_W : List (Ref sig .tc) := [main_call1_call0_v0, main_call1_call0_v1, main_v92]
theorem w15_writes : (w15 : List (HloOp τ sig (Elt F))).Forall fun op => op.writes ⊆ (w15_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w15_keep (W : Valuation τ sig (Elt F)) (r : Ref sig .tc) (h : r ∉ w15_W) :
    after w15 W (Proc.devRef .tc r) = W (Proc.devRef .tc r) :=
  after_of_writes_sub w15 W w15_writes h

/-- Operations 139 … 143 of 156. -/
abbrev w16 : List (HloOp τ sig (Elt F)) :=
  [ StableHlo.unary main_v91 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S100000x256 ![0, 1] bcast_S1x256_S100000x256_0_1 : (⟨S1x256, .f32⟩ : BufTy).Contents (Elt F) → (⟨S100000x256, .f32⟩ : BufTy).Contents (Elt F)),
    StableHlo.binary main_v88 main_v94 main_v95 (subf : (⟨S100000x256, .f32⟩ : BufTy).Contents (Elt F) → (⟨S100000x256, .f32⟩ : BufTy).Contents (Elt F) → (⟨S100000x256, .f32⟩ : BufTy).Contents (Elt F)),
    StableHlo.unary main_arg8 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S100000x256 ![0, 1] bcast_S1x256_S100000x256_0_1 : (⟨S1x256, .f32⟩ : BufTy).Contents (Elt F) → (⟨S100000x256, .f32⟩ : BufTy).Contents (Elt F)) ]
theorem w16_sub : (w16 : List (HloOp τ sig (Elt F))).Forall fun op => op.bufs ⊆ tcRefs τ sig :=
  ⟨unary_bufs_sub .., unary_bufs_sub .., binary_bufs_sub .., unary_bufs_sub .., unary_bufs_sub ..⟩
theorem w16_fresh : ∀ op ∈ (w16 : List (HloOp τ sig (Elt F))), op.fresh = ∅ := by
  intro _ h; (repeat (cases h with | head => rfl | tail _ h => ?_)); exact nomatch h
/-- The buffers this stretch writes. -/
abbrev w16_W : List (Ref sig .tc) := [main_v93, main_v94, main_v95, main_v96, main_v97]
theorem w16_writes : (w16 : List (HloOp τ sig (Elt F))).Forall fun op => op.writes ⊆ (w16_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w16_keep (W : Valuation τ sig (Elt F)) (r : Ref sig .tc) (h : r ∉ w16_W) :
    after w16 W (Proc.devRef .tc r) = W (Proc.devRef .tc r) :=
  after_of_writes_sub w16 W w16_writes h

/-- Operations 144 … 150 of 156. -/
abbrev w17 : List (HloOp τ sig (Elt F)) :=
  [ StableHlo.binary main_v97 main_v95 main_v98 (mulf : (⟨S100000x256, .f32⟩ : BufTy).Contents (Elt F) → (⟨S100000x256, .f32⟩ : BufTy).Contents (Elt F) → (⟨S100000x256, .f32⟩ : BufTy).Contents (Elt F)),
    StableHlo.nullary main_cst_20 (constant S_ .f32 0x3727C5AC#32),
    StableHlo.unary main_cst_20 main_v99 (broadcastInDim S256 ![] bcast_S_S256 : (⟨S_, .f32⟩ : BufTy).Contents (Elt F) → (⟨S256, .f32⟩ : BufTy).Contents (Elt F)),
    StableHlo.binary main_v92 main_v99 main_v100 (addf : (⟨S256, .f32⟩ : BufTy).Contents (Elt F) → (⟨S256, .f32⟩ : BufTy).Contents (Elt F) → (⟨S256, .f32⟩ : BufTy).Contents (Elt F)),
    StableHlo.unary main_v100 main_v101 (Host.rsqrt : (⟨S256, .f32⟩ : BufTy).Contents (Elt F) → (⟨S256, .f32⟩ : BufTy).Contents (Elt F)),
    StableHlo.unary main_v101 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S100000x256 ![0, 1] bcast_S1x256_S100000x256_0_1 : (⟨S1x256, .f32⟩ : BufTy).Contents (Elt F) → (⟨S100000x256, .f32⟩ : BufTy).Contents (Elt F)) ]
theorem w17_sub : (w17 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub ..⟩
theorem w17_fresh : ∀ op ∈ (w17 : List (HloOp τ sig (Elt F))), op.fresh = ∅ := by
  intro _ h; (repeat (cases h with | head => rfl | tail _ h => ?_)); exact nomatch h
/-- The buffers this stretch writes. -/
abbrev w17_W : List (Ref sig .tc) := [main_v98, main_cst_20, main_v99, main_v100, main_v101, main_v102, main_v103]
theorem w17_writes : (w17 : List (HloOp τ sig (Elt F))).Forall fun op => op.writes ⊆ (w17_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w17_keep (W : Valuation τ sig (Elt F)) (r : Ref sig .tc) (h : r ∉ w17_W) :
    after w17 W (Proc.devRef .tc r) = W (Proc.devRef .tc r) :=
  after_of_writes_sub w17 W w17_writes h

/-- Operations 151 … 156 of 156. -/
abbrev w18 : List (HloOp τ sig (Elt F)) :=
  [ StableHlo.binary main_v98 main_v103 main_v104 (mulf : (⟨S100000x256, .f32⟩ : BufTy).Contents (Elt F) → (⟨S100000x256, .f32⟩ : BufTy).Contents (Elt F) → (⟨S100000x256, .f32⟩ : BufTy).Contents (Elt F)),
    StableHlo.unary main_arg9 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S100000x256 ![0, 1] bcast_S1x256_S100000x256_0_1 : (⟨S1x256, .f32⟩ : BufTy).Contents (Elt F) → (⟨S100000x256, .f32⟩ : BufTy).Contents (Elt F)),
    StableHlo.binary main_v104 main_v106 main_v107 (addf : (⟨S100000x256, .f32⟩ : BufTy).Contents (Elt F) → (⟨S100000x256, .f32⟩ : BufTy).Contents (Elt F) → (⟨S100000x256, .f32⟩ : BufTy).Contents (Elt F)),
    StableHlo.unary main_v107 main_v108 (Host.tanh : (⟨S100000x256, .f32⟩ : BufTy).Contents (Elt F) → (⟨S100000x256, .f32⟩ : BufTy).Contents (Elt F)),
    StableHlo.binary main_arg1 main_arg5 main_v109 ((fun l r => Host.dotGeneral dot_S474x256_S256x256_S474x256_1_0_0_1_n_n none l r) : (⟨S474x256, .f32⟩ : BufTy).Contents (Elt F) → (⟨S256x256, .f32⟩ : BufTy).Contents (Elt F) → (⟨S474x256, .f32⟩ : BufTy).Contents (Elt F)) ]
theorem w18_sub : (w18 : List (HloOp τ sig (Elt F))).Forall fun op => op.bufs ⊆ tcRefs τ sig :=
  ⟨binary_bufs_sub .., unary_bufs_sub .., unary_bufs_sub .., binary_bufs_sub .., unary_bufs_sub .., binary_bufs_sub ..⟩
theorem w18_fresh : ∀ op ∈ (w18 : List (HloOp τ sig (Elt F))), op.fresh = ∅ := by
  intro _ h; (repeat (cases h with | head => rfl | tail _ h => ?_)); exact nomatch h
/-- The buffers this stretch writes. -/
abbrev w18_W : List (Ref sig .tc) := [main_v104, main_v105, main_v106, main_v107, main_v108, main_v109]
theorem w18_writes : (w18 : List (HloOp τ sig (Elt F))).Forall fun op => op.writes ⊆ (w18_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer this stretch does not write keeps its contents through it. -/
theorem w18_keep (W : Valuation τ sig (Elt F)) (r : Ref sig .tc) (h : r ∉ w18_W) :
    after w18 W (Proc.devRef .tc r) = W (Proc.devRef .tc r) :=
  after_of_writes_sub w18 W w18_writes h

/-- All 156 operations, in program order. -/
abbrev ops : List (HloOp τ sig (Elt F)) :=
  w1 ++ (w2 ++ (w3 ++ (w4 ++ (w5 ++ (w6 ++ (w7 ++ (w8 ++ (w9 ++ (w10 ++ (w11 ++ (w12 ++ (w13 ++ (w14 ++ (w15 ++ (w16 ++ (w17 ++ (w18)))))))))))))))))

/-- The program's body is the sequential composition of the list: the called functions unfold at their calls, and both sides are
    the same chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨w1_sub, w2_sub, w3_sub, w4_sub, w5_sub, w6_sub, w7_sub, w8_sub, w9_sub, w10_sub, w11_sub, w12_sub, w13_sub, w14_sub, w15_sub, w16_sub, w17_sub, w18_sub⟩

theorem ops_fresh : ∀ op ∈ (ops : List (HloOp τ sig (Elt F))), op.fresh = ∅ := by
  intro op h
  simp only [ops, List.mem_append] at h
  rcases h with h | h | h | h | h | h | h | h | h | h | h | h | h | h | h | h | h | h
  exacts [w1_fresh op h, w2_fresh op h, w3_fresh op h, w4_fresh op h, w5_fresh op h, w6_fresh op h, w7_fresh op h, w8_fresh op h, w9_fresh op h, w10_fresh op h, w11_fresh op h, w12_fresh op h, w13_fresh op h, w14_fresh op h, w15_fresh op h, w16_fresh op h, w17_fresh op h, w18_fresh op h]

/-- From any memory with zero counters every fair execution of the program terminates, and each buffer of each device ends at the
    fold of the operations' results over that device's contents at the start. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

/-- The union of the stretches' written buffers. -/
abbrev allW : List (Ref sig .tc) := w1_W ++ (w2_W ++ (w3_W ++ (w4_W ++ (w5_W ++ (w6_W ++ (w7_W ++ (w8_W ++ (w9_W ++ (w10_W ++ (w11_W ++ (w12_W ++ (w13_W ++ (w14_W ++ (w15_W ++ (w16_W ++ (w17_W ++ (w18_W)))))))))))))))))

/-- A buffer no operation writes holds at the end what it held at the start. -/
theorem kept (V : Valuation τ sig (Elt F)) (r : Ref sig .tc) (h : r ∉ allW) :
    after ops V (Proc.devRef .tc r) = V (Proc.devRef .tc r) := by
  simp only [allW, List.mem_append, not_or] at h
  obtain ⟨h1, h2, h3, h4, h5, h6, h7, h8, h9, h10, h11, h12, h13, h14, h15, h16, h17, h18⟩ := h
  simp only [ops, Cert.HostFold.after_append]
  rw [w18_keep _ r h18, w17_keep _ r h17, w16_keep _ r h16, w15_keep _ r h15, w14_keep _ r h14, w13_keep _ r h13, w12_keep _ r h12, w11_keep _ r h11, w10_keep _ r h10, w9_keep _ r h9, w8_keep _ r h8, w7_keep _ r h7, w6_keep _ r h6, w5_keep _ r h5, w4_keep _ r h4, w3_keep _ r h3, w2_keep _ r h2, w1_keep _ r h1]

end Cert.ReferenceIdeal.RunH

end
-- ==== Proof.SpecR.lean ====
/-
  The host lines of the reference program, stage by stage, as pure functions of the argument arrays:
  each definition applies one printed operation (or a short run of them) to earlier stages, so that the program's
  fold of its operations over the launch memory unfolds to these terms.
  The layer: node features x [N,256] (N = 100000), relation embeddings r [474,256] with a self-loop relation lr [1,256]
  appended (rfull, 475 rows), E = 1000000 edges (row → col, typed et); the first half of the edges uses w_in, the
  second half w_out; every node also receives (x − lr)·w_loop; the sum is batch-normalised over the nodes and passed
  through tanh. An edge's weight is dinv[row]·dinv[col], dinv the inverse square root of a node's out-degree (0 for
  an isolated node). A negative index is first wrapped by the array's extent (wrapE, wrapH), then clamped by the gather.
-/
import proofs.«117589_j28346784154211_2_alg».proof.Proof.Gen.ReferenceIdeal
import Idealize.ShloMosaic.PureOps

noncomputable section

namespace Cert.ReferenceIdeal.Spec

open Cert.ReferenceIdeal Cert.ReferenceIdeal.Facts₀ Cert.ReferenceIdeal.Facts Idealize.ShloMosaic

variable {F : FTy → Type} [FloatOps F]

/-- The contents of a buffer of shape `s` and element type `e`. -/
abbrev Tn (F : FTy → Type) [FloatOps F] (s : Shape) (e : EltTy) : Type := (⟨s, e⟩ : BufTy).Contents (Elt F)

/-- Source nodes of the edges: row 0 of the edge index. -/
def row (ei : Tn F S2x1000000 .i32) : Tn F S1000000 .i32 :=
  shapeCast S1000000 (extractStridedSlice S1x1000000 ![0, 0] ei slices_S2x1000000_S1x1000000_0_0) shapeCasts_S1x1000000_S1000000
/-- Target nodes of the edges: row 1 of the edge index. -/
def col (ei : Tn F S2x1000000 .i32) : Tn F S1000000 .i32 :=
  shapeCast S1000000 (extractStridedSlice S1x1000000 ![1, 0] ei slices_S2x1000000_S1x1000000_1_0) shapeCasts_S1x1000000_S1000000

/-- Out-degree of every node: a scatter-add of ones at the source nodes. -/
def deg (ei : Tn F S2x1000000 .i32) : Tn F S100000 .f32 :=
  Host.scatterAdd scatter_S100000_S1000000x1_S1000000_n_0_0_1
    (broadcastInDim S100000 ![] bcast_S_S100000 (constant (F := F) S_ .f32 0x00000000#32))
    (broadcastInDim S1000000x1 ![0] bcast_S1000000_S1000000x1_0 (row ei))
    (broadcastInDim S1000000 ![] bcast_S_S1000000 (constant (F := F) S_ .f32 0x3F800000#32))

/-- deg^(−1/2) where the degree is positive, 0 elsewhere. -/
def dinv (ei : Tn F S2x1000000 .i32) : Tn F S100000 .f32 :=
  select (cmpf .ogt (deg ei) (broadcastInDim S100000 ![] bcast_S_S100000 (constant (F := F) S_ .f32 0x00000000#32)))
    (Host.powf (deg ei) (broadcastInDim S100000 ![] bcast_S_S100000 (constant (F := F) S_ .f32 0xBF000000#32)))
    (broadcastInDim S100000 ![] bcast_S_S100000 (id (constant (F := F) S_ .f32 0x00000000#32)))

/-- A node index over all edges, a negative one wrapped by the number of nodes. -/
def wrapE (i : Tn F S1000000 .i32) : Tn F S1000000 .i32 :=
  select (cmpi .slt i (broadcastInDim S1000000 ![] bcast_S_S1000000 (constantI S_ 32 0#32)))
    (addi i (broadcastInDim S1000000 ![] bcast_S_S1000000 (constantI S_ 32 100000#32))) i

/-- The edge weights dinv[row]·dinv[col]. -/
def norm (ei : Tn F S2x1000000 .i32) : Tn F S1000000 .f32 :=
  mulf
    (Host.gather gather_S100000_S1000000x1_S1000000_n_0_n_n_0_1_1 (dinv ei) (broadcastInDim S1000000x1 ![0] bcast_S1000000_S1000000x1_0 (wrapE (row ei))))
    (Host.gather gather_S100000_S1000000x1_S1000000_n_0_n_n_0_1_1 (dinv ei) (broadcastInDim S1000000x1 ![0] bcast_S1000000_S1000000x1_0 (wrapE (col ei))))

/-- The relation table with the self-loop relation appended as row 474. -/
def rfull (r : Tn F S474x256 .f32) (lr : Tn F S1x256 .f32) : Tn F S475x256 .f32 :=
  concatenate S475x256 0 [⟨S474x256, r⟩, ⟨S1x256, lr⟩] concatenates_S474x256_S1x256_S475x256_d0

/-- A node index over half of the edges, wrapped by the number of nodes, as a one-column index array. -/
def nodeIdx (i : Tn F S500000 .i32) : Tn F S500000x1 .i32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 100000#32))) i)
/-- A relation index over half of the edges, wrapped by the 475 rows of the relation table. -/
def relIdx (i : Tn F S500000 .i32) : Tn F S500000x1 .i32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 475#32))) i)
/-- The first and the second half of a per-edge array. -/
def lo {e : EltTy} (v : Tn F S1000000 e) : Tn F S500000 e := extractStridedSlice S500000 ![0] v slices_S1000000_S500000_0
def hi {e : EltTy} (v : Tn F S1000000 e) : Tn F S500000 e := extractStridedSlice S500000 ![500000] v slices_S1000000_S500000_500000
/-- A per-edge weight spread over the 256 features. -/
def spread (v : Tn F S500000 .f32) : Tn F S500000x256 .f32 :=
  broadcastInDim S500000x256 ![0, 1] bcast_S500000x1_S500000x256_0_1 (broadcastInDim S500000x1 ![0] bcast_S500000_S500000x1_0 v)
/-- A feature vector [256] spread over the nodes. -/
def overNodes (v : Tn F S256 .f32) : Tn F S100000x256 .f32 :=
  broadcastInDim S100000x256 ![0, 1] bcast_S1x256_S100000x256_0_1 (broadcastInDim S1x256 ![1] bcast_S256_S1x256_1 v)

/-- The variance over the nodes, feature by feature (the mean of the squared deviations from the mean). -/
def var (h : Tn F S100000x256 .f32) : Tn F S256 .f32 :=
  select (broadcastInDim S256 ![] bcast_S_S256
      (cmpf .ogt (subf (constant (F := F) S_ .f32 0x47C35000#32) (sitofp .f32 (constantI S_ 32 0#32))) (constant (F := F) S_ .f32 0x00000000#32)))
    (Host.divf
      (Host.reduceAdd
        (mulf
          (subf h (broadcastInDim S100000x256 ![0, 1] bcast_S1x256_S100000x256_0_1
            (Host.divf (broadcastInDim S1x256 ![1] bcast_S256_S1x256_1 (Host.reduceAdd h (constant (F := F) S_ .f32 0x00000000#32) reducesTo_S100000x256_S256_d0 h_S_))
              (broadcastInDim S1x256 ![] bcast_S_S1x256 (constant (F := F) S_ .f32 0x47C35000#32)))))
          (subf h (broadcastInDim S100000x256 ![0, 1] bcast_S1x256_S100000x256_0_1
            (Host.divf (broadcastInDim S1x256 ![1] bcast_S256_S1x256_1 (Host.reduceAdd h (constant (F := F) S_ .f32 0x00000000#32) reducesTo_S100000x256_S256_d0 h_S_))
              (broadcastInDim S1x256 ![] bcast_S_S1x256 (constant (F := F) S_ .f32 0x47C35000#32))))))
        (constant (F := F) S_ .f32 0x00000000#32) reducesTo_S100000x256_S256_d0 h_S_)
      (broadcastInDim S256 ![] bcast_S_S256 (subf (constant (F := F) S_ .f32 0x47C35000#32) (sitofp .f32 (constantI S_ 32 0#32)))))
    (broadcastInDim S256 ![] bcast_S_S256 (id (constant (F := F) S_ .f32 0x7FC00000#32)))

/-- Batch normalisation over the nodes followed by tanh: tanh(γ·(h − mean)·rsqrt(var + ε) + β). -/
def bn (h : Tn F S100000x256 .f32) (γ β : Tn F S256 .f32) : Tn F S100000x256 .f32 :=
  Host.tanh (addf
    (mulf
      (mulf (overNodes γ)
        (subf h (overNodes (Host.divf (Host.reduceAdd h (constant (F := F) S_ .f32 0x00000000#32) reducesTo_S100000x256_S256_d0 h_S_)
          (broadcastInDim S256 ![] bcast_S_S256 (constant (F := F) S_ .f32 0x47C35000#32))))))
      (overNodes (Host.rsqrt (addf (var h) (broadcastInDim S256 ![] bcast_S_S256 (constant (F := F) S_ .f32 0x3727C5AC#32))))))
    (overNodes β))

/-- One half's messages: ((x[col] − rfull[et])·W)·norm. -/
def msgR (x : Tn F S100000x256 .f32) (rf : Tn F S475x256 .f32) (w : Tn F S256x256 .f32) (c t : Tn F S500000 .i32) (n : Tn F S500000 .f32) : Tn F S500000x256 .f32 :=
  mulf (Host.dotGeneral dot_S500000x256_S256x256_S500000x256_1_0_0_1_n_n none
      (subf (Host.gather gather_S100000x256_S500000x1_S500000x256_1_0_n_n_0_1_1256 x (nodeIdx c))
            (Host.gather gather_S475x256_S500000x1_S500000x256_1_0_n_n_0_1_1256 rf (relIdx t))) w)
    (spread n)

/-- One half's messages summed at their source nodes. -/
def aggR (msg : Tn F S500000x256 .f32) (rw : Tn F S500000 .i32) : Tn F S100000x256 .f32 :=
  Host.scatterAdd scatter_S100000x256_S500000x1_S500000x256_1_0_0_1
    (broadcastInDim S100000x256 ![] bcast_S_S100000x256 (constant (F := F) S_ .f32 0x00000000#32))
    (broadcastInDim S500000x1 ![0] bcast_S500000_S500000x1_0 rw) msg

/-- The pre-normalisation activations: both halves' sums, plus the self-loop term (x − lr)·w_loop, plus the bias. -/
def hR (x : Tn F S100000x256 .f32) (r : Tn F S474x256 .f32) (lr : Tn F S1x256 .f32) (w_in w_out w_loop : Tn F S256x256 .f32)
    (bias : Tn F S256 .f32) (ei : Tn F S2x1000000 .i32) (et : Tn F S1000000 .i32) : Tn F S100000x256 .f32 :=
  addf (addf (addf
      (aggR (msgR x (rfull r lr) w_in (lo (col ei)) (lo et) (lo (norm ei))) (lo (row ei)))
      (aggR (msgR x (rfull r lr) w_out (hi (col ei)) (hi et) (hi (norm ei))) (hi (row ei))))
    (Host.dotGeneral dot_S100000x256_S256x256_S100000x256_1_0_0_1_n_n none
      (subf x (broadcastInDim S100000x256 ![0, 1] bcast_S1x256_S100000x256_0_1 lr)) w_loop))
    (overNodes bias)

/-- The first result: the layer's output. -/
def resH (x : Tn F S100000x256 .f32) (r : Tn F S474x256 .f32) (w_in w_out w_loop : Tn F S256x256 .f32)
    (lr : Tn F S1x256 .f32) (bias γ β : Tn F S256 .f32) (ei : Tn F S2x1000000 .i32) (et : Tn F S1000000 .i32) : Tn F S100000x256 .f32 :=
  bn (hR x r lr w_in w_out w_loop bias ei et) γ β

/-- The second result: the relation embeddings times w_rel. -/
def resR (r : Tn F S474x256 .f32) (w_rel : Tn F S256x256 .f32) : Tn F S474x256 .f32 :=
  Host.dotGeneral dot_S474x256_S256x256_S474x256_1_0_0_1_n_n none r w_rel

end Cert.ReferenceIdeal.Spec

end
-- ==== Proof.RefRunS1.lean ====
/-
  What stretches 1 … 6 of the reference program's operations leave in the buffers that later operations read.

  Each statement is over any contents W at the stretch's start: given what W holds at the buffers the stretch reads from
  before it, as terms of the stage functions of the argument arrays (V at the arguments' buffers), the fold of the stretch's
  operations holds at a buffer it writes that buffer's own stage term. The fold unrolls, each operation's result is its
  function's value at its result buffer and leaves every other buffer alone; what remains is the stage function's definition.
-/
import proofs.«117589_j28346784154211_2_alg».proof.Proof.RefRunA
import proofs.«117589_j28346784154211_2_alg».proof.Proof.SpecR
import Idealize.ShloMosaic.Lib.StableHlo.Run

noncomputable section

namespace Cert.ReferenceIdeal.RunH

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

theorem s1_v1 (V W : Valuation τ sig (Elt F))
    (h_arg10 : W (Proc.devRef .tc main_arg10) = (V (Proc.devRef .tc main_arg10))) :
    after w1 W (Proc.devRef .tc main_v1) = (Spec.row (V (Proc.devRef .tc main_arg10))) := by
  simp only [w1]
  after_results_simp
  try simp only [h_arg10]
  all_goals rfl

theorem s1_v3 (V W : Valuation τ sig (Elt F))
    (h_arg10 : W (Proc.devRef .tc main_arg10) = (V (Proc.devRef .tc main_arg10))) :
    after w1 W (Proc.devRef .tc main_v3) = (Spec.col (V (Proc.devRef .tc main_arg10))) := by
  simp only [w1]
  after_results_simp
  try simp only [h_arg10]
  all_goals rfl

theorem s1_v4 (V W : Valuation τ sig (Elt F))
  :
    after w1 W (Proc.devRef .tc main_v4) = (broadcastInDim S1000000 ![] bcast_S_S1000000 (constant (F := F) S_ .f32 0x3F800000#32)) := by
  simp only [w1]
  after_results_simp
  all_goals rfl

theorem s1_v5 (V W : Valuation τ sig (Elt F))
  :
    after w1 W (Proc.devRef .tc main_v5) = (broadcastInDim S100000 ![] bcast_S_S100000 (constant (F := F) S_ .f32 0x00000000#32)) := by
  simp only [w1]
  after_results_simp
  all_goals rfl

theorem s1_v6 (V W : Valuation τ sig (Elt F))
    (h_arg10 : W (Proc.devRef .tc main_arg10) = (V (Proc.devRef .tc main_arg10))) :
    after w1 W (Proc.devRef .tc main_v6) = (broadcastInDim S1000000x1 ![0] bcast_S1000000_S1000000x1_0 (Spec.row (V (Proc.devRef .tc main_arg10)))) := by
  simp only [w1]
  after_results_simp
  try simp only [h_arg10]
  all_goals rfl

theorem s2_v9 (V W : Valuation τ sig (Elt F))
    (h_v4 : W (Proc.devRef .tc main_v4) = (broadcastInDim S1000000 ![] bcast_S_S1000000 (constant (F := F) S_ .f32 0x3F800000#32)))
    (h_v6 : W (Proc.devRef .tc main_v6) = (broadcastInDim S1000000x1 ![0] bcast_S1000000_S1000000x1_0 (Spec.row (V (Proc.devRef .tc main_arg10)))))
    (h_v5 : W (Proc.devRef .tc main_v5) = (broadcastInDim S100000 ![] bcast_S_S100000 (constant (F := F) S_ .f32 0x00000000#32))) :
    after w2 W (Proc.devRef .tc main_v9) = (cmpf .ogt (Spec.deg (V (Proc.devRef .tc main_arg10))) (broadcastInDim S100000 ![] bcast_S_S100000 (constant (F := F) S_ .f32 0x00000000#32))) := by
  simp only [w2]
  after_results_simp
  try simp only [h_v4, h_v6, h_v5]
  all_goals rfl

theorem s2_v11 (V W : Valuation τ sig (Elt F))
    (h_v4 : W (Proc.devRef .tc main_v4) = (broadcastInDim S1000000 ![] bcast_S_S1000000 (constant (F := F) S_ .f32 0x3F800000#32)))
    (h_v6 : W (Proc.devRef .tc main_v6) = (broadcastInDim S1000000x1 ![0] bcast_S1000000_S1000000x1_0 (Spec.row (V (Proc.devRef .tc main_arg10)))))
    (h_v5 : W (Proc.devRef .tc main_v5) = (broadcastInDim S100000 ![] bcast_S_S100000 (constant (F := F) S_ .f32 0x00000000#32))) :
    after w2 W (Proc.devRef .tc main_v11) = (Host.powf (Spec.deg (V (Proc.devRef .tc main_arg10))) (broadcastInDim S100000 ![] bcast_S_S100000 (constant (F := F) S_ .f32 0xBF000000#32))) := by
  simp only [w2]
  after_results_simp
  try simp only [h_v4, h_v6, h_v5]
  all_goals rfl

theorem s2_cst_3 (V W : Valuation τ sig (Elt F))
  :
    after w2 W (Proc.devRef .tc main_cst_3) = (constant (F := F) S_ .f32 0x00000000#32) := by
  simp only [w2]
  after_results_simp
  all_goals rfl

theorem s3_v12 (V W : Valuation τ sig (Elt F))
    (h_cst_3 : W (Proc.devRef .tc main_cst_3) = (constant (F := F) S_ .f32 0x00000000#32))
    (h_v11 : W (Proc.devRef .tc main_v11) = (Host.powf (Spec.deg (V (Proc.devRef .tc main_arg10))) (broadcastInDim S100000 ![] bcast_S_S100000 (constant (F := F) S_ .f32 0xBF000000#32))))
    (h_v9 : W (Proc.devRef .tc main_v9) = (cmpf .ogt (Spec.deg (V (Proc.devRef .tc main_arg10))) (broadcastInDim S100000 ![] bcast_S_S100000 (constant (F := F) S_ .f32 0x00000000#32)))) :
    after w3 W (Proc.devRef .tc main_v12) = (Spec.dinv (V (Proc.devRef .tc main_arg10))) := by
  simp only [w3]
  after_results_simp
  try simp only [h_cst_3, h_v11, h_v9]
  all_goals rfl

theorem s4_v19 (V W : Valuation τ sig (Elt F))
    (h_v1 : W (Proc.devRef .tc main_v1) = (Spec.row (V (Proc.devRef .tc main_arg10))))
    (h_v12 : W (Proc.devRef .tc main_v12) = (Spec.dinv (V (Proc.devRef .tc main_arg10)))) :
    after w4 W (Proc.devRef .tc main_v19) = (Host.gather gather_S100000_S1000000x1_S1000000_n_0_n_n_0_1_1 (Spec.dinv (V (Proc.devRef .tc main_arg10))) (broadcastInDim S1000000x1 ![0] bcast_S1000000_S1000000x1_0 (Spec.wrapE (Spec.row (V (Proc.devRef .tc main_arg10)))))) := by
  simp only [w4]
  after_results_simp
  try simp only [h_v1, h_v12]
  all_goals rfl

theorem s4_v20 (V W : Valuation τ sig (Elt F))
  :
    after w4 W (Proc.devRef .tc main_v20) = (broadcastInDim S1000000 ![] bcast_S_S1000000 (constantI S_ 32 0#32)) := by
  simp only [w4]
  after_results_simp
  all_goals rfl

theorem s5_v27 (V W : Valuation τ sig (Elt F))
    (h_v3 : W (Proc.devRef .tc main_v3) = (Spec.col (V (Proc.devRef .tc main_arg10))))
    (h_v20 : W (Proc.devRef .tc main_v20) = (broadcastInDim S1000000 ![] bcast_S_S1000000 (constantI S_ 32 0#32)))
    (h_v12 : W (Proc.devRef .tc main_v12) = (Spec.dinv (V (Proc.devRef .tc main_arg10))))
    (h_v19 : W (Proc.devRef .tc main_v19) = (Host.gather gather_S100000_S1000000x1_S1000000_n_0_n_n_0_1_1 (Spec.dinv (V (Proc.devRef .tc main_arg10))) (broadcastInDim S1000000x1 ![0] bcast_S1000000_S1000000x1_0 (Spec.wrapE (Spec.row (V (Proc.devRef .tc main_arg10))))))) :
    after w5 W (Proc.devRef .tc main_v27) = (Spec.norm (V (Proc.devRef .tc main_arg10))) := by
  simp only [w5]
  after_results_simp
  try simp only [h_v3, h_v20, h_v12, h_v19]
  all_goals rfl

theorem s5_v28 (V W : Valuation τ sig (Elt F))
    (h_arg6 : W (Proc.devRef .tc main_arg6) = (V (Proc.devRef .tc main_arg6)))
    (h_arg1 : W (Proc.devRef .tc main_arg1) = (V (Proc.devRef .tc main_arg1))) :
    after w5 W (Proc.devRef .tc main_v28) = (Spec.rfull (V (Proc.devRef .tc main_arg1)) (V (Proc.devRef .tc main_arg6))) := by
  simp only [w5]
  after_results
  repeat (first | rw [h_arg6] | rw [h_arg1])
  rfl

theorem s5_v29 (V W : Valuation τ sig (Elt F))
    (h_v1 : W (Proc.devRef .tc main_v1) = (Spec.row (V (Proc.devRef .tc main_arg10)))) :
    after w5 W (Proc.devRef .tc main_v29) = (Spec.lo (Spec.row (V (Proc.devRef .tc main_arg10)))) := by
  simp only [w5]
  after_results_simp
  try simp only [h_v1]
  all_goals rfl

theorem s5_v30 (V W : Valuation τ sig (Elt F))
    (h_v3 : W (Proc.devRef .tc main_v3) = (Spec.col (V (Proc.devRef .tc main_arg10)))) :
    after w5 W (Proc.devRef .tc main_v30) = (Spec.lo (Spec.col (V (Proc.devRef .tc main_arg10)))) := by
  simp only [w5]
  after_results_simp
  try simp only [h_v3]
  all_goals rfl

theorem s6_v31 (V W : Valuation τ sig (Elt F))
    (h_arg11 : W (Proc.devRef .tc main_arg11) = (V (Proc.devRef .tc main_arg11))) :
    after w6 W (Proc.devRef .tc main_v31) = (Spec.lo (V (Proc.devRef .tc main_arg11))) := by
  simp only [w6]
  after_results_simp
  try simp only [h_arg11]
  all_goals rfl

theorem s6_v32 (V W : Valuation τ sig (Elt F))
    (h_v27 : W (Proc.devRef .tc main_v27) = (Spec.norm (V (Proc.devRef .tc main_arg10)))) :
    after w6 W (Proc.devRef .tc main_v32) = (Spec.lo (Spec.norm (V (Proc.devRef .tc main_arg10)))) := by
  simp only [w6]
  after_results_simp
  try simp only [h_v27]
  all_goals rfl

theorem s6_v39 (V W : Valuation τ sig (Elt F))
    (h_v30 : W (Proc.devRef .tc main_v30) = (Spec.lo (Spec.col (V (Proc.devRef .tc main_arg10)))))
    (h_arg0 : W (Proc.devRef .tc main_arg0) = (V (Proc.devRef .tc main_arg0))) :
    after w6 W (Proc.devRef .tc main_v39) = (Host.gather gather_S100000x256_S500000x1_S500000x256_1_0_n_n_0_1_1256 (V (Proc.devRef .tc main_arg0)) (Spec.nodeIdx (Spec.lo (Spec.col (V (Proc.devRef .tc main_arg10)))))) := by
  simp only [w6]
  after_results_simp
  try simp only [h_v30, h_arg0]
  all_goals rfl

end Cert.ReferenceIdeal.RunH

end
-- ==== Proof.RefRunS2.lean ====
/-
  What stretches 7 … 12 of the reference program's operations leave in the buffers that later operations read.

  Each statement is over any contents W at the stretch's start: given what W holds at the buffers the stretch reads from
  before it, as terms of the stage functions of the argument arrays (V at the arguments' buffers), the fold of the stretch's
  operations holds at a buffer it writes that buffer's own stage term. The fold unrolls, each operation's result is its
  function's value at its result buffer and leaves every other buffer alone; what remains is the stage function's definition.
-/
import proofs.«117589_j28346784154211_2_alg».proof.Proof.RefRunA
import proofs.«117589_j28346784154211_2_alg».proof.Proof.SpecR
import Idealize.ShloMosaic.Lib.StableHlo.Run

noncomputable section

namespace Cert.ReferenceIdeal.RunH

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

theorem s7_v46 (V W : Valuation τ sig (Elt F))
    (h_v31 : W (Proc.devRef .tc main_v31) = (Spec.lo (V (Proc.devRef .tc main_arg11))))
    (h_v28 : W (Proc.devRef .tc main_v28) = (Spec.rfull (V (Proc.devRef .tc main_arg1)) (V (Proc.devRef .tc main_arg6)))) :
    after w7 W (Proc.devRef .tc main_v46) = (Host.gather gather_S475x256_S500000x1_S500000x256_1_0_n_n_0_1_1256 (Spec.rfull (V (Proc.devRef .tc main_arg1)) (V (Proc.devRef .tc main_arg6))) (Spec.relIdx (Spec.lo (V (Proc.devRef .tc main_arg11))))) := by
  simp only [w7]
  after_results_simp
  try simp only [h_v31, h_v28]
  all_goals rfl

theorem s8_v54 (V W : Valuation τ sig (Elt F))
    (h_v32 : W (Proc.devRef .tc main_v32) = (Spec.lo (Spec.norm (V (Proc.devRef .tc main_arg10)))))
    (h_arg2 : W (Proc.devRef .tc main_arg2) = (V (Proc.devRef .tc main_arg2)))
    (h_v46 : W (Proc.devRef .tc main_v46) = (Host.gather gather_S475x256_S500000x1_S500000x256_1_0_n_n_0_1_1256 (Spec.rfull (V (Proc.devRef .tc main_arg1)) (V (Proc.devRef .tc main_arg6))) (Spec.relIdx (Spec.lo (V (Proc.devRef .tc main_arg11))))))
    (h_v39 : W (Proc.devRef .tc main_v39) = (Host.gather gather_S100000x256_S500000x1_S500000x256_1_0_n_n_0_1_1256 (V (Proc.devRef .tc main_arg0)) (Spec.nodeIdx (Spec.lo (Spec.col (V (Proc.devRef .tc main_arg10)))))))
    (h_v29 : W (Proc.devRef .tc main_v29) = (Spec.lo (Spec.row (V (Proc.devRef .tc main_arg10))))) :
    after w8 W (Proc.devRef .tc main_v54) = (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10))))) := by
  simp only [w8]
  after_results_simp
  try simp only [h_v32, h_arg2, h_v46, h_v39, h_v29]
  all_goals rfl

theorem s8_v55 (V W : Valuation τ sig (Elt F))
    (h_v1 : W (Proc.devRef .tc main_v1) = (Spec.row (V (Proc.devRef .tc main_arg10)))) :
    after w8 W (Proc.devRef .tc main_v55) = (Spec.hi (Spec.row (V (Proc.devRef .tc main_arg10)))) := by
  simp only [w8]
  after_results_simp
  try simp only [h_v1]
  all_goals rfl

theorem s8_v56 (V W : Valuation τ sig (Elt F))
    (h_v3 : W (Proc.devRef .tc main_v3) = (Spec.col (V (Proc.devRef .tc main_arg10)))) :
    after w8 W (Proc.devRef .tc main_v56) = (Spec.hi (Spec.col (V (Proc.devRef .tc main_arg10)))) := by
  simp only [w8]
  after_results_simp
  try simp only [h_v3]
  all_goals rfl

theorem s9_v57 (V W : Valuation τ sig (Elt F))
    (h_arg11 : W (Proc.devRef .tc main_arg11) = (V (Proc.devRef .tc main_arg11))) :
    after w9 W (Proc.devRef .tc main_v57) = (Spec.hi (V (Proc.devRef .tc main_arg11))) := by
  simp only [w9]
  after_results_simp
  try simp only [h_arg11]
  all_goals rfl

theorem s9_v58 (V W : Valuation τ sig (Elt F))
    (h_v27 : W (Proc.devRef .tc main_v27) = (Spec.norm (V (Proc.devRef .tc main_arg10)))) :
    after w9 W (Proc.devRef .tc main_v58) = (Spec.hi (Spec.norm (V (Proc.devRef .tc main_arg10)))) := by
  simp only [w9]
  after_results_simp
  try simp only [h_v27]
  all_goals rfl

theorem s9_v65 (V W : Valuation τ sig (Elt F))
    (h_v56 : W (Proc.devRef .tc main_v56) = (Spec.hi (Spec.col (V (Proc.devRef .tc main_arg10)))))
    (h_arg0 : W (Proc.devRef .tc main_arg0) = (V (Proc.devRef .tc main_arg0))) :
    after w9 W (Proc.devRef .tc main_v65) = (Host.gather gather_S100000x256_S500000x1_S500000x256_1_0_n_n_0_1_1256 (V (Proc.devRef .tc main_arg0)) (Spec.nodeIdx (Spec.hi (Spec.col (V (Proc.devRef .tc main_arg10)))))) := by
  simp only [w9]
  after_results_simp
  try simp only [h_v56, h_arg0]
  all_goals rfl

theorem s10_v74 (V W : Valuation τ sig (Elt F))
    (h_arg3 : W (Proc.devRef .tc main_arg3) = (V (Proc.devRef .tc main_arg3)))
    (h_v57 : W (Proc.devRef .tc main_v57) = (Spec.hi (V (Proc.devRef .tc main_arg11))))
    (h_v28 : W (Proc.devRef .tc main_v28) = (Spec.rfull (V (Proc.devRef .tc main_arg1)) (V (Proc.devRef .tc main_arg6))))
    (h_v65 : W (Proc.devRef .tc main_v65) = (Host.gather gather_S100000x256_S500000x1_S500000x256_1_0_n_n_0_1_1256 (V (Proc.devRef .tc main_arg0)) (Spec.nodeIdx (Spec.hi (Spec.col (V (Proc.devRef .tc main_arg10))))))) :
    after w10 W (Proc.devRef .tc main_v74) = (Host.dotGeneral dot_S500000x256_S256x256_S500000x256_1_0_0_1_n_n none (subf (Host.gather gather_S100000x256_S500000x1_S500000x256_1_0_n_n_0_1_1256 (V (Proc.devRef .tc main_arg0)) (Spec.nodeIdx (Spec.hi (Spec.col (V (Proc.devRef .tc main_arg10)))))) (Host.gather gather_S475x256_S500000x1_S500000x256_1_0_n_n_0_1_1256 (Spec.rfull (V (Proc.devRef .tc main_arg1)) (V (Proc.devRef .tc main_arg6))) (Spec.relIdx (Spec.hi (V (Proc.devRef .tc main_arg11)))))) (V (Proc.devRef .tc main_arg3))) := by
  simp only [w10]
  after_results_simp
  try simp only [h_arg3, h_v57, h_v28, h_v65]
  all_goals rfl

theorem s11_v83 (V W : Valuation τ sig (Elt F))
    (h_arg4 : W (Proc.devRef .tc main_arg4) = (V (Proc.devRef .tc main_arg4)))
    (h_arg6 : W (Proc.devRef .tc main_arg6) = (V (Proc.devRef .tc main_arg6)))
    (h_arg0 : W (Proc.devRef .tc main_arg0) = (V (Proc.devRef .tc main_arg0))) :
    after w11 W (Proc.devRef .tc main_v83) = (Host.dotGeneral dot_S100000x256_S256x256_S100000x256_1_0_0_1_n_n none (subf (V (Proc.devRef .tc main_arg0)) (broadcastInDim S100000x256 ![0, 1] bcast_S1x256_S100000x256_0_1 (V (Proc.devRef .tc main_arg6)))) (V (Proc.devRef .tc main_arg4))) := by
  simp only [w11]
  after_results_simp
  try simp only [h_arg4, h_arg6, h_arg0]
  all_goals rfl

theorem s11_v84 (V W : Valuation τ sig (Elt F))
    (h_v58 : W (Proc.devRef .tc main_v58) = (Spec.hi (Spec.norm (V (Proc.devRef .tc main_arg10)))))
    (h_v74 : W (Proc.devRef .tc main_v74) = (Host.dotGeneral dot_S500000x256_S256x256_S500000x256_1_0_0_1_n_n none (subf (Host.gather gather_S100000x256_S500000x1_S500000x256_1_0_n_n_0_1_1256 (V (Proc.devRef .tc main_arg0)) (Spec.nodeIdx (Spec.hi (Spec.col (V (Proc.devRef .tc main_arg10)))))) (Host.gather gather_S475x256_S500000x1_S500000x256_1_0_n_n_0_1_1256 (Spec.rfull (V (Proc.devRef .tc main_arg1)) (V (Proc.devRef .tc main_arg6))) (Spec.relIdx (Spec.hi (V (Proc.devRef .tc main_arg11)))))) (V (Proc.devRef .tc main_arg3))))
    (h_v55 : W (Proc.devRef .tc main_v55) = (Spec.hi (Spec.row (V (Proc.devRef .tc main_arg10)))))
    (h_v54 : W (Proc.devRef .tc main_v54) = (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10)))))) :
    after w11 W (Proc.devRef .tc main_v84) = (addf (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10))))) (Spec.aggR (Spec.msgR (V (Proc.devRef .tc main_arg0)) (Spec.rfull (V (Proc.devRef .tc main_arg1)) (V (Proc.devRef .tc main_arg6))) (V (Proc.devRef .tc main_arg3)) (Spec.hi (Spec.col (V (Proc.devRef .tc main_arg10)))) (Spec.hi (V (Proc.devRef .tc main_arg11))) (Spec.hi (Spec.norm (V (Proc.devRef .tc main_arg10))))) (Spec.hi (Spec.row (V (Proc.devRef .tc main_arg10)))))) := by
  simp only [w11]
  after_results_simp
  try simp only [h_v58, h_v74, h_v55, h_v54]
  all_goals rfl

theorem s12_v88 (V W : Valuation τ sig (Elt F))
    (h_arg7 : W (Proc.devRef .tc main_arg7) = (V (Proc.devRef .tc main_arg7)))
    (h_v83 : W (Proc.devRef .tc main_v83) = (Host.dotGeneral dot_S100000x256_S256x256_S100000x256_1_0_0_1_n_n none (subf (V (Proc.devRef .tc main_arg0)) (broadcastInDim S100000x256 ![0, 1] bcast_S1x256_S100000x256_0_1 (V (Proc.devRef .tc main_arg6)))) (V (Proc.devRef .tc main_arg4))))
    (h_v84 : W (Proc.devRef .tc main_v84) = (addf (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10))))) (Spec.aggR (Spec.msgR (V (Proc.devRef .tc main_arg0)) (Spec.rfull (V (Proc.devRef .tc main_arg1)) (V (Proc.devRef .tc main_arg6))) (V (Proc.devRef .tc main_arg3)) (Spec.hi (Spec.col (V (Proc.devRef .tc main_arg10)))) (Spec.hi (V (Proc.devRef .tc main_arg11))) (Spec.hi (Spec.norm (V (Proc.devRef .tc main_arg10))))) (Spec.hi (Spec.row (V (Proc.devRef .tc main_arg10))))))) :
    after w12 W (Proc.devRef .tc main_v88) = (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) := by
  simp only [w12]
  after_results_simp
  try simp only [h_arg7, h_v83, h_v84]
  all_goals rfl

theorem s12_v91 (V W : Valuation τ sig (Elt F))
    (h_arg7 : W (Proc.devRef .tc main_arg7) = (V (Proc.devRef .tc main_arg7)))
    (h_v83 : W (Proc.devRef .tc main_v83) = (Host.dotGeneral dot_S100000x256_S256x256_S100000x256_1_0_0_1_n_n none (subf (V (Proc.devRef .tc main_arg0)) (broadcastInDim S100000x256 ![0, 1] bcast_S1x256_S100000x256_0_1 (V (Proc.devRef .tc main_arg6)))) (V (Proc.devRef .tc main_arg4))))
    (h_v84 : W (Proc.devRef .tc main_v84) = (addf (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10))))) (Spec.aggR (Spec.msgR (V (Proc.devRef .tc main_arg0)) (Spec.rfull (V (Proc.devRef .tc main_arg1)) (V (Proc.devRef .tc main_arg6))) (V (Proc.devRef .tc main_arg3)) (Spec.hi (Spec.col (V (Proc.devRef .tc main_arg10)))) (Spec.hi (V (Proc.devRef .tc main_arg11))) (Spec.hi (Spec.norm (V (Proc.devRef .tc main_arg10))))) (Spec.hi (Spec.row (V (Proc.devRef .tc main_arg10))))))) :
    after w12 W (Proc.devRef .tc main_v91) = (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32))) := by
  simp only [w12]
  after_results_simp
  try simp only [h_arg7, h_v83, h_v84]
  all_goals rfl

theorem s12_c_19 (V W : Valuation τ sig (Elt F))
  :
    after w12 W (Proc.devRef .tc main_c_19) = (constantI S_ 32 0#32) := by
  simp only [w12]
  after_results_simp
  all_goals rfl

end Cert.ReferenceIdeal.RunH

end
-- ==== Proof.RefRunS3.lean ====
/-
  What stretches 13 … 18 of the reference program's operations leave in the buffers that later operations read.

  Each statement is over any contents W at the stretch's start: given what W holds at the buffers the stretch reads from
  before it, as terms of the stage functions of the argument arrays (V at the arguments' buffers), the fold of the stretch's
  operations holds at a buffer it writes that buffer's own stage term. The fold unrolls, each operation's result is its
  function's value at its result buffer and leaves every other buffer alone; what remains is the stage function's definition.
-/
import proofs.«117589_j28346784154211_2_alg».proof.Proof.RefRunA
import proofs.«117589_j28346784154211_2_alg».proof.Proof.SpecR
import Idealize.ShloMosaic.Lib.StableHlo.Run

noncomputable section

namespace Cert.ReferenceIdeal.RunH

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

theorem s13_call1_v6 (V W : Valuation τ sig (Elt F))
    (h_v88 : W (Proc.devRef .tc main_v88) = (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11)))) :
    after w13 W (Proc.devRef .tc main_call1_v6) = (mulf (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32))))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32)))))) := by
  simp only [w13]
  after_results_simp
  try simp only [h_v88]
  all_goals rfl

theorem s13_call1_v7 (V W : Valuation τ sig (Elt F))
    (h_c_19 : W (Proc.devRef .tc main_c_19) = (constantI S_ 32 0#32)) :
    after w13 W (Proc.devRef .tc main_call1_v7) = (sitofp .f32 (constantI S_ 32 0#32)) := by
  simp only [w13]
  after_results_simp
  try simp only [h_c_19]
  all_goals rfl

theorem s14_call1_v11 (V W : Valuation τ sig (Elt F))
    (h_call1_v7 : W (Proc.devRef .tc main_call1_v7) = (sitofp .f32 (constantI S_ 32 0#32)))
    (h_call1_v6 : W (Proc.devRef .tc main_call1_v6) = (mulf (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32))))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32))))))) :
    after w14 W (Proc.devRef .tc main_call1_v11) = (Host.divf (Host.reduceAdd (mulf (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32))))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32)))))) (constant (F := F) S_ .f32 0x00000000#32) reducesTo_S100000x256_S256_d0 h_S_) (broadcastInDim S256 ![] bcast_S_S256 (subf (constant (F := F) S_ .f32 0x47C35000#32) (sitofp .f32 (constantI S_ 32 0#32))))) := by
  simp only [w14]
  after_results_simp
  try simp only [h_call1_v7, h_call1_v6]
  all_goals rfl

theorem s14_call1_v12 (V W : Valuation τ sig (Elt F))
    (h_call1_v7 : W (Proc.devRef .tc main_call1_v7) = (sitofp .f32 (constantI S_ 32 0#32))) :
    after w14 W (Proc.devRef .tc main_call1_v12) = (cmpf .ogt (subf (constant (F := F) S_ .f32 0x47C35000#32) (sitofp .f32 (constantI S_ 32 0#32))) (constant (F := F) S_ .f32 0x00000000#32)) := by
  simp only [w14]
  after_results_simp
  try simp only [h_call1_v7]
  all_goals rfl

theorem s14_call1_cst_4 (V W : Valuation τ sig (Elt F))
  :
    after w14 W (Proc.devRef .tc main_call1_cst_4) = (constant (F := F) S_ .f32 0x7FC00000#32) := by
  simp only [w14]
  after_results_simp
  all_goals rfl

theorem s15_v92 (V W : Valuation τ sig (Elt F))
    (h_call1_cst_4 : W (Proc.devRef .tc main_call1_cst_4) = (constant (F := F) S_ .f32 0x7FC00000#32))
    (h_call1_v11 : W (Proc.devRef .tc main_call1_v11) = (Host.divf (Host.reduceAdd (mulf (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32))))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32)))))) (constant (F := F) S_ .f32 0x00000000#32) reducesTo_S100000x256_S256_d0 h_S_) (broadcastInDim S256 ![] bcast_S_S256 (subf (constant (F := F) S_ .f32 0x47C35000#32) (sitofp .f32 (constantI S_ 32 0#32))))))
    (h_call1_v12 : W (Proc.devRef .tc main_call1_v12) = (cmpf .ogt (subf (constant (F := F) S_ .f32 0x47C35000#32) (sitofp .f32 (constantI S_ 32 0#32))) (constant (F := F) S_ .f32 0x00000000#32))) :
    after w15 W (Proc.devRef .tc main_v92) = (Spec.var (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11)))) := by
  simp only [w15]
  after_results_simp
  try simp only [h_call1_cst_4, h_call1_v11, h_call1_v12]
  all_goals rfl

theorem s16_v95 (V W : Valuation τ sig (Elt F))
    (h_v91 : W (Proc.devRef .tc main_v91) = (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32))))
    (h_v88 : W (Proc.devRef .tc main_v88) = (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11)))) :
    after w16 W (Proc.devRef .tc main_v95) = (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (broadcastInDim S1x256 ![1] bcast_S256_S1x256_1 (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32)))))) := by
  simp only [w16]
  after_results_simp
  try simp only [h_v91, h_v88]
  all_goals rfl

theorem s16_v97 (V W : Valuation τ sig (Elt F))
    (h_arg8 : W (Proc.devRef .tc main_arg8) = (V (Proc.devRef .tc main_arg8))) :
    after w16 W (Proc.devRef .tc main_v97) = (Spec.overNodes (V (Proc.devRef .tc main_arg8))) := by
  simp only [w16]
  after_results_simp
  try simp only [h_arg8]
  all_goals rfl

theorem s17_v98 (V W : Valuation τ sig (Elt F))
    (h_v95 : W (Proc.devRef .tc main_v95) = (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (broadcastInDim S1x256 ![1] bcast_S256_S1x256_1 (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32)))))))
    (h_v97 : W (Proc.devRef .tc main_v97) = (Spec.overNodes (V (Proc.devRef .tc main_arg8)))) :
    after w17 W (Proc.devRef .tc main_v98) = (mulf (Spec.overNodes (V (Proc.devRef .tc main_arg8))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (broadcastInDim S1x256 ![1] bcast_S256_S1x256_1 (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32))))))) := by
  simp only [w17]
  after_results_simp
  try simp only [h_v95, h_v97]
  all_goals rfl

theorem s17_v103 (V W : Valuation τ sig (Elt F))
    (h_v92 : W (Proc.devRef .tc main_v92) = (Spec.var (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))))) :
    after w17 W (Proc.devRef .tc main_v103) = (broadcastInDim S100000x256 ![0, 1] bcast_S1x256_S100000x256_0_1 (broadcastInDim S1x256 ![1] bcast_S256_S1x256_1 (Host.rsqrt (addf (Spec.var (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11)))) (broadcastInDim S256 ![] bcast_S_S256 (constant (F := F) S_ .f32 0x3727C5AC#32)))))) := by
  simp only [w17]
  after_results_simp
  try simp only [h_v92]
  all_goals rfl

theorem s18_v108 (V W : Valuation τ sig (Elt F))
    (h_arg9 : W (Proc.devRef .tc main_arg9) = (V (Proc.devRef .tc main_arg9)))
    (h_v103 : W (Proc.devRef .tc main_v103) = (broadcastInDim S100000x256 ![0, 1] bcast_S1x256_S100000x256_0_1 (broadcastInDim S1x256 ![1] bcast_S256_S1x256_1 (Host.rsqrt (addf (Spec.var (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11)))) (broadcastInDim S256 ![] bcast_S_S256 (constant (F := F) S_ .f32 0x3727C5AC#32)))))))
    (h_v98 : W (Proc.devRef .tc main_v98) = (mulf (Spec.overNodes (V (Proc.devRef .tc main_arg8))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (broadcastInDim S1x256 ![1] bcast_S256_S1x256_1 (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32)))))))) :
    after w18 W (Proc.devRef .tc main_v108) = (Spec.resH (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11))) := by
  simp only [w18]
  after_results_simp
  try simp only [h_arg9, h_v103, h_v98]
  all_goals rfl

theorem s18_v109 (V W : Valuation τ sig (Elt F))
    (h_arg5 : W (Proc.devRef .tc main_arg5) = (V (Proc.devRef .tc main_arg5)))
    (h_arg1 : W (Proc.devRef .tc main_arg1) = (V (Proc.devRef .tc main_arg1))) :
    after w18 W (Proc.devRef .tc main_v109) = (Spec.resR (V (Proc.devRef .tc main_arg1)) (V (Proc.devRef .tc main_arg5))) := by
  simp only [w18]
  after_results_simp
  try simp only [h_arg5, h_arg1]
  all_goals rfl

end Cert.ReferenceIdeal.RunH

end
-- ==== Proof.RefRun.lean ====
/-
  The reference program's run read back: the arguments are unchanged, and the two results are the stage functions of the
  argument arrays.

  The contents after the first K stretches are named val K; for every buffer still to be read the contents hold its stage term,
  either because the K-th stretch writes it (that stretch's own statement, fed with the statements one level down) or because the
  stretch does not write it and it held the term before. The whole list's fold is the last of these. An argument's buffer is
  written by no operation. The frame is then the run's statement read at the twelve argument buffers.
-/
import proofs.«117589_j28346784154211_2_alg».proof.Proof.RefRunA
import proofs.«117589_j28346784154211_2_alg».proof.Proof.RefRunS1
import proofs.«117589_j28346784154211_2_alg».proof.Proof.RefRunS2
import proofs.«117589_j28346784154211_2_alg».proof.Proof.RefRunS3
import proofs.«117589_j28346784154211_2_alg».proof.Proof.SpecR
import Idealize.ShloMosaic.Lib.StableHlo.Run

noncomputable section

namespace Cert.ReferenceIdeal.RunH

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The contents before the first stretch. -/
def val0 (V : Valuation τ sig (Elt F)) : Valuation τ sig (Elt F) := V
theorem val0_arg0 (V : Valuation τ sig (Elt F)) : val0 V (Proc.devRef .tc main_arg0) = (V (Proc.devRef .tc main_arg0)) := rfl
theorem val0_arg1 (V : Valuation τ sig (Elt F)) : val0 V (Proc.devRef .tc main_arg1) = (V (Proc.devRef .tc main_arg1)) := rfl
theorem val0_arg2 (V : Valuation τ sig (Elt F)) : val0 V (Proc.devRef .tc main_arg2) = (V (Proc.devRef .tc main_arg2)) := rfl
theorem val0_arg3 (V : Valuation τ sig (Elt F)) : val0 V (Proc.devRef .tc main_arg3) = (V (Proc.devRef .tc main_arg3)) := rfl
theorem val0_arg4 (V : Valuation τ sig (Elt F)) : val0 V (Proc.devRef .tc main_arg4) = (V (Proc.devRef .tc main_arg4)) := rfl
theorem val0_arg5 (V : Valuation τ sig (Elt F)) : val0 V (Proc.devRef .tc main_arg5) = (V (Proc.devRef .tc main_arg5)) := rfl
theorem val0_arg6 (V : Valuation τ sig (Elt F)) : val0 V (Proc.devRef .tc main_arg6) = (V (Proc.devRef .tc main_arg6)) := rfl
theorem val0_arg7 (V : Valuation τ sig (Elt F)) : val0 V (Proc.devRef .tc main_arg7) = (V (Proc.devRef .tc main_arg7)) := rfl
theorem val0_arg8 (V : Valuation τ sig (Elt F)) : val0 V (Proc.devRef .tc main_arg8) = (V (Proc.devRef .tc main_arg8)) := rfl
theorem val0_arg9 (V : Valuation τ sig (Elt F)) : val0 V (Proc.devRef .tc main_arg9) = (V (Proc.devRef .tc main_arg9)) := rfl
theorem val0_arg10 (V : Valuation τ sig (Elt F)) : val0 V (Proc.devRef .tc main_arg10) = (V (Proc.devRef .tc main_arg10)) := rfl
theorem val0_arg11 (V : Valuation τ sig (Elt F)) : val0 V (Proc.devRef .tc main_arg11) = (V (Proc.devRef .tc main_arg11)) := rfl

/-- The contents after the first 1 stretch. -/
def val1 (V : Valuation τ sig (Elt F)) : Valuation τ sig (Elt F) := after w1 (val0 V)
theorem val1_arg0 (V : Valuation τ sig (Elt F)) : val1 V (Proc.devRef .tc main_arg0) = (V (Proc.devRef .tc main_arg0)) :=
  (w1_keep (val0 V) main_arg0 (by decide)).trans (val0_arg0 V)
theorem val1_arg1 (V : Valuation τ sig (Elt F)) : val1 V (Proc.devRef .tc main_arg1) = (V (Proc.devRef .tc main_arg1)) :=
  (w1_keep (val0 V) main_arg1 (by decide)).trans (val0_arg1 V)
theorem val1_arg2 (V : Valuation τ sig (Elt F)) : val1 V (Proc.devRef .tc main_arg2) = (V (Proc.devRef .tc main_arg2)) :=
  (w1_keep (val0 V) main_arg2 (by decide)).trans (val0_arg2 V)
theorem val1_arg3 (V : Valuation τ sig (Elt F)) : val1 V (Proc.devRef .tc main_arg3) = (V (Proc.devRef .tc main_arg3)) :=
  (w1_keep (val0 V) main_arg3 (by decide)).trans (val0_arg3 V)
theorem val1_arg4 (V : Valuation τ sig (Elt F)) : val1 V (Proc.devRef .tc main_arg4) = (V (Proc.devRef .tc main_arg4)) :=
  (w1_keep (val0 V) main_arg4 (by decide)).trans (val0_arg4 V)
theorem val1_arg5 (V : Valuation τ sig (Elt F)) : val1 V (Proc.devRef .tc main_arg5) = (V (Proc.devRef .tc main_arg5)) :=
  (w1_keep (val0 V) main_arg5 (by decide)).trans (val0_arg5 V)
theorem val1_arg6 (V : Valuation τ sig (Elt F)) : val1 V (Proc.devRef .tc main_arg6) = (V (Proc.devRef .tc main_arg6)) :=
  (w1_keep (val0 V) main_arg6 (by decide)).trans (val0_arg6 V)
theorem val1_arg7 (V : Valuation τ sig (Elt F)) : val1 V (Proc.devRef .tc main_arg7) = (V (Proc.devRef .tc main_arg7)) :=
  (w1_keep (val0 V) main_arg7 (by decide)).trans (val0_arg7 V)
theorem val1_arg8 (V : Valuation τ sig (Elt F)) : val1 V (Proc.devRef .tc main_arg8) = (V (Proc.devRef .tc main_arg8)) :=
  (w1_keep (val0 V) main_arg8 (by decide)).trans (val0_arg8 V)
theorem val1_arg9 (V : Valuation τ sig (Elt F)) : val1 V (Proc.devRef .tc main_arg9) = (V (Proc.devRef .tc main_arg9)) :=
  (w1_keep (val0 V) main_arg9 (by decide)).trans (val0_arg9 V)
theorem val1_arg11 (V : Valuation τ sig (Elt F)) : val1 V (Proc.devRef .tc main_arg11) = (V (Proc.devRef .tc main_arg11)) :=
  (w1_keep (val0 V) main_arg11 (by decide)).trans (val0_arg11 V)
theorem val1_v1 (V : Valuation τ sig (Elt F)) : val1 V (Proc.devRef .tc main_v1) = (Spec.row (V (Proc.devRef .tc main_arg10))) :=
  s1_v1 V (val0 V) (val0_arg10 V)
theorem val1_v3 (V : Valuation τ sig (Elt F)) : val1 V (Proc.devRef .tc main_v3) = (Spec.col (V (Proc.devRef .tc main_arg10))) :=
  s1_v3 V (val0 V) (val0_arg10 V)
theorem val1_v4 (V : Valuation τ sig (Elt F)) : val1 V (Proc.devRef .tc main_v4) = (broadcastInDim S1000000 ![] bcast_S_S1000000 (constant (F := F) S_ .f32 0x3F800000#32)) :=
  s1_v4 V (val0 V)
theorem val1_v5 (V : Valuation τ sig (Elt F)) : val1 V (Proc.devRef .tc main_v5) = (broadcastInDim S100000 ![] bcast_S_S100000 (constant (F := F) S_ .f32 0x00000000#32)) :=
  s1_v5 V (val0 V)
theorem val1_v6 (V : Valuation τ sig (Elt F)) : val1 V (Proc.devRef .tc main_v6) = (broadcastInDim S1000000x1 ![0] bcast_S1000000_S1000000x1_0 (Spec.row (V (Proc.devRef .tc main_arg10)))) :=
  s1_v6 V (val0 V) (val0_arg10 V)

/-- The contents after the first 2 stretches. -/
def val2 (V : Valuation τ sig (Elt F)) : Valuation τ sig (Elt F) := after w2 (val1 V)
theorem val2_arg0 (V : Valuation τ sig (Elt F)) : val2 V (Proc.devRef .tc main_arg0) = (V (Proc.devRef .tc main_arg0)) :=
  (w2_keep (val1 V) main_arg0 (by decide)).trans (val1_arg0 V)
theorem val2_arg1 (V : Valuation τ sig (Elt F)) : val2 V (Proc.devRef .tc main_arg1) = (V (Proc.devRef .tc main_arg1)) :=
  (w2_keep (val1 V) main_arg1 (by decide)).trans (val1_arg1 V)
theorem val2_arg2 (V : Valuation τ sig (Elt F)) : val2 V (Proc.devRef .tc main_arg2) = (V (Proc.devRef .tc main_arg2)) :=
  (w2_keep (val1 V) main_arg2 (by decide)).trans (val1_arg2 V)
theorem val2_arg3 (V : Valuation τ sig (Elt F)) : val2 V (Proc.devRef .tc main_arg3) = (V (Proc.devRef .tc main_arg3)) :=
  (w2_keep (val1 V) main_arg3 (by decide)).trans (val1_arg3 V)
theorem val2_arg4 (V : Valuation τ sig (Elt F)) : val2 V (Proc.devRef .tc main_arg4) = (V (Proc.devRef .tc main_arg4)) :=
  (w2_keep (val1 V) main_arg4 (by decide)).trans (val1_arg4 V)
theorem val2_arg5 (V : Valuation τ sig (Elt F)) : val2 V (Proc.devRef .tc main_arg5) = (V (Proc.devRef .tc main_arg5)) :=
  (w2_keep (val1 V) main_arg5 (by decide)).trans (val1_arg5 V)
theorem val2_arg6 (V : Valuation τ sig (Elt F)) : val2 V (Proc.devRef .tc main_arg6) = (V (Proc.devRef .tc main_arg6)) :=
  (w2_keep (val1 V) main_arg6 (by decide)).trans (val1_arg6 V)
theorem val2_arg7 (V : Valuation τ sig (Elt F)) : val2 V (Proc.devRef .tc main_arg7) = (V (Proc.devRef .tc main_arg7)) :=
  (w2_keep (val1 V) main_arg7 (by decide)).trans (val1_arg7 V)
theorem val2_arg8 (V : Valuation τ sig (Elt F)) : val2 V (Proc.devRef .tc main_arg8) = (V (Proc.devRef .tc main_arg8)) :=
  (w2_keep (val1 V) main_arg8 (by decide)).trans (val1_arg8 V)
theorem val2_arg9 (V : Valuation τ sig (Elt F)) : val2 V (Proc.devRef .tc main_arg9) = (V (Proc.devRef .tc main_arg9)) :=
  (w2_keep (val1 V) main_arg9 (by decide)).trans (val1_arg9 V)
theorem val2_arg11 (V : Valuation τ sig (Elt F)) : val2 V (Proc.devRef .tc main_arg11) = (V (Proc.devRef .tc main_arg11)) :=
  (w2_keep (val1 V) main_arg11 (by decide)).trans (val1_arg11 V)
theorem val2_v1 (V : Valuation τ sig (Elt F)) : val2 V (Proc.devRef .tc main_v1) = (Spec.row (V (Proc.devRef .tc main_arg10))) :=
  (w2_keep (val1 V) main_v1 (by decide)).trans (val1_v1 V)
theorem val2_v3 (V : Valuation τ sig (Elt F)) : val2 V (Proc.devRef .tc main_v3) = (Spec.col (V (Proc.devRef .tc main_arg10))) :=
  (w2_keep (val1 V) main_v3 (by decide)).trans (val1_v3 V)
theorem val2_v9 (V : Valuation τ sig (Elt F)) : val2 V (Proc.devRef .tc main_v9) = (cmpf .ogt (Spec.deg (V (Proc.devRef .tc main_arg10))) (broadcastInDim S100000 ![] bcast_S_S100000 (constant (F := F) S_ .f32 0x00000000#32))) :=
  s2_v9 V (val1 V) (val1_v4 V) (val1_v6 V) (val1_v5 V)
theorem val2_v11 (V : Valuation τ sig (Elt F)) : val2 V (Proc.devRef .tc main_v11) = (Host.powf (Spec.deg (V (Proc.devRef .tc main_arg10))) (broadcastInDim S100000 ![] bcast_S_S100000 (constant (F := F) S_ .f32 0xBF000000#32))) :=
  s2_v11 V (val1 V) (val1_v4 V) (val1_v6 V) (val1_v5 V)
theorem val2_cst_3 (V : Valuation τ sig (Elt F)) : val2 V (Proc.devRef .tc main_cst_3) = (constant (F := F) S_ .f32 0x00000000#32) :=
  s2_cst_3 V (val1 V)

/-- The contents after the first 3 stretches. -/
def val3 (V : Valuation τ sig (Elt F)) : Valuation τ sig (Elt F) := after w3 (val2 V)
theorem val3_arg0 (V : Valuation τ sig (Elt F)) : val3 V (Proc.devRef .tc main_arg0) = (V (Proc.devRef .tc main_arg0)) :=
  (w3_keep (val2 V) main_arg0 (by decide)).trans (val2_arg0 V)
theorem val3_arg1 (V : Valuation τ sig (Elt F)) : val3 V (Proc.devRef .tc main_arg1) = (V (Proc.devRef .tc main_arg1)) :=
  (w3_keep (val2 V) main_arg1 (by decide)).trans (val2_arg1 V)
theorem val3_arg2 (V : Valuation τ sig (Elt F)) : val3 V (Proc.devRef .tc main_arg2) = (V (Proc.devRef .tc main_arg2)) :=
  (w3_keep (val2 V) main_arg2 (by decide)).trans (val2_arg2 V)
theorem val3_arg3 (V : Valuation τ sig (Elt F)) : val3 V (Proc.devRef .tc main_arg3) = (V (Proc.devRef .tc main_arg3)) :=
  (w3_keep (val2 V) main_arg3 (by decide)).trans (val2_arg3 V)
theorem val3_arg4 (V : Valuation τ sig (Elt F)) : val3 V (Proc.devRef .tc main_arg4) = (V (Proc.devRef .tc main_arg4)) :=
  (w3_keep (val2 V) main_arg4 (by decide)).trans (val2_arg4 V)
theorem val3_arg5 (V : Valuation τ sig (Elt F)) : val3 V (Proc.devRef .tc main_arg5) = (V (Proc.devRef .tc main_arg5)) :=
  (w3_keep (val2 V) main_arg5 (by decide)).trans (val2_arg5 V)
theorem val3_arg6 (V : Valuation τ sig (Elt F)) : val3 V (Proc.devRef .tc main_arg6) = (V (Proc.devRef .tc main_arg6)) :=
  (w3_keep (val2 V) main_arg6 (by decide)).trans (val2_arg6 V)
theorem val3_arg7 (V : Valuation τ sig (Elt F)) : val3 V (Proc.devRef .tc main_arg7) = (V (Proc.devRef .tc main_arg7)) :=
  (w3_keep (val2 V) main_arg7 (by decide)).trans (val2_arg7 V)
theorem val3_arg8 (V : Valuation τ sig (Elt F)) : val3 V (Proc.devRef .tc main_arg8) = (V (Proc.devRef .tc main_arg8)) :=
  (w3_keep (val2 V) main_arg8 (by decide)).trans (val2_arg8 V)
theorem val3_arg9 (V : Valuation τ sig (Elt F)) : val3 V (Proc.devRef .tc main_arg9) = (V (Proc.devRef .tc main_arg9)) :=
  (w3_keep (val2 V) main_arg9 (by decide)).trans (val2_arg9 V)
theorem val3_arg11 (V : Valuation τ sig (Elt F)) : val3 V (Proc.devRef .tc main_arg11) = (V (Proc.devRef .tc main_arg11)) :=
  (w3_keep (val2 V) main_arg11 (by decide)).trans (val2_arg11 V)
theorem val3_v1 (V : Valuation τ sig (Elt F)) : val3 V (Proc.devRef .tc main_v1) = (Spec.row (V (Proc.devRef .tc main_arg10))) :=
  (w3_keep (val2 V) main_v1 (by decide)).trans (val2_v1 V)
theorem val3_v3 (V : Valuation τ sig (Elt F)) : val3 V (Proc.devRef .tc main_v3) = (Spec.col (V (Proc.devRef .tc main_arg10))) :=
  (w3_keep (val2 V) main_v3 (by decide)).trans (val2_v3 V)
theorem val3_v12 (V : Valuation τ sig (Elt F)) : val3 V (Proc.devRef .tc main_v12) = (Spec.dinv (V (Proc.devRef .tc main_arg10))) :=
  s3_v12 V (val2 V) (val2_cst_3 V) (val2_v11 V) (val2_v9 V)

/-- The contents after the first 4 stretches. -/
def val4 (V : Valuation τ sig (Elt F)) : Valuation τ sig (Elt F) := after w4 (val3 V)
theorem val4_arg0 (V : Valuation τ sig (Elt F)) : val4 V (Proc.devRef .tc main_arg0) = (V (Proc.devRef .tc main_arg0)) :=
  (w4_keep (val3 V) main_arg0 (by decide)).trans (val3_arg0 V)
theorem val4_arg1 (V : Valuation τ sig (Elt F)) : val4 V (Proc.devRef .tc main_arg1) = (V (Proc.devRef .tc main_arg1)) :=
  (w4_keep (val3 V) main_arg1 (by decide)).trans (val3_arg1 V)
theorem val4_arg2 (V : Valuation τ sig (Elt F)) : val4 V (Proc.devRef .tc main_arg2) = (V (Proc.devRef .tc main_arg2)) :=
  (w4_keep (val3 V) main_arg2 (by decide)).trans (val3_arg2 V)
theorem val4_arg3 (V : Valuation τ sig (Elt F)) : val4 V (Proc.devRef .tc main_arg3) = (V (Proc.devRef .tc main_arg3)) :=
  (w4_keep (val3 V) main_arg3 (by decide)).trans (val3_arg3 V)
theorem val4_arg4 (V : Valuation τ sig (Elt F)) : val4 V (Proc.devRef .tc main_arg4) = (V (Proc.devRef .tc main_arg4)) :=
  (w4_keep (val3 V) main_arg4 (by decide)).trans (val3_arg4 V)
theorem val4_arg5 (V : Valuation τ sig (Elt F)) : val4 V (Proc.devRef .tc main_arg5) = (V (Proc.devRef .tc main_arg5)) :=
  (w4_keep (val3 V) main_arg5 (by decide)).trans (val3_arg5 V)
theorem val4_arg6 (V : Valuation τ sig (Elt F)) : val4 V (Proc.devRef .tc main_arg6) = (V (Proc.devRef .tc main_arg6)) :=
  (w4_keep (val3 V) main_arg6 (by decide)).trans (val3_arg6 V)
theorem val4_arg7 (V : Valuation τ sig (Elt F)) : val4 V (Proc.devRef .tc main_arg7) = (V (Proc.devRef .tc main_arg7)) :=
  (w4_keep (val3 V) main_arg7 (by decide)).trans (val3_arg7 V)
theorem val4_arg8 (V : Valuation τ sig (Elt F)) : val4 V (Proc.devRef .tc main_arg8) = (V (Proc.devRef .tc main_arg8)) :=
  (w4_keep (val3 V) main_arg8 (by decide)).trans (val3_arg8 V)
theorem val4_arg9 (V : Valuation τ sig (Elt F)) : val4 V (Proc.devRef .tc main_arg9) = (V (Proc.devRef .tc main_arg9)) :=
  (w4_keep (val3 V) main_arg9 (by decide)).trans (val3_arg9 V)
theorem val4_arg11 (V : Valuation τ sig (Elt F)) : val4 V (Proc.devRef .tc main_arg11) = (V (Proc.devRef .tc main_arg11)) :=
  (w4_keep (val3 V) main_arg11 (by decide)).trans (val3_arg11 V)
theorem val4_v1 (V : Valuation τ sig (Elt F)) : val4 V (Proc.devRef .tc main_v1) = (Spec.row (V (Proc.devRef .tc main_arg10))) :=
  (w4_keep (val3 V) main_v1 (by decide)).trans (val3_v1 V)
theorem val4_v3 (V : Valuation τ sig (Elt F)) : val4 V (Proc.devRef .tc main_v3) = (Spec.col (V (Proc.devRef .tc main_arg10))) :=
  (w4_keep (val3 V) main_v3 (by decide)).trans (val3_v3 V)
theorem val4_v12 (V : Valuation τ sig (Elt F)) : val4 V (Proc.devRef .tc main_v12) = (Spec.dinv (V (Proc.devRef .tc main_arg10))) :=
  (w4_keep (val3 V) main_v12 (by decide)).trans (val3_v12 V)
theorem val4_v19 (V : Valuation τ sig (Elt F)) : val4 V (Proc.devRef .tc main_v19) = (Host.gather gather_S100000_S1000000x1_S1000000_n_0_n_n_0_1_1 (Spec.dinv (V (Proc.devRef .tc main_arg10))) (broadcastInDim S1000000x1 ![0] bcast_S1000000_S1000000x1_0 (Spec.wrapE (Spec.row (V (Proc.devRef .tc main_arg10)))))) :=
  s4_v19 V (val3 V) (val3_v1 V) (val3_v12 V)
theorem val4_v20 (V : Valuation τ sig (Elt F)) : val4 V (Proc.devRef .tc main_v20) = (broadcastInDim S1000000 ![] bcast_S_S1000000 (constantI S_ 32 0#32)) :=
  s4_v20 V (val3 V)

/-- The contents after the first 5 stretches. -/
def val5 (V : Valuation τ sig (Elt F)) : Valuation τ sig (Elt F) := after w5 (val4 V)
theorem val5_arg0 (V : Valuation τ sig (Elt F)) : val5 V (Proc.devRef .tc main_arg0) = (V (Proc.devRef .tc main_arg0)) :=
  (w5_keep (val4 V) main_arg0 (by decide)).trans (val4_arg0 V)
theorem val5_arg1 (V : Valuation τ sig (Elt F)) : val5 V (Proc.devRef .tc main_arg1) = (V (Proc.devRef .tc main_arg1)) :=
  (w5_keep (val4 V) main_arg1 (by decide)).trans (val4_arg1 V)
theorem val5_arg2 (V : Valuation τ sig (Elt F)) : val5 V (Proc.devRef .tc main_arg2) = (V (Proc.devRef .tc main_arg2)) :=
  (w5_keep (val4 V) main_arg2 (by decide)).trans (val4_arg2 V)
theorem val5_arg3 (V : Valuation τ sig (Elt F)) : val5 V (Proc.devRef .tc main_arg3) = (V (Proc.devRef .tc main_arg3)) :=
  (w5_keep (val4 V) main_arg3 (by decide)).trans (val4_arg3 V)
theorem val5_arg4 (V : Valuation τ sig (Elt F)) : val5 V (Proc.devRef .tc main_arg4) = (V (Proc.devRef .tc main_arg4)) :=
  (w5_keep (val4 V) main_arg4 (by decide)).trans (val4_arg4 V)
theorem val5_arg5 (V : Valuation τ sig (Elt F)) : val5 V (Proc.devRef .tc main_arg5) = (V (Proc.devRef .tc main_arg5)) :=
  (w5_keep (val4 V) main_arg5 (by decide)).trans (val4_arg5 V)
theorem val5_arg6 (V : Valuation τ sig (Elt F)) : val5 V (Proc.devRef .tc main_arg6) = (V (Proc.devRef .tc main_arg6)) :=
  (w5_keep (val4 V) main_arg6 (by decide)).trans (val4_arg6 V)
theorem val5_arg7 (V : Valuation τ sig (Elt F)) : val5 V (Proc.devRef .tc main_arg7) = (V (Proc.devRef .tc main_arg7)) :=
  (w5_keep (val4 V) main_arg7 (by decide)).trans (val4_arg7 V)
theorem val5_arg8 (V : Valuation τ sig (Elt F)) : val5 V (Proc.devRef .tc main_arg8) = (V (Proc.devRef .tc main_arg8)) :=
  (w5_keep (val4 V) main_arg8 (by decide)).trans (val4_arg8 V)
theorem val5_arg9 (V : Valuation τ sig (Elt F)) : val5 V (Proc.devRef .tc main_arg9) = (V (Proc.devRef .tc main_arg9)) :=
  (w5_keep (val4 V) main_arg9 (by decide)).trans (val4_arg9 V)
theorem val5_arg11 (V : Valuation τ sig (Elt F)) : val5 V (Proc.devRef .tc main_arg11) = (V (Proc.devRef .tc main_arg11)) :=
  (w5_keep (val4 V) main_arg11 (by decide)).trans (val4_arg11 V)
theorem val5_v1 (V : Valuation τ sig (Elt F)) : val5 V (Proc.devRef .tc main_v1) = (Spec.row (V (Proc.devRef .tc main_arg10))) :=
  (w5_keep (val4 V) main_v1 (by decide)).trans (val4_v1 V)
theorem val5_v3 (V : Valuation τ sig (Elt F)) : val5 V (Proc.devRef .tc main_v3) = (Spec.col (V (Proc.devRef .tc main_arg10))) :=
  (w5_keep (val4 V) main_v3 (by decide)).trans (val4_v3 V)
theorem val5_v27 (V : Valuation τ sig (Elt F)) : val5 V (Proc.devRef .tc main_v27) = (Spec.norm (V (Proc.devRef .tc main_arg10))) :=
  s5_v27 V (val4 V) (val4_v3 V) (val4_v20 V) (val4_v12 V) (val4_v19 V)
theorem val5_v28 (V : Valuation τ sig (Elt F)) : val5 V (Proc.devRef .tc main_v28) = (Spec.rfull (V (Proc.devRef .tc main_arg1)) (V (Proc.devRef .tc main_arg6))) :=
  s5_v28 V (val4 V) (val4_arg6 V) (val4_arg1 V)
theorem val5_v29 (V : Valuation τ sig (Elt F)) : val5 V (Proc.devRef .tc main_v29) = (Spec.lo (Spec.row (V (Proc.devRef .tc main_arg10)))) :=
  s5_v29 V (val4 V) (val4_v1 V)
theorem val5_v30 (V : Valuation τ sig (Elt F)) : val5 V (Proc.devRef .tc main_v30) = (Spec.lo (Spec.col (V (Proc.devRef .tc main_arg10)))) :=
  s5_v30 V (val4 V) (val4_v3 V)

/-- The contents after the first 6 stretches. -/
def val6 (V : Valuation τ sig (Elt F)) : Valuation τ sig (Elt F) := after w6 (val5 V)
theorem val6_arg0 (V : Valuation τ sig (Elt F)) : val6 V (Proc.devRef .tc main_arg0) = (V (Proc.devRef .tc main_arg0)) :=
  (w6_keep (val5 V) main_arg0 (by decide)).trans (val5_arg0 V)
theorem val6_arg1 (V : Valuation τ sig (Elt F)) : val6 V (Proc.devRef .tc main_arg1) = (V (Proc.devRef .tc main_arg1)) :=
  (w6_keep (val5 V) main_arg1 (by decide)).trans (val5_arg1 V)
theorem val6_arg2 (V : Valuation τ sig (Elt F)) : val6 V (Proc.devRef .tc main_arg2) = (V (Proc.devRef .tc main_arg2)) :=
  (w6_keep (val5 V) main_arg2 (by decide)).trans (val5_arg2 V)
theorem val6_arg3 (V : Valuation τ sig (Elt F)) : val6 V (Proc.devRef .tc main_arg3) = (V (Proc.devRef .tc main_arg3)) :=
  (w6_keep (val5 V) main_arg3 (by decide)).trans (val5_arg3 V)
theorem val6_arg4 (V : Valuation τ sig (Elt F)) : val6 V (Proc.devRef .tc main_arg4) = (V (Proc.devRef .tc main_arg4)) :=
  (w6_keep (val5 V) main_arg4 (by decide)).trans (val5_arg4 V)
theorem val6_arg5 (V : Valuation τ sig (Elt F)) : val6 V (Proc.devRef .tc main_arg5) = (V (Proc.devRef .tc main_arg5)) :=
  (w6_keep (val5 V) main_arg5 (by decide)).trans (val5_arg5 V)
theorem val6_arg6 (V : Valuation τ sig (Elt F)) : val6 V (Proc.devRef .tc main_arg6) = (V (Proc.devRef .tc main_arg6)) :=
  (w6_keep (val5 V) main_arg6 (by decide)).trans (val5_arg6 V)
theorem val6_arg7 (V : Valuation τ sig (Elt F)) : val6 V (Proc.devRef .tc main_arg7) = (V (Proc.devRef .tc main_arg7)) :=
  (w6_keep (val5 V) main_arg7 (by decide)).trans (val5_arg7 V)
theorem val6_arg8 (V : Valuation τ sig (Elt F)) : val6 V (Proc.devRef .tc main_arg8) = (V (Proc.devRef .tc main_arg8)) :=
  (w6_keep (val5 V) main_arg8 (by decide)).trans (val5_arg8 V)
theorem val6_arg9 (V : Valuation τ sig (Elt F)) : val6 V (Proc.devRef .tc main_arg9) = (V (Proc.devRef .tc main_arg9)) :=
  (w6_keep (val5 V) main_arg9 (by decide)).trans (val5_arg9 V)
theorem val6_arg11 (V : Valuation τ sig (Elt F)) : val6 V (Proc.devRef .tc main_arg11) = (V (Proc.devRef .tc main_arg11)) :=
  (w6_keep (val5 V) main_arg11 (by decide)).trans (val5_arg11 V)
theorem val6_v1 (V : Valuation τ sig (Elt F)) : val6 V (Proc.devRef .tc main_v1) = (Spec.row (V (Proc.devRef .tc main_arg10))) :=
  (w6_keep (val5 V) main_v1 (by decide)).trans (val5_v1 V)
theorem val6_v3 (V : Valuation τ sig (Elt F)) : val6 V (Proc.devRef .tc main_v3) = (Spec.col (V (Proc.devRef .tc main_arg10))) :=
  (w6_keep (val5 V) main_v3 (by decide)).trans (val5_v3 V)
theorem val6_v27 (V : Valuation τ sig (Elt F)) : val6 V (Proc.devRef .tc main_v27) = (Spec.norm (V (Proc.devRef .tc main_arg10))) :=
  (w6_keep (val5 V) main_v27 (by decide)).trans (val5_v27 V)
theorem val6_v28 (V : Valuation τ sig (Elt F)) : val6 V (Proc.devRef .tc main_v28) = (Spec.rfull (V (Proc.devRef .tc main_arg1)) (V (Proc.devRef .tc main_arg6))) :=
  (w6_keep (val5 V) main_v28 (by decide)).trans (val5_v28 V)
theorem val6_v29 (V : Valuation τ sig (Elt F)) : val6 V (Proc.devRef .tc main_v29) = (Spec.lo (Spec.row (V (Proc.devRef .tc main_arg10)))) :=
  (w6_keep (val5 V) main_v29 (by decide)).trans (val5_v29 V)
theorem val6_v31 (V : Valuation τ sig (Elt F)) : val6 V (Proc.devRef .tc main_v31) = (Spec.lo (V (Proc.devRef .tc main_arg11))) :=
  s6_v31 V (val5 V) (val5_arg11 V)
theorem val6_v32 (V : Valuation τ sig (Elt F)) : val6 V (Proc.devRef .tc main_v32) = (Spec.lo (Spec.norm (V (Proc.devRef .tc main_arg10)))) :=
  s6_v32 V (val5 V) (val5_v27 V)
theorem val6_v39 (V : Valuation τ sig (Elt F)) : val6 V (Proc.devRef .tc main_v39) = (Host.gather gather_S100000x256_S500000x1_S500000x256_1_0_n_n_0_1_1256 (V (Proc.devRef .tc main_arg0)) (Spec.nodeIdx (Spec.lo (Spec.col (V (Proc.devRef .tc main_arg10)))))) :=
  s6_v39 V (val5 V) (val5_v30 V) (val5_arg0 V)

/-- The contents after the first 7 stretches. -/
def val7 (V : Valuation τ sig (Elt F)) : Valuation τ sig (Elt F) := after w7 (val6 V)
theorem val7_arg0 (V : Valuation τ sig (Elt F)) : val7 V (Proc.devRef .tc main_arg0) = (V (Proc.devRef .tc main_arg0)) :=
  (w7_keep (val6 V) main_arg0 (by decide)).trans (val6_arg0 V)
theorem val7_arg1 (V : Valuation τ sig (Elt F)) : val7 V (Proc.devRef .tc main_arg1) = (V (Proc.devRef .tc main_arg1)) :=
  (w7_keep (val6 V) main_arg1 (by decide)).trans (val6_arg1 V)
theorem val7_arg2 (V : Valuation τ sig (Elt F)) : val7 V (Proc.devRef .tc main_arg2) = (V (Proc.devRef .tc main_arg2)) :=
  (w7_keep (val6 V) main_arg2 (by decide)).trans (val6_arg2 V)
theorem val7_arg3 (V : Valuation τ sig (Elt F)) : val7 V (Proc.devRef .tc main_arg3) = (V (Proc.devRef .tc main_arg3)) :=
  (w7_keep (val6 V) main_arg3 (by decide)).trans (val6_arg3 V)
theorem val7_arg4 (V : Valuation τ sig (Elt F)) : val7 V (Proc.devRef .tc main_arg4) = (V (Proc.devRef .tc main_arg4)) :=
  (w7_keep (val6 V) main_arg4 (by decide)).trans (val6_arg4 V)
theorem val7_arg5 (V : Valuation τ sig (Elt F)) : val7 V (Proc.devRef .tc main_arg5) = (V (Proc.devRef .tc main_arg5)) :=
  (w7_keep (val6 V) main_arg5 (by decide)).trans (val6_arg5 V)
theorem val7_arg6 (V : Valuation τ sig (Elt F)) : val7 V (Proc.devRef .tc main_arg6) = (V (Proc.devRef .tc main_arg6)) :=
  (w7_keep (val6 V) main_arg6 (by decide)).trans (val6_arg6 V)
theorem val7_arg7 (V : Valuation τ sig (Elt F)) : val7 V (Proc.devRef .tc main_arg7) = (V (Proc.devRef .tc main_arg7)) :=
  (w7_keep (val6 V) main_arg7 (by decide)).trans (val6_arg7 V)
theorem val7_arg8 (V : Valuation τ sig (Elt F)) : val7 V (Proc.devRef .tc main_arg8) = (V (Proc.devRef .tc main_arg8)) :=
  (w7_keep (val6 V) main_arg8 (by decide)).trans (val6_arg8 V)
theorem val7_arg9 (V : Valuation τ sig (Elt F)) : val7 V (Proc.devRef .tc main_arg9) = (V (Proc.devRef .tc main_arg9)) :=
  (w7_keep (val6 V) main_arg9 (by decide)).trans (val6_arg9 V)
theorem val7_arg11 (V : Valuation τ sig (Elt F)) : val7 V (Proc.devRef .tc main_arg11) = (V (Proc.devRef .tc main_arg11)) :=
  (w7_keep (val6 V) main_arg11 (by decide)).trans (val6_arg11 V)
theorem val7_v1 (V : Valuation τ sig (Elt F)) : val7 V (Proc.devRef .tc main_v1) = (Spec.row (V (Proc.devRef .tc main_arg10))) :=
  (w7_keep (val6 V) main_v1 (by decide)).trans (val6_v1 V)
theorem val7_v3 (V : Valuation τ sig (Elt F)) : val7 V (Proc.devRef .tc main_v3) = (Spec.col (V (Proc.devRef .tc main_arg10))) :=
  (w7_keep (val6 V) main_v3 (by decide)).trans (val6_v3 V)
theorem val7_v27 (V : Valuation τ sig (Elt F)) : val7 V (Proc.devRef .tc main_v27) = (Spec.norm (V (Proc.devRef .tc main_arg10))) :=
  (w7_keep (val6 V) main_v27 (by decide)).trans (val6_v27 V)
theorem val7_v28 (V : Valuation τ sig (Elt F)) : val7 V (Proc.devRef .tc main_v28) = (Spec.rfull (V (Proc.devRef .tc main_arg1)) (V (Proc.devRef .tc main_arg6))) :=
  (w7_keep (val6 V) main_v28 (by decide)).trans (val6_v28 V)
theorem val7_v29 (V : Valuation τ sig (Elt F)) : val7 V (Proc.devRef .tc main_v29) = (Spec.lo (Spec.row (V (Proc.devRef .tc main_arg10)))) :=
  (w7_keep (val6 V) main_v29 (by decide)).trans (val6_v29 V)
theorem val7_v32 (V : Valuation τ sig (Elt F)) : val7 V (Proc.devRef .tc main_v32) = (Spec.lo (Spec.norm (V (Proc.devRef .tc main_arg10)))) :=
  (w7_keep (val6 V) main_v32 (by decide)).trans (val6_v32 V)
theorem val7_v39 (V : Valuation τ sig (Elt F)) : val7 V (Proc.devRef .tc main_v39) = (Host.gather gather_S100000x256_S500000x1_S500000x256_1_0_n_n_0_1_1256 (V (Proc.devRef .tc main_arg0)) (Spec.nodeIdx (Spec.lo (Spec.col (V (Proc.devRef .tc main_arg10)))))) :=
  (w7_keep (val6 V) main_v39 (by decide)).trans (val6_v39 V)
theorem val7_v46 (V : Valuation τ sig (Elt F)) : val7 V (Proc.devRef .tc main_v46) = (Host.gather gather_S475x256_S500000x1_S500000x256_1_0_n_n_0_1_1256 (Spec.rfull (V (Proc.devRef .tc main_arg1)) (V (Proc.devRef .tc main_arg6))) (Spec.relIdx (Spec.lo (V (Proc.devRef .tc main_arg11))))) :=
  s7_v46 V (val6 V) (val6_v31 V) (val6_v28 V)

/-- The contents after the first 8 stretches. -/
def val8 (V : Valuation τ sig (Elt F)) : Valuation τ sig (Elt F) := after w8 (val7 V)
theorem val8_arg0 (V : Valuation τ sig (Elt F)) : val8 V (Proc.devRef .tc main_arg0) = (V (Proc.devRef .tc main_arg0)) :=
  (w8_keep (val7 V) main_arg0 (by decide)).trans (val7_arg0 V)
theorem val8_arg1 (V : Valuation τ sig (Elt F)) : val8 V (Proc.devRef .tc main_arg1) = (V (Proc.devRef .tc main_arg1)) :=
  (w8_keep (val7 V) main_arg1 (by decide)).trans (val7_arg1 V)
theorem val8_arg3 (V : Valuation τ sig (Elt F)) : val8 V (Proc.devRef .tc main_arg3) = (V (Proc.devRef .tc main_arg3)) :=
  (w8_keep (val7 V) main_arg3 (by decide)).trans (val7_arg3 V)
theorem val8_arg4 (V : Valuation τ sig (Elt F)) : val8 V (Proc.devRef .tc main_arg4) = (V (Proc.devRef .tc main_arg4)) :=
  (w8_keep (val7 V) main_arg4 (by decide)).trans (val7_arg4 V)
theorem val8_arg5 (V : Valuation τ sig (Elt F)) : val8 V (Proc.devRef .tc main_arg5) = (V (Proc.devRef .tc main_arg5)) :=
  (w8_keep (val7 V) main_arg5 (by decide)).trans (val7_arg5 V)
theorem val8_arg6 (V : Valuation τ sig (Elt F)) : val8 V (Proc.devRef .tc main_arg6) = (V (Proc.devRef .tc main_arg6)) :=
  (w8_keep (val7 V) main_arg6 (by decide)).trans (val7_arg6 V)
theorem val8_arg7 (V : Valuation τ sig (Elt F)) : val8 V (Proc.devRef .tc main_arg7) = (V (Proc.devRef .tc main_arg7)) :=
  (w8_keep (val7 V) main_arg7 (by decide)).trans (val7_arg7 V)
theorem val8_arg8 (V : Valuation τ sig (Elt F)) : val8 V (Proc.devRef .tc main_arg8) = (V (Proc.devRef .tc main_arg8)) :=
  (w8_keep (val7 V) main_arg8 (by decide)).trans (val7_arg8 V)
theorem val8_arg9 (V : Valuation τ sig (Elt F)) : val8 V (Proc.devRef .tc main_arg9) = (V (Proc.devRef .tc main_arg9)) :=
  (w8_keep (val7 V) main_arg9 (by decide)).trans (val7_arg9 V)
theorem val8_arg11 (V : Valuation τ sig (Elt F)) : val8 V (Proc.devRef .tc main_arg11) = (V (Proc.devRef .tc main_arg11)) :=
  (w8_keep (val7 V) main_arg11 (by decide)).trans (val7_arg11 V)
theorem val8_v27 (V : Valuation τ sig (Elt F)) : val8 V (Proc.devRef .tc main_v27) = (Spec.norm (V (Proc.devRef .tc main_arg10))) :=
  (w8_keep (val7 V) main_v27 (by decide)).trans (val7_v27 V)
theorem val8_v28 (V : Valuation τ sig (Elt F)) : val8 V (Proc.devRef .tc main_v28) = (Spec.rfull (V (Proc.devRef .tc main_arg1)) (V (Proc.devRef .tc main_arg6))) :=
  (w8_keep (val7 V) main_v28 (by decide)).trans (val7_v28 V)
theorem val8_v54 (V : Valuation τ sig (Elt F)) : val8 V (Proc.devRef .tc main_v54) = (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10))))) :=
  s8_v54 V (val7 V) (val7_v32 V) (val7_arg2 V) (val7_v46 V) (val7_v39 V) (val7_v29 V)
theorem val8_v55 (V : Valuation τ sig (Elt F)) : val8 V (Proc.devRef .tc main_v55) = (Spec.hi (Spec.row (V (Proc.devRef .tc main_arg10)))) :=
  s8_v55 V (val7 V) (val7_v1 V)
theorem val8_v56 (V : Valuation τ sig (Elt F)) : val8 V (Proc.devRef .tc main_v56) = (Spec.hi (Spec.col (V (Proc.devRef .tc main_arg10)))) :=
  s8_v56 V (val7 V) (val7_v3 V)

/-- The contents after the first 9 stretches. -/
def val9 (V : Valuation τ sig (Elt F)) : Valuation τ sig (Elt F) := after w9 (val8 V)
theorem val9_arg0 (V : Valuation τ sig (Elt F)) : val9 V (Proc.devRef .tc main_arg0) = (V (Proc.devRef .tc main_arg0)) :=
  (w9_keep (val8 V) main_arg0 (by decide)).trans (val8_arg0 V)
theorem val9_arg1 (V : Valuation τ sig (Elt F)) : val9 V (Proc.devRef .tc main_arg1) = (V (Proc.devRef .tc main_arg1)) :=
  (w9_keep (val8 V) main_arg1 (by decide)).trans (val8_arg1 V)
theorem val9_arg3 (V : Valuation τ sig (Elt F)) : val9 V (Proc.devRef .tc main_arg3) = (V (Proc.devRef .tc main_arg3)) :=
  (w9_keep (val8 V) main_arg3 (by decide)).trans (val8_arg3 V)
theorem val9_arg4 (V : Valuation τ sig (Elt F)) : val9 V (Proc.devRef .tc main_arg4) = (V (Proc.devRef .tc main_arg4)) :=
  (w9_keep (val8 V) main_arg4 (by decide)).trans (val8_arg4 V)
theorem val9_arg5 (V : Valuation τ sig (Elt F)) : val9 V (Proc.devRef .tc main_arg5) = (V (Proc.devRef .tc main_arg5)) :=
  (w9_keep (val8 V) main_arg5 (by decide)).trans (val8_arg5 V)
theorem val9_arg6 (V : Valuation τ sig (Elt F)) : val9 V (Proc.devRef .tc main_arg6) = (V (Proc.devRef .tc main_arg6)) :=
  (w9_keep (val8 V) main_arg6 (by decide)).trans (val8_arg6 V)
theorem val9_arg7 (V : Valuation τ sig (Elt F)) : val9 V (Proc.devRef .tc main_arg7) = (V (Proc.devRef .tc main_arg7)) :=
  (w9_keep (val8 V) main_arg7 (by decide)).trans (val8_arg7 V)
theorem val9_arg8 (V : Valuation τ sig (Elt F)) : val9 V (Proc.devRef .tc main_arg8) = (V (Proc.devRef .tc main_arg8)) :=
  (w9_keep (val8 V) main_arg8 (by decide)).trans (val8_arg8 V)
theorem val9_arg9 (V : Valuation τ sig (Elt F)) : val9 V (Proc.devRef .tc main_arg9) = (V (Proc.devRef .tc main_arg9)) :=
  (w9_keep (val8 V) main_arg9 (by decide)).trans (val8_arg9 V)
theorem val9_v28 (V : Valuation τ sig (Elt F)) : val9 V (Proc.devRef .tc main_v28) = (Spec.rfull (V (Proc.devRef .tc main_arg1)) (V (Proc.devRef .tc main_arg6))) :=
  (w9_keep (val8 V) main_v28 (by decide)).trans (val8_v28 V)
theorem val9_v54 (V : Valuation τ sig (Elt F)) : val9 V (Proc.devRef .tc main_v54) = (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10))))) :=
  (w9_keep (val8 V) main_v54 (by decide)).trans (val8_v54 V)
theorem val9_v55 (V : Valuation τ sig (Elt F)) : val9 V (Proc.devRef .tc main_v55) = (Spec.hi (Spec.row (V (Proc.devRef .tc main_arg10)))) :=
  (w9_keep (val8 V) main_v55 (by decide)).trans (val8_v55 V)
theorem val9_v57 (V : Valuation τ sig (Elt F)) : val9 V (Proc.devRef .tc main_v57) = (Spec.hi (V (Proc.devRef .tc main_arg11))) :=
  s9_v57 V (val8 V) (val8_arg11 V)
theorem val9_v58 (V : Valuation τ sig (Elt F)) : val9 V (Proc.devRef .tc main_v58) = (Spec.hi (Spec.norm (V (Proc.devRef .tc main_arg10)))) :=
  s9_v58 V (val8 V) (val8_v27 V)
theorem val9_v65 (V : Valuation τ sig (Elt F)) : val9 V (Proc.devRef .tc main_v65) = (Host.gather gather_S100000x256_S500000x1_S500000x256_1_0_n_n_0_1_1256 (V (Proc.devRef .tc main_arg0)) (Spec.nodeIdx (Spec.hi (Spec.col (V (Proc.devRef .tc main_arg10)))))) :=
  s9_v65 V (val8 V) (val8_v56 V) (val8_arg0 V)

/-- The contents after the first 10 stretches. -/
def val10 (V : Valuation τ sig (Elt F)) : Valuation τ sig (Elt F) := after w10 (val9 V)
theorem val10_arg0 (V : Valuation τ sig (Elt F)) : val10 V (Proc.devRef .tc main_arg0) = (V (Proc.devRef .tc main_arg0)) :=
  (w10_keep (val9 V) main_arg0 (by decide)).trans (val9_arg0 V)
theorem val10_arg1 (V : Valuation τ sig (Elt F)) : val10 V (Proc.devRef .tc main_arg1) = (V (Proc.devRef .tc main_arg1)) :=
  (w10_keep (val9 V) main_arg1 (by decide)).trans (val9_arg1 V)
theorem val10_arg4 (V : Valuation τ sig (Elt F)) : val10 V (Proc.devRef .tc main_arg4) = (V (Proc.devRef .tc main_arg4)) :=
  (w10_keep (val9 V) main_arg4 (by decide)).trans (val9_arg4 V)
theorem val10_arg5 (V : Valuation τ sig (Elt F)) : val10 V (Proc.devRef .tc main_arg5) = (V (Proc.devRef .tc main_arg5)) :=
  (w10_keep (val9 V) main_arg5 (by decide)).trans (val9_arg5 V)
theorem val10_arg6 (V : Valuation τ sig (Elt F)) : val10 V (Proc.devRef .tc main_arg6) = (V (Proc.devRef .tc main_arg6)) :=
  (w10_keep (val9 V) main_arg6 (by decide)).trans (val9_arg6 V)
theorem val10_arg7 (V : Valuation τ sig (Elt F)) : val10 V (Proc.devRef .tc main_arg7) = (V (Proc.devRef .tc main_arg7)) :=
  (w10_keep (val9 V) main_arg7 (by decide)).trans (val9_arg7 V)
theorem val10_arg8 (V : Valuation τ sig (Elt F)) : val10 V (Proc.devRef .tc main_arg8) = (V (Proc.devRef .tc main_arg8)) :=
  (w10_keep (val9 V) main_arg8 (by decide)).trans (val9_arg8 V)
theorem val10_arg9 (V : Valuation τ sig (Elt F)) : val10 V (Proc.devRef .tc main_arg9) = (V (Proc.devRef .tc main_arg9)) :=
  (w10_keep (val9 V) main_arg9 (by decide)).trans (val9_arg9 V)
theorem val10_v54 (V : Valuation τ sig (Elt F)) : val10 V (Proc.devRef .tc main_v54) = (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10))))) :=
  (w10_keep (val9 V) main_v54 (by decide)).trans (val9_v54 V)
theorem val10_v55 (V : Valuation τ sig (Elt F)) : val10 V (Proc.devRef .tc main_v55) = (Spec.hi (Spec.row (V (Proc.devRef .tc main_arg10)))) :=
  (w10_keep (val9 V) main_v55 (by decide)).trans (val9_v55 V)
theorem val10_v58 (V : Valuation τ sig (Elt F)) : val10 V (Proc.devRef .tc main_v58) = (Spec.hi (Spec.norm (V (Proc.devRef .tc main_arg10)))) :=
  (w10_keep (val9 V) main_v58 (by decide)).trans (val9_v58 V)
theorem val10_v74 (V : Valuation τ sig (Elt F)) : val10 V (Proc.devRef .tc main_v74) = (Host.dotGeneral dot_S500000x256_S256x256_S500000x256_1_0_0_1_n_n none (subf (Host.gather gather_S100000x256_S500000x1_S500000x256_1_0_n_n_0_1_1256 (V (Proc.devRef .tc main_arg0)) (Spec.nodeIdx (Spec.hi (Spec.col (V (Proc.devRef .tc main_arg10)))))) (Host.gather gather_S475x256_S500000x1_S500000x256_1_0_n_n_0_1_1256 (Spec.rfull (V (Proc.devRef .tc main_arg1)) (V (Proc.devRef .tc main_arg6))) (Spec.relIdx (Spec.hi (V (Proc.devRef .tc main_arg11)))))) (V (Proc.devRef .tc main_arg3))) :=
  s10_v74 V (val9 V) (val9_arg3 V) (val9_v57 V) (val9_v28 V) (val9_v65 V)

/-- The contents after the first 11 stretches. -/
def val11 (V : Valuation τ sig (Elt F)) : Valuation τ sig (Elt F) := after w11 (val10 V)
theorem val11_arg1 (V : Valuation τ sig (Elt F)) : val11 V (Proc.devRef .tc main_arg1) = (V (Proc.devRef .tc main_arg1)) :=
  (w11_keep (val10 V) main_arg1 (by decide)).trans (val10_arg1 V)
theorem val11_arg5 (V : Valuation τ sig (Elt F)) : val11 V (Proc.devRef .tc main_arg5) = (V (Proc.devRef .tc main_arg5)) :=
  (w11_keep (val10 V) main_arg5 (by decide)).trans (val10_arg5 V)
theorem val11_arg7 (V : Valuation τ sig (Elt F)) : val11 V (Proc.devRef .tc main_arg7) = (V (Proc.devRef .tc main_arg7)) :=
  (w11_keep (val10 V) main_arg7 (by decide)).trans (val10_arg7 V)
theorem val11_arg8 (V : Valuation τ sig (Elt F)) : val11 V (Proc.devRef .tc main_arg8) = (V (Proc.devRef .tc main_arg8)) :=
  (w11_keep (val10 V) main_arg8 (by decide)).trans (val10_arg8 V)
theorem val11_arg9 (V : Valuation τ sig (Elt F)) : val11 V (Proc.devRef .tc main_arg9) = (V (Proc.devRef .tc main_arg9)) :=
  (w11_keep (val10 V) main_arg9 (by decide)).trans (val10_arg9 V)
theorem val11_v83 (V : Valuation τ sig (Elt F)) : val11 V (Proc.devRef .tc main_v83) = (Host.dotGeneral dot_S100000x256_S256x256_S100000x256_1_0_0_1_n_n none (subf (V (Proc.devRef .tc main_arg0)) (broadcastInDim S100000x256 ![0, 1] bcast_S1x256_S100000x256_0_1 (V (Proc.devRef .tc main_arg6)))) (V (Proc.devRef .tc main_arg4))) :=
  s11_v83 V (val10 V) (val10_arg4 V) (val10_arg6 V) (val10_arg0 V)
theorem val11_v84 (V : Valuation τ sig (Elt F)) : val11 V (Proc.devRef .tc main_v84) = (addf (Spec.aggR (Spec.msgR (V (Proc.devRef .tc main_arg0)) (Spec.rfull (V (Proc.devRef .tc main_arg1)) (V (Proc.devRef .tc main_arg6))) (V (Proc.devRef .tc main_arg2)) (Spec.lo (Spec.col (V (Proc.devRef .tc main_arg10)))) (Spec.lo (V (Proc.devRef .tc main_arg11))) (Spec.lo (Spec.norm (V (Proc.devRef .tc main_arg10))))) (Spec.lo (Spec.row (V (Proc.devRef .tc main_arg10))))) (Spec.aggR (Spec.msgR (V (Proc.devRef .tc main_arg0)) (Spec.rfull (V (Proc.devRef .tc main_arg1)) (V (Proc.devRef .tc main_arg6))) (V (Proc.devRef .tc main_arg3)) (Spec.hi (Spec.col (V (Proc.devRef .tc main_arg10)))) (Spec.hi (V (Proc.devRef .tc main_arg11))) (Spec.hi (Spec.norm (V (Proc.devRef .tc main_arg10))))) (Spec.hi (Spec.row (V (Proc.devRef .tc main_arg10)))))) :=
  s11_v84 V (val10 V) (val10_v58 V) (val10_v74 V) (val10_v55 V) (val10_v54 V)

/-- The contents after the first 12 stretches. -/
def val12 (V : Valuation τ sig (Elt F)) : Valuation τ sig (Elt F) := after w12 (val11 V)
theorem val12_arg1 (V : Valuation τ sig (Elt F)) : val12 V (Proc.devRef .tc main_arg1) = (V (Proc.devRef .tc main_arg1)) :=
  (w12_keep (val11 V) main_arg1 (by decide)).trans (val11_arg1 V)
theorem val12_arg5 (V : Valuation τ sig (Elt F)) : val12 V (Proc.devRef .tc main_arg5) = (V (Proc.devRef .tc main_arg5)) :=
  (w12_keep (val11 V) main_arg5 (by decide)).trans (val11_arg5 V)
theorem val12_arg8 (V : Valuation τ sig (Elt F)) : val12 V (Proc.devRef .tc main_arg8) = (V (Proc.devRef .tc main_arg8)) :=
  (w12_keep (val11 V) main_arg8 (by decide)).trans (val11_arg8 V)
theorem val12_arg9 (V : Valuation τ sig (Elt F)) : val12 V (Proc.devRef .tc main_arg9) = (V (Proc.devRef .tc main_arg9)) :=
  (w12_keep (val11 V) main_arg9 (by decide)).trans (val11_arg9 V)
theorem val12_v88 (V : Valuation τ sig (Elt F)) : val12 V (Proc.devRef .tc main_v88) = (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) :=
  s12_v88 V (val11 V) (val11_arg7 V) (val11_v83 V) (val11_v84 V)
theorem val12_v91 (V : Valuation τ sig (Elt F)) : val12 V (Proc.devRef .tc main_v91) = (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32))) :=
  s12_v91 V (val11 V) (val11_arg7 V) (val11_v83 V) (val11_v84 V)
theorem val12_c_19 (V : Valuation τ sig (Elt F)) : val12 V (Proc.devRef .tc main_c_19) = (constantI S_ 32 0#32) :=
  s12_c_19 V (val11 V)

/-- The contents after the first 13 stretches. -/
def val13 (V : Valuation τ sig (Elt F)) : Valuation τ sig (Elt F) := after w13 (val12 V)
theorem val13_arg1 (V : Valuation τ sig (Elt F)) : val13 V (Proc.devRef .tc main_arg1) = (V (Proc.devRef .tc main_arg1)) :=
  (w13_keep (val12 V) main_arg1 (by decide)).trans (val12_arg1 V)
theorem val13_arg5 (V : Valuation τ sig (Elt F)) : val13 V (Proc.devRef .tc main_arg5) = (V (Proc.devRef .tc main_arg5)) :=
  (w13_keep (val12 V) main_arg5 (by decide)).trans (val12_arg5 V)
theorem val13_arg8 (V : Valuation τ sig (Elt F)) : val13 V (Proc.devRef .tc main_arg8) = (V (Proc.devRef .tc main_arg8)) :=
  (w13_keep (val12 V) main_arg8 (by decide)).trans (val12_arg8 V)
theorem val13_arg9 (V : Valuation τ sig (Elt F)) : val13 V (Proc.devRef .tc main_arg9) = (V (Proc.devRef .tc main_arg9)) :=
  (w13_keep (val12 V) main_arg9 (by decide)).trans (val12_arg9 V)
theorem val13_v88 (V : Valuation τ sig (Elt F)) : val13 V (Proc.devRef .tc main_v88) = (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) :=
  (w13_keep (val12 V) main_v88 (by decide)).trans (val12_v88 V)
theorem val13_v91 (V : Valuation τ sig (Elt F)) : val13 V (Proc.devRef .tc main_v91) = (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32))) :=
  (w13_keep (val12 V) main_v91 (by decide)).trans (val12_v91 V)
theorem val13_call1_v6 (V : Valuation τ sig (Elt F)) : val13 V (Proc.devRef .tc main_call1_v6) = (mulf (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32))))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32)))))) :=
  s13_call1_v6 V (val12 V) (val12_v88 V)
theorem val13_call1_v7 (V : Valuation τ sig (Elt F)) : val13 V (Proc.devRef .tc main_call1_v7) = (sitofp .f32 (constantI S_ 32 0#32)) :=
  s13_call1_v7 V (val12 V) (val12_c_19 V)

/-- The contents after the first 14 stretches. -/
def val14 (V : Valuation τ sig (Elt F)) : Valuation τ sig (Elt F) := after w14 (val13 V)
theorem val14_arg1 (V : Valuation τ sig (Elt F)) : val14 V (Proc.devRef .tc main_arg1) = (V (Proc.devRef .tc main_arg1)) :=
  (w14_keep (val13 V) main_arg1 (by decide)).trans (val13_arg1 V)
theorem val14_arg5 (V : Valuation τ sig (Elt F)) : val14 V (Proc.devRef .tc main_arg5) = (V (Proc.devRef .tc main_arg5)) :=
  (w14_keep (val13 V) main_arg5 (by decide)).trans (val13_arg5 V)
theorem val14_arg8 (V : Valuation τ sig (Elt F)) : val14 V (Proc.devRef .tc main_arg8) = (V (Proc.devRef .tc main_arg8)) :=
  (w14_keep (val13 V) main_arg8 (by decide)).trans (val13_arg8 V)
theorem val14_arg9 (V : Valuation τ sig (Elt F)) : val14 V (Proc.devRef .tc main_arg9) = (V (Proc.devRef .tc main_arg9)) :=
  (w14_keep (val13 V) main_arg9 (by decide)).trans (val13_arg9 V)
theorem val14_v88 (V : Valuation τ sig (Elt F)) : val14 V (Proc.devRef .tc main_v88) = (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) :=
  (w14_keep (val13 V) main_v88 (by decide)).trans (val13_v88 V)
theorem val14_v91 (V : Valuation τ sig (Elt F)) : val14 V (Proc.devRef .tc main_v91) = (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32))) :=
  (w14_keep (val13 V) main_v91 (by decide)).trans (val13_v91 V)
theorem val14_call1_v11 (V : Valuation τ sig (Elt F)) : val14 V (Proc.devRef .tc main_call1_v11) = (Host.divf (Host.reduceAdd (mulf (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32))))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (Host.divf (broadcastInDim S1x256 ![1] bcast_S256_S1x256_1 (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_)) (broadcastInDim S1x256 ![] bcast_S_S1x256 (constant (F := F) S_ .f32 0x47C35000#32)))))) (constant (F := F) S_ .f32 0x00000000#32) reducesTo_S100000x256_S256_d0 h_S_) (broadcastInDim S256 ![] bcast_S_S256 (subf (constant (F := F) S_ .f32 0x47C35000#32) (sitofp .f32 (constantI S_ 32 0#32))))) :=
  s14_call1_v11 V (val13 V) (val13_call1_v7 V) (val13_call1_v6 V)
theorem val14_call1_v12 (V : Valuation τ sig (Elt F)) : val14 V (Proc.devRef .tc main_call1_v12) = (cmpf .ogt (subf (constant (F := F) S_ .f32 0x47C35000#32) (sitofp .f32 (constantI S_ 32 0#32))) (constant (F := F) S_ .f32 0x00000000#32)) :=
  s14_call1_v12 V (val13 V) (val13_call1_v7 V)
theorem val14_call1_cst_4 (V : Valuation τ sig (Elt F)) : val14 V (Proc.devRef .tc main_call1_cst_4) = (constant (F := F) S_ .f32 0x7FC00000#32) :=
  s14_call1_cst_4 V (val13 V)

/-- The contents after the first 15 stretches. -/
def val15 (V : Valuation τ sig (Elt F)) : Valuation τ sig (Elt F) := after w15 (val14 V)
theorem val15_arg1 (V : Valuation τ sig (Elt F)) : val15 V (Proc.devRef .tc main_arg1) = (V (Proc.devRef .tc main_arg1)) :=
  (w15_keep (val14 V) main_arg1 (by decide)).trans (val14_arg1 V)
theorem val15_arg5 (V : Valuation τ sig (Elt F)) : val15 V (Proc.devRef .tc main_arg5) = (V (Proc.devRef .tc main_arg5)) :=
  (w15_keep (val14 V) main_arg5 (by decide)).trans (val14_arg5 V)
theorem val15_arg8 (V : Valuation τ sig (Elt F)) : val15 V (Proc.devRef .tc main_arg8) = (V (Proc.devRef .tc main_arg8)) :=
  (w15_keep (val14 V) main_arg8 (by decide)).trans (val14_arg8 V)
theorem val15_arg9 (V : Valuation τ sig (Elt F)) : val15 V (Proc.devRef .tc main_arg9) = (V (Proc.devRef .tc main_arg9)) :=
  (w15_keep (val14 V) main_arg9 (by decide)).trans (val14_arg9 V)
theorem val15_v88 (V : Valuation τ sig (Elt F)) : val15 V (Proc.devRef .tc main_v88) = (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) :=
  (w15_keep (val14 V) main_v88 (by decide)).trans (val14_v88 V)
theorem val15_v91 (V : Valuation τ sig (Elt F)) : val15 V (Proc.devRef .tc main_v91) = (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32))) :=
  (w15_keep (val14 V) main_v91 (by decide)).trans (val14_v91 V)
theorem val15_v92 (V : Valuation τ sig (Elt F)) : val15 V (Proc.devRef .tc main_v92) = (Spec.var (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11)))) :=
  s15_v92 V (val14 V) (val14_call1_cst_4 V) (val14_call1_v11 V) (val14_call1_v12 V)

/-- The contents after the first 16 stretches. -/
def val16 (V : Valuation τ sig (Elt F)) : Valuation τ sig (Elt F) := after w16 (val15 V)
theorem val16_arg1 (V : Valuation τ sig (Elt F)) : val16 V (Proc.devRef .tc main_arg1) = (V (Proc.devRef .tc main_arg1)) :=
  (w16_keep (val15 V) main_arg1 (by decide)).trans (val15_arg1 V)
theorem val16_arg5 (V : Valuation τ sig (Elt F)) : val16 V (Proc.devRef .tc main_arg5) = (V (Proc.devRef .tc main_arg5)) :=
  (w16_keep (val15 V) main_arg5 (by decide)).trans (val15_arg5 V)
theorem val16_arg9 (V : Valuation τ sig (Elt F)) : val16 V (Proc.devRef .tc main_arg9) = (V (Proc.devRef .tc main_arg9)) :=
  (w16_keep (val15 V) main_arg9 (by decide)).trans (val15_arg9 V)
theorem val16_v92 (V : Valuation τ sig (Elt F)) : val16 V (Proc.devRef .tc main_v92) = (Spec.var (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11)))) :=
  (w16_keep (val15 V) main_v92 (by decide)).trans (val15_v92 V)
theorem val16_v95 (V : Valuation τ sig (Elt F)) : val16 V (Proc.devRef .tc main_v95) = (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (broadcastInDim S1x256 ![1] bcast_S256_S1x256_1 (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32)))))) :=
  s16_v95 V (val15 V) (val15_v91 V) (val15_v88 V)
theorem val16_v97 (V : Valuation τ sig (Elt F)) : val16 V (Proc.devRef .tc main_v97) = (Spec.overNodes (V (Proc.devRef .tc main_arg8))) :=
  s16_v97 V (val15 V) (val15_arg8 V)

/-- The contents after the first 17 stretches. -/
def val17 (V : Valuation τ sig (Elt F)) : Valuation τ sig (Elt F) := after w17 (val16 V)
theorem val17_arg1 (V : Valuation τ sig (Elt F)) : val17 V (Proc.devRef .tc main_arg1) = (V (Proc.devRef .tc main_arg1)) :=
  (w17_keep (val16 V) main_arg1 (by decide)).trans (val16_arg1 V)
theorem val17_arg5 (V : Valuation τ sig (Elt F)) : val17 V (Proc.devRef .tc main_arg5) = (V (Proc.devRef .tc main_arg5)) :=
  (w17_keep (val16 V) main_arg5 (by decide)).trans (val16_arg5 V)
theorem val17_arg9 (V : Valuation τ sig (Elt F)) : val17 V (Proc.devRef .tc main_arg9) = (V (Proc.devRef .tc main_arg9)) :=
  (w17_keep (val16 V) main_arg9 (by decide)).trans (val16_arg9 V)
theorem val17_v98 (V : Valuation τ sig (Elt F)) : val17 V (Proc.devRef .tc main_v98) = (mulf (Spec.overNodes (V (Proc.devRef .tc main_arg8))) (subf (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (broadcastInDim S100000x256 ![0, 1] bcast_S1x256_S100000x256_0_1 (broadcastInDim S1x256 ![1] bcast_S256_S1x256_1 (Host.divf (Host.reduceAdd (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11))) (constant (F := F) S_ .f32 0x00000000#32) reducesTo_S100000x256_S256_d0 h_S_) (broadcastInDim S256 ![] bcast_S_S256 (constant (F := F) S_ .f32 0x47C35000#32))))))) :=
  s17_v98 V (val16 V) (val16_v95 V) (val16_v97 V)
theorem val17_v103 (V : Valuation τ sig (Elt F)) : val17 V (Proc.devRef .tc main_v103) = (broadcastInDim S100000x256 ![0, 1] bcast_S1x256_S100000x256_0_1 (broadcastInDim S1x256 ![1] bcast_S256_S1x256_1 (Host.rsqrt (addf (Spec.var (Spec.hR (V (Proc.devRef .tc main_arg0)) (V (Proc.devRef .tc main_arg1)) (V (Proc.devRef .tc main_arg6)) (V (Proc.devRef .tc main_arg2)) (V (Proc.devRef .tc main_arg3)) (V (Proc.devRef .tc main_arg4)) (V (Proc.devRef .tc main_arg7)) (V (Proc.devRef .tc main_arg10)) (V (Proc.devRef .tc main_arg11)))) (broadcastInDim S256 ![] bcast_S_S256 (constant (F := F) S_ .f32 0x3727C5AC#32)))))) :=
  s17_v103 V (val16 V) (val16_v92 V)

/-- The contents after the first 18 stretches. -/
def val18 (V : Valuation τ sig (Elt F)) : Valuation τ sig (Elt F) := after w18 (val17 V)
theorem val18_v108 (V : Valuation τ sig (Elt F)) : val18 V (Proc.devRef .tc main_v108) = (Spec.resH (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11))) :=
  s18_v108 V (val17 V) (val17_arg9 V) (val17_v103 V) (val17_v98 V)
theorem val18_v109 (V : Valuation τ sig (Elt F)) : val18 V (Proc.devRef .tc main_v109) = (Spec.resR (V (Proc.devRef .tc main_arg1)) (V (Proc.devRef .tc main_arg5))) :=
  s18_v109 V (val17 V) (val17_arg5 V) (val17_arg1 V)

/-- The fold of the whole list is the last of the named contents. -/
theorem after_ops (V : Valuation τ sig (Elt F)) : after ops V = val18 V := by
  simp only [ops, Cert.HostFold.after_append]
  rfl

/-- The first result is the layer's output as a function of the argument arrays. -/
theorem res_h (m : (ℓ : Loc nD τ sig) → Buf (Elt F) ℓ) (d : Dev nD) :
    StableHlo.after ops (StableHlo.launchContents m d) (Proc.devRef .tc main_v108)
      = Cert.ReferenceIdeal.Spec.resH (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) := by
  rw [after_ops]
  exact val18_v108 (launchContents m d)

/-- The second result is the relation embeddings times their weight matrix. -/
theorem res_r (m : (ℓ : Loc nD τ sig) → Buf (Elt F) ℓ) (d : Dev nD) :
    StableHlo.after ops (StableHlo.launchContents m d) (Proc.devRef .tc main_v109)
      = Cert.ReferenceIdeal.Spec.resR (m ((d.tc : Thread nD τ).loc main_arg1)) (m ((d.tc : Thread nD τ).loc main_arg5)) := by
  rw [after_ops]
  exact val18_v109 (launchContents m d)

theorem kept_arg0 (m : (ℓ : Loc nD τ sig) → Buf (Elt F) ℓ) (d : Dev nD) :
    StableHlo.after ops (StableHlo.launchContents m d) (Proc.devRef .tc main_arg0) = m ((d.tc : Thread nD τ).loc main_arg0) :=
  kept (launchContents m d) main_arg0 (by decide)
theorem kept_arg1 (m : (ℓ : Loc nD τ sig) → Buf (Elt F) ℓ) (d : Dev nD) :
    StableHlo.after ops (StableHlo.launchContents m d) (Proc.devRef .tc main_arg1) = m ((d.tc : Thread nD τ).loc main_arg1) :=
  kept (launchContents m d) main_arg1 (by decide)
theorem kept_arg2 (m : (ℓ : Loc nD τ sig) → Buf (Elt F) ℓ) (d : Dev nD) :
    StableHlo.after ops (StableHlo.launchContents m d) (Proc.devRef .tc main_arg2) = m ((d.tc : Thread nD τ).loc main_arg2) :=
  kept (launchContents m d) main_arg2 (by decide)
theorem kept_arg3 (m : (ℓ : Loc nD τ sig) → Buf (Elt F) ℓ) (d : Dev nD) :
    StableHlo.after ops (StableHlo.launchContents m d) (Proc.devRef .tc main_arg3) = m ((d.tc : Thread nD τ).loc main_arg3) :=
  kept (launchContents m d) main_arg3 (by decide)
theorem kept_arg4 (m : (ℓ : Loc nD τ sig) → Buf (Elt F) ℓ) (d : Dev nD) :
    StableHlo.after ops (StableHlo.launchContents m d) (Proc.devRef .tc main_arg4) = m ((d.tc : Thread nD τ).loc main_arg4) :=
  kept (launchContents m d) main_arg4 (by decide)
theorem kept_arg5 (m : (ℓ : Loc nD τ sig) → Buf (Elt F) ℓ) (d : Dev nD) :
    StableHlo.after ops (StableHlo.launchContents m d) (Proc.devRef .tc main_arg5) = m ((d.tc : Thread nD τ).loc main_arg5) :=
  kept (launchContents m d) main_arg5 (by decide)
theorem kept_arg6 (m : (ℓ : Loc nD τ sig) → Buf (Elt F) ℓ) (d : Dev nD) :
    StableHlo.after ops (StableHlo.launchContents m d) (Proc.devRef .tc main_arg6) = m ((d.tc : Thread nD τ).loc main_arg6) :=
  kept (launchContents m d) main_arg6 (by decide)
theorem kept_arg7 (m : (ℓ : Loc nD τ sig) → Buf (Elt F) ℓ) (d : Dev nD) :
    StableHlo.after ops (StableHlo.launchContents m d) (Proc.devRef .tc main_arg7) = m ((d.tc : Thread nD τ).loc main_arg7) :=
  kept (launchContents m d) main_arg7 (by decide)
theorem kept_arg8 (m : (ℓ : Loc nD τ sig) → Buf (Elt F) ℓ) (d : Dev nD) :
    StableHlo.after ops (StableHlo.launchContents m d) (Proc.devRef .tc main_arg8) = m ((d.tc : Thread nD τ).loc main_arg8) :=
  kept (launchContents m d) main_arg8 (by decide)
theorem kept_arg9 (m : (ℓ : Loc nD τ sig) → Buf (Elt F) ℓ) (d : Dev nD) :
    StableHlo.after ops (StableHlo.launchContents m d) (Proc.devRef .tc main_arg9) = m ((d.tc : Thread nD τ).loc main_arg9) :=
  kept (launchContents m d) main_arg9 (by decide)
theorem kept_arg10 (m : (ℓ : Loc nD τ sig) → Buf (Elt F) ℓ) (d : Dev nD) :
    StableHlo.after ops (StableHlo.launchContents m d) (Proc.devRef .tc main_arg10) = m ((d.tc : Thread nD τ).loc main_arg10) :=
  kept (launchContents m d) main_arg10 (by decide)
theorem kept_arg11 (m : (ℓ : Loc nD τ sig) → Buf (Elt F) ℓ) (d : Dev nD) :
    StableHlo.after ops (StableHlo.launchContents m d) (Proc.devRef .tc main_arg11) = m ((d.tc : Thread nD τ).loc main_arg11) :=
  kept (launchContents m d) main_arg11 (by decide)

/-- From any memory with zero counters every fair execution of the program terminates with the twelve arguments unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c)⟩)
    (run_all m ρ)

end Cert.ReferenceIdeal.RunH

end
-- ==== Proof.SpecK.lean ====
/-
  The host lines of the kernel's program around its one region, stage by stage, as pure functions of the argument arrays:
  each definition applies one printed operation (or a short run of them) to earlier stages, so that the program's
  fold of its operations over the launch memory unfolds to these terms.
  The layer: node features x [N,256] (N = 100000), relation embeddings r [474,256] with a self-loop relation lr [1,256]
  appended (rfull, 475 rows), E = 1000000 edges (row → col, typed et); the first half of the edges uses w_in, the
  second half w_out; every node also receives (x − lr)·w_loop; the sum is batch-normalised over the nodes and passed
  through tanh. An edge's weight is dinv[row]·dinv[col], dinv the inverse square root of a node's out-degree (0 for
  an isolated node). A negative index is first wrapped by the array's extent (wrapE, wrapH), then clamped by the gather.
-/
import proofs.«117589_j28346784154211_2_alg».proof.Proof.Gen.KernelIdeal
import Idealize.ShloMosaic.PureOps
import Idealize.ShloMosaic.Lib.ValueIdx
import Idealize.ShloMosaic.PureOps.Ideal.Laws

noncomputable section

namespace Cert.KernelIdeal.Spec

open Cert.KernelIdeal Cert.KernelIdeal.Facts₀ Cert.KernelIdeal.Facts Idealize.ShloMosaic
open scoped BigOperators

variable {F : FTy → Type} [FloatOps F]

/-- The contents of a buffer of shape `s` and element type `e`. -/
abbrev Tn (F : FTy → Type) [FloatOps F] (s : Shape) (e : EltTy) : Type := (⟨s, e⟩ : BufTy).Contents (Elt F)

/-- Source nodes of the edges: row 0 of the edge index. -/
def row (ei : Tn F S2x1000000 .i32) : Tn F S1000000 .i32 :=
  shapeCast S1000000 (extractStridedSlice S1x1000000 ![0, 0] ei slices_S2x1000000_S1x1000000_0_0) shapeCasts_S1x1000000_S1000000
/-- Target nodes of the edges: row 1 of the edge index. -/
def col (ei : Tn F S2x1000000 .i32) : Tn F S1000000 .i32 :=
  shapeCast S1000000 (extractStridedSlice S1x1000000 ![1, 0] ei slices_S2x1000000_S1x1000000_1_0) shapeCasts_S1x1000000_S1000000

/-- Out-degree of every node: a scatter-add of ones at the source nodes. -/
def deg (ei : Tn F S2x1000000 .i32) : Tn F S100000 .f32 :=
  Host.scatterAdd scatter_S100000_S1000000x1_S1000000_n_0_0_1
    (broadcastInDim S100000 ![] bcast_S_S100000 (constant (F := F) S_ .f32 0x00000000#32))
    (broadcastInDim S1000000x1 ![0] bcast_S1000000_S1000000x1_0 (row ei))
    (broadcastInDim S1000000 ![] bcast_S_S1000000 (constant (F := F) S_ .f32 0x3F800000#32))

/-- deg^(−1/2) where the degree is positive, 0 elsewhere. -/
def dinv (ei : Tn F S2x1000000 .i32) : Tn F S100000 .f32 :=
  select (cmpf .ogt (deg ei) (broadcastInDim S100000 ![] bcast_S_S100000 (constant (F := F) S_ .f32 0x00000000#32)))
    (Host.powf (deg ei) (broadcastInDim S100000 ![] bcast_S_S100000 (constant (F := F) S_ .f32 0xBF000000#32)))
    (broadcastInDim S100000 ![] bcast_S_S100000 (id (constant (F := F) S_ .f32 0x00000000#32)))

/-- A node index over all edges, a negative one wrapped by the number of nodes. -/
def wrapE (i : Tn F S1000000 .i32) : Tn F S1000000 .i32 :=
  select (cmpi .slt i (broadcastInDim S1000000 ![] bcast_S_S1000000 (constantI S_ 32 0#32)))
    (addi i (broadcastInDim S1000000 ![] bcast_S_S1000000 (constantI S_ 32 100000#32))) i

/-- The edge weights dinv[row]·dinv[col]. -/
def norm (ei : Tn F S2x1000000 .i32) : Tn F S1000000 .f32 :=
  mulf
    (Host.gather gather_S100000_S1000000x1_S1000000_n_0_n_n_0_1_1 (dinv ei) (broadcastInDim S1000000x1 ![0] bcast_S1000000_S1000000x1_0 (wrapE (row ei))))
    (Host.gather gather_S100000_S1000000x1_S1000000_n_0_n_n_0_1_1 (dinv ei) (broadcastInDim S1000000x1 ![0] bcast_S1000000_S1000000x1_0 (wrapE (col ei))))

/-- The relation table with the self-loop relation appended as row 474. -/
def rfull (r : Tn F S474x256 .f32) (lr : Tn F S1x256 .f32) : Tn F S475x256 .f32 :=
  concatenate S475x256 0 [⟨S474x256, r⟩, ⟨S1x256, lr⟩] concatenates_S474x256_S1x256_S475x256_d0

/-- A node index over half of the edges, wrapped by the number of nodes, as a one-column index array. -/
def nodeIdx (i : Tn F S500000 .i32) : Tn F S500000x1 .i32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 100000#32))) i)
/-- A relation index over half of the edges, wrapped by the 475 rows of the relation table. -/
def relIdx (i : Tn F S500000 .i32) : Tn F S500000x1 .i32 :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 475#32))) i)
/-- The first and the second half of a per-edge array. -/
def lo {e : EltTy} (v : Tn F S1000000 e) : Tn F S500000 e := extractStridedSlice S500000 ![0] v slices_S1000000_S500000_0
def hi {e : EltTy} (v : Tn F S1000000 e) : Tn F S500000 e := extractStridedSlice S500000 ![500000] v slices_S1000000_S500000_500000
/-- A per-edge weight spread over the 256 features. -/
def spread (v : Tn F S500000 .f32) : Tn F S500000x256 .f32 :=
  broadcastInDim S500000x256 ![0, 1] bcast_S500000x1_S500000x256_0_1 (broadcastInDim S500000x1 ![0] bcast_S500000_S500000x1_0 v)
/-- A feature vector [256] spread over the nodes. -/
def overNodes (v : Tn F S256 .f32) : Tn F S100000x256 .f32 :=
  broadcastInDim S100000x256 ![0, 1] bcast_S1x256_S100000x256_0_1 (broadcastInDim S1x256 ![1] bcast_S256_S1x256_1 v)

/-- The variance over the nodes, feature by feature (the mean of the squared deviations from the mean). -/
def var (h : Tn F S100000x256 .f32) : Tn F S256 .f32 :=
  select (broadcastInDim S256 ![] bcast_S_S256
      (cmpf .ogt (subf (constant (F := F) S_ .f32 0x47C35000#32) (sitofp .f32 (constantI S_ 32 0#32))) (constant (F := F) S_ .f32 0x00000000#32)))
    (Host.divf
      (Host.reduceAdd
        (mulf
          (subf h (broadcastInDim S100000x256 ![0, 1] bcast_S1x256_S100000x256_0_1
            (Host.divf (broadcastInDim S1x256 ![1] bcast_S256_S1x256_1 (Host.reduceAdd h (constant (F := F) S_ .f32 0x00000000#32) reducesTo_S100000x256_S256_d0 h_S_))
              (broadcastInDim S1x256 ![] bcast_S_S1x256 (constant (F := F) S_ .f32 0x47C35000#32)))))
          (subf h (broadcastInDim S100000x256 ![0, 1] bcast_S1x256_S100000x256_0_1
            (Host.divf (broadcastInDim S1x256 ![1] bcast_S256_S1x256_1 (Host.reduceAdd h (constant (F := F) S_ .f32 0x00000000#32) reducesTo_S100000x256_S256_d0 h_S_))
              (broadcastInDim S1x256 ![] bcast_S_S1x256 (constant (F := F) S_ .f32 0x47C35000#32))))))
        (constant (F := F) S_ .f32 0x00000000#32) reducesTo_S100000x256_S256_d0 h_S_)
      (broadcastInDim S256 ![] bcast_S_S256 (subf (constant (F := F) S_ .f32 0x47C35000#32) (sitofp .f32 (constantI S_ 32 0#32)))))
    (broadcastInDim S256 ![] bcast_S_S256 (id (constant (F := F) S_ .f32 0x7FC00000#32)))

/-- Batch normalisation over the nodes followed by tanh: tanh(γ·(h − mean)·rsqrt(var + ε) + β). -/
def bn (h : Tn F S100000x256 .f32) (γ β : Tn F S256 .f32) : Tn F S100000x256 .f32 :=
  Host.tanh (addf
    (mulf
      (mulf (overNodes γ)
        (subf h (overNodes (Host.divf (Host.reduceAdd h (constant (F := F) S_ .f32 0x00000000#32) reducesTo_S100000x256_S256_d0 h_S_)
          (broadcastInDim S256 ![] bcast_S_S256 (constant (F := F) S_ .f32 0x47C35000#32))))))
      (overNodes (Host.rsqrt (addf (var h) (broadcastInDim S256 ![] bcast_S_S256 (constant (F := F) S_ .f32 0x3727C5AC#32))))))
    (overNodes β))

/-- The three weight matrices side by side: [w_in | w_out | w_loop]. -/
def wcat (w_in w_out w_loop : Tn F S256x256 .f32) : Tn F S256x768 .f32 :=
  concatenate S256x768 1 [⟨S256x256, w_in⟩, ⟨S256x256, w_out⟩, ⟨S256x256, w_loop⟩] concatenates_S256x256_S256x256_S256x256_S256x768_d1

/-- The three column blocks of the region's result x·[w_in | w_out | w_loop]. -/
def xWin (xw : Tn F S100000x768 .f32) : Tn F S100000x256 .f32 := extractStridedSlice S100000x256 ![0, 0] xw slices_S100000x768_S100000x256_0_0
def xWout (xw : Tn F S100000x768 .f32) : Tn F S100000x256 .f32 := extractStridedSlice S100000x256 ![0, 256] xw slices_S100000x768_S100000x256_0_256
def xWloop (xw : Tn F S100000x768 .f32) : Tn F S100000x256 .f32 := extractStridedSlice S100000x256 ![0, 512] xw slices_S100000x768_S100000x256_0_512

/-- The relation table times a weight matrix. -/
def rW (rf : Tn F S475x256 .f32) (w : Tn F S256x256 .f32) : Tn F S475x256 .f32 :=
  Host.dotGeneral dot_S475x256_S256x256_S475x256_1_0_0_1_n_n none (truncf .bf16 rf bitsLt_bf16_f32) (truncf .bf16 w bitsLt_bf16_f32)
/-- The self-loop relation times w_loop. -/
def lrW (lr : Tn F S1x256 .f32) (w : Tn F S256x256 .f32) : Tn F S1x256 .f32 :=
  Host.dotGeneral dot_S1x256_S256x256_S1x256_1_0_0_1_n_n none (truncf .bf16 lr bitsLt_bf16_f32) (truncf .bf16 w bitsLt_bf16_f32)

/-- One half's messages: (xW[col] − rW[et])·norm, the rows gathered from the two product tables. -/
def msgK (xWm : Tn F S100000x256 .f32) (rWm : Tn F S475x256 .f32) (c t : Tn F S500000 .i32) (n : Tn F S500000 .f32) : Tn F S500000x256 .f32 :=
  mulf (subf
      (extf .f32 (Host.gather gather_S100000x256_S500000x1_S500000x256_1_0_n_n_0_1_1256 (truncf .bf16 xWm bitsLt_bf16_f32) (nodeIdx c)) bitsLt_bf16_f32)
      (extf .f32 (Host.gather gather_S475x256_S500000x1_S500000x256_1_0_n_n_0_1_1256 (truncf .bf16 rWm bitsLt_bf16_f32) (relIdx t)) bitsLt_bf16_f32))
    (spread n)

/-- The pre-normalisation activations: all edges' messages summed at their source nodes, plus the self-loop term, plus
    the bias. -/
def hK (xw : Tn F S100000x768 .f32) (r : Tn F S474x256 .f32) (lr : Tn F S1x256 .f32) (w_in w_out w_loop : Tn F S256x256 .f32)
    (bias : Tn F S256 .f32) (ei : Tn F S2x1000000 .i32) (et : Tn F S1000000 .i32) : Tn F S100000x256 .f32 :=
  addf (addf
    (Host.scatterAdd scatter_S100000x256_S1000000x1_S1000000x256_1_0_0_1
      (broadcastInDim S100000x256 ![] bcast_S_S100000x256 (constant (F := F) S_ .f32 0x00000000#32))
      (broadcastInDim S1000000x1 ![0] bcast_S1000000_S1000000x1_0 (row ei))
      (concatenate S1000000x256 0
        [⟨S500000x256, msgK (xWin xw) (rW (rfull r lr) w_in) (lo (col ei)) (lo et) (lo (norm ei))⟩,
         ⟨S500000x256, msgK (xWout xw) (rW (rfull r lr) w_out) (hi (col ei)) (hi et) (hi (norm ei))⟩]
        concatenates_S500000x256_S500000x256_S1000000x256_d0))
    (subf (xWloop xw) (broadcastInDim S100000x256 ![0, 1] bcast_S1x256_S100000x256_0_1 (lrW lr w_loop))))
    (overNodes bias)

/-- The first result: the layer's output over the region's result array `xw`. (`x` enters only through `xw`.) -/
def resH (xw : Tn F S100000x768 .f32) (x : Tn F S100000x256 .f32) (r : Tn F S474x256 .f32) (w_in w_out w_loop : Tn F S256x256 .f32)
    (lr : Tn F S1x256 .f32) (bias γ β : Tn F S256 .f32) (ei : Tn F S2x1000000 .i32) (et : Tn F S1000000 .i32) : Tn F S100000x256 .f32 :=
  bn (hK xw r lr w_in w_out w_loop bias ei et) γ β

/-- The second result: the relation embeddings times w_rel. -/
def resR (r : Tn F S474x256 .f32) (w_rel : Tn F S256x256 .f32) : Tn F S474x256 .f32 :=
  Host.dotGeneral dot_S474x256_S256x256_S474x256_1_0_0_1_n_n none (truncf .bf16 r bitsLt_bf16_f32) (truncf .bf16 w_rel bitsLt_bf16_f32)

/-- The region's result array at the extended reals: the product of the features and the stacked weights, entry by
    entry. -/
def xwI (a : FVec Ideal S100000x256 .bf16) (w : FVec Ideal S256x768 .bf16) : FVec Ideal S100000x768 .f32 :=
  fun i => ∑ k : Fin 256, a (ValueIdx.ix2 (i 0) k) * w (ValueIdx.ix2 k (i 1))

end Cert.KernelIdeal.Spec

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«117589_j28346784154211_2_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.LibConsts.lean ====
/-
  The single-precision constants of a normalisation network, as real numbers.

  A single-precision pattern with sign 0, exponent field E (neither 0 nor 255) and fraction field T denotes the real
  (2²³ + T) · 2^(E − 150). The patterns below are the counts 600000, 50000 and 32, the numbers 0.5 and (in the library
  already) 0 and 1, and the pattern nearest to 10⁻⁵, which is 10995116 / 2⁴⁰, a positive real. The pattern with exponent
  field 255 and fraction field 0 denotes +∞.
-/
import Idealize.ShloMosaic.PureOps.Ideal
import Idealize.ShloMosaic.PureOps.Ideal.Laws

open Idealize.ShloMosaic

namespace Cert.BatchNorm.Consts

/-- The single-precision pattern 0x49127C00 denotes the real 600000. -/
theorem ofBits_600000 : Ideal.ofBits .f32 0x49127C00#32 = ((600000 : ℝ) : EReal) := by
  simp [Ideal.ofBits, Ideal.ieee, -EReal.coe_mul]; norm_num

/-- The single-precision pattern 0x47435000 denotes the real 50000. -/
theorem ofBits_50000 : Ideal.ofBits .f32 0x47435000#32 = ((50000 : ℝ) : EReal) := by
  simp [Ideal.ofBits, Ideal.ieee, -EReal.coe_mul]; norm_num

/-- The single-precision pattern 0x42000000 denotes the real 32. -/
theorem ofBits_32 : Ideal.ofBits .f32 0x42000000#32 = ((32 : ℝ) : EReal) := by
  simp [Ideal.ofBits, Ideal.ieee, -EReal.coe_mul]; norm_num

/-- The single-precision pattern 0x3F000000 denotes the real one half. -/
theorem ofBits_half : Ideal.ofBits .f32 0x3F000000#32 = ((1 / 2 : ℝ) : EReal) := by
  simp [Ideal.ofBits, Ideal.ieee, -EReal.coe_mul]; norm_num

/-- The single-precision pattern 0x3F800000 denotes the real one. -/
theorem ofBits_one : Ideal.ofBits .f32 0x3F800000#32 = ((1 : ℝ) : EReal) := by
  simp [Ideal.ofBits, Ideal.ieee, -EReal.coe_mul]; norm_num

/-- The single-precision pattern 0x00000000 denotes the real zero. -/
theorem ofBits_zero : Ideal.ofBits .f32 0x00000000#32 = ((0 : ℝ) : EReal) := by
  rw [Ideal.ofBits_zero_f32, EReal.coe_zero]

/-- The single-precision pattern 0x3727C5AC (the nearest to 10⁻⁵) denotes the real 10995116 / 2⁴⁰. -/
theorem ofBits_eps : Ideal.ofBits .f32 0x3727C5AC#32 = ((10995116 / 2 ^ 40 : ℝ) : EReal) := by
  simp [Ideal.ofBits, Ideal.ieee, -EReal.coe_mul]; norm_num

/-- The single-precision pattern 0x7F800000 denotes +∞. -/
theorem ofBits_inf : Ideal.ofBits .f32 0x7F800000#32 = ⊤ := by
  simp [Ideal.ofBits, Ideal.ieee]

/-- The real the pattern 0x3727C5AC denotes is positive. -/
theorem eps_pos : (0 : ℝ) < 10995116 / 2 ^ 40 := by norm_num

end Cert.BatchNorm.Consts
-- ==== Proof.LibAllReal.lean ====
/-
  Every entry is a real number: a property of arrays of extended reals, carried through the operations of a network.

  An array over a shape is a function from the shape's indices to the extended reals. It is called all-real here when
  every entry is the image of a real number. The lemmas below say that each operation that sits between the layers of a
  message-passing network keeps that property:

  · entrywise sums, differences, products, maxima, quotients by nonzero reals, format changes (the identity on the
    extended reals), integer-to-float conversions, selections;
  · constants whose pattern denotes a real, and anything that only re-indexes its operand: broadcasts, shape casts,
    slices, gathers (every entry of the result is an entry of the operand);
  · concatenations (every entry of the result is an entry of one of the blocks);
  · accumulating scatters, sums over axes, matrix products (an entry plus a finite sum of entries, or of products);
  · reciprocal square roots of arrays whose entries are positive reals.

  Two companions: an array is all-nonnegative / all-positive when every entry is the image of a real ≥ 0 / > 0. A
  nonnegative array plus a positive one is positive, which is what the variance plus a small positive constant needs
  before its reciprocal square root is taken.
-/
import Idealize.ShloMosaic.PureOps
import Idealize.ShloMosaic.PureOps.Ideal
import Idealize.ShloMosaic.PureOps.Ideal.Laws
import Idealize.ShloMosaic.Lib.ValueIdx
import Idealize.ShloMosaic.Lib.ReduceAll
import proofs.«117589_j28346784154211_2_alg».proof.Proof.LibRealSums
import proofs.«117589_j28346784154211_2_alg».proof.Proof.LibBatchNorm
import proofs.«117589_j28346784154211_2_alg».proof.Proof.LibConsts

open scoped BigOperators
open Idealize.ShloMosaic Cert.RealSums Cert.BatchNorm

namespace Cert.AllReal

/-- Every entry of the array is the image of a real number. -/
def AllReal {S : Shape} (v : S.Idx → EReal) : Prop := ∀ i, IsReal (v i)

/-- Every entry of the array is the image of a real number that is not negative. -/
def AllNonneg {S : Shape} (v : S.Idx → EReal) : Prop := ∀ i, ∃ r : ℝ, 0 ≤ r ∧ v i = (r : EReal)

/-- Every entry of the array is the image of a positive real number. -/
def AllPos {S : Shape} (v : S.Idx → EReal) : Prop := ∀ i, ∃ r : ℝ, 0 < r ∧ v i = (r : EReal)

section Basics
variable {S : Shape}

/-- An all-nonnegative array is all-real. -/
theorem AllNonneg.allReal {v : S.Idx → EReal} (h : AllNonneg v) : AllReal v :=
  fun i => let ⟨r, _, hr⟩ := h i; ⟨r, hr⟩

/-- An all-positive array is all-real. -/
theorem AllPos.allReal {v : S.Idx → EReal} (h : AllPos v) : AllReal v :=
  fun i => let ⟨r, _, hr⟩ := h i; ⟨r, hr⟩

/-- An all-positive array is all-nonnegative. -/
theorem AllPos.allNonneg {v : S.Idx → EReal} (h : AllPos v) : AllNonneg v :=
  fun i => let ⟨r, h0, hr⟩ := h i; ⟨r, h0.le, hr⟩

/-- No entry of an all-positive array is zero. -/
theorem AllPos.ne_zero {v : S.Idx → EReal} (h : AllPos v) (i : S.Idx) : v i ≠ 0 := by
  obtain ⟨r, h0, hr⟩ := h i
  rw [hr]
  exact_mod_cast h0.ne'

/-- RE-INDEXING. An array that reads an all-real array at some index of it, whatever the index, is all-real. -/
theorem allReal_comp {T : Shape} {x : S.Idx → EReal} (hx : AllReal x) (f : T.Idx → S.Idx) : AllReal fun j => x (f j) :=
  fun j => hx (f j)

/-- Re-indexing keeps positivity. -/
theorem allPos_comp {T : Shape} {x : S.Idx → EReal} (hx : AllPos x) (f : T.Idx → S.Idx) : AllPos fun j => x (f j) :=
  fun j => hx (f j)

/-- Re-indexing keeps nonnegativity. -/
theorem allNonneg_comp {T : Shape} {x : S.Idx → EReal} (hx : AllNonneg x) (f : T.Idx → S.Idx) :
    AllNonneg fun j => x (f j) :=
  fun j => hx (f j)

end Basics

/-! ### Entrywise operations -/

section Elementwise
variable {s : Shape} {φ : FTy}

/-- The entrywise sum of two all-real arrays is all-real. -/
theorem allReal_addf {x y : FVec Ideal s φ} (hx : AllReal x) (hy : AllReal y) : AllReal (addf x y) :=
  fun i => (hx i).add (hy i)

/-- The entrywise difference of two all-real arrays is all-real. -/
theorem allReal_subf {x y : FVec Ideal s φ} (hx : AllReal x) (hy : AllReal y) : AllReal (subf x y) :=
  fun i => isReal_sub (hx i) (hy i)

/-- The entrywise product of two all-real arrays is all-real. -/
theorem allReal_mulf {x y : FVec Ideal s φ} (hx : AllReal x) (hy : AllReal y) : AllReal (mulf x y) :=
  fun i => (hx i).mul (hy i)

/-- The entrywise negative of an all-real array is all-real. -/
theorem allReal_negf {x : FVec Ideal s φ} (hx : AllReal x) : AllReal (negf x) :=
  fun i => isReal_neg (hx i)

/-- The entrywise maximum of two all-real arrays is all-real. -/
theorem allReal_maximumf {x y : FVec Ideal s φ} (hx : AllReal x) (hy : AllReal y) : AllReal (maximumf x y) :=
  fun i => isReal_max (hx i) (hy i)

/-- The host's entrywise quotient of an all-real array by an all-real array without a zero entry is all-real. -/
theorem allReal_hostDivf {x d : FVec Ideal s φ} (hx : AllReal x) (hd : AllReal d) (hd0 : ∀ i, d i ≠ 0) :
    AllReal (Host.divf x d) :=
  fun i => isReal_div (hx i) (hd i) (hd0 i)

/-- A kernel's entrywise quotient of an all-real array by an all-real array without a zero entry is all-real. -/
theorem allReal_divf {x d : FVec Ideal s φ} (hx : AllReal x) (hd : AllReal d) (hd0 : ∀ i, d i ≠ 0) :
    AllReal (divf x d) :=
  fun i => isReal_div (hx i) (hd i) (hd0 i)

/-- The entrywise maximum of an all-real array and an all-positive array is all-positive (a count raised to at least
    one). -/
theorem allPos_maximumf_right {x y : FVec Ideal s φ} (hx : AllReal x) (hy : AllPos y) : AllPos (maximumf x y) := by
  intro i
  obtain ⟨a, ha⟩ := hx i
  obtain ⟨b, hb0, hb⟩ := hy i
  refine ⟨max a b, lt_of_lt_of_le hb0 (le_max_right a b), ?_⟩
  show max (x i) (y i) = _
  rw [ha, hb]
  rcases le_total a b with h | h
  · rw [max_eq_right h, max_eq_right (EReal.coe_le_coe_iff.mpr h)]
  · rw [max_eq_left h, max_eq_left (EReal.coe_le_coe_iff.mpr h)]

/-- The sum of an all-nonnegative array and an all-positive array is all-positive. -/
theorem allPos_addf {x y : FVec Ideal s φ} (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- A narrowing format change is the identity on the extended reals. -/
theorem truncf_eq (ψ : FTy) (x : FVec Ideal s φ) (h : ψ.bits < φ.bits) : (truncf ψ x h : s.Idx → EReal) = x := rfl

/-- A widening format change is the identity on the extended reals. -/
theorem extf_eq (ψ : FTy) (x : FVec Ideal s φ) (h : φ.bits < ψ.bits) : (extf ψ x h : s.Idx → EReal) = x := rfl

/-- A narrowing format change keeps an array all-real. -/
theorem allReal_truncf (ψ : FTy) {x : FVec Ideal s φ} (h : ψ.bits < φ.bits) (hx : AllReal x) : AllReal (truncf ψ x h) :=
  hx

/-- A widening format change keeps an array all-real. -/
theorem allReal_extf (ψ : FTy) {x : FVec Ideal s φ} (h : φ.bits < ψ.bits) (hx : AllReal x) : AllReal (extf ψ x h) :=
  hx

/-- An array of signed integers converted to floats is all-real: each entry is the integer itself. -/
theorem allReal_sitofp {w : Nat} (x : IVec s w) : AllReal (sitofp (F := Ideal) φ x) :=
  fun i => ⟨((x i).toInt : ℝ), rfl⟩

/-- A selection between two all-real arrays is all-real, whatever the mask. -/
theorem allReal_select (c : IVec s 1) {a b : FVec Ideal s φ} (ha : AllReal a) (hb : AllReal b) :
    AllReal (select c a b) :=
  fun i => isReal_select (c i) (ha i) (hb i)

/-- The leaky rectifier of an all-real array with an all-real slope array is all-real: z where z ≥ 0, slope · z
    elsewhere, the comparison being against any array. -/
theorem allReal_prelu (p : CmpFPredicate) {z a zero : FVec Ideal s φ} (hz : AllReal z) (ha : AllReal a) :
    AllReal (select (cmpf p z zero) z (mulf a z)) :=
  allReal_select _ hz (allReal_mulf ha hz)

/-- The reciprocal square root (a kernel's) of an all-positive array is all-real. -/
theorem allReal_rsqrt {x : FVec Ideal s φ} (hx : AllPos x) : AllReal (rsqrt x) := by
  intro i
  obtain ⟨r, h0, hr⟩ := hx i
  show IsReal (Ideal.rsqrt (x i))
  rw [hr]
  exact isReal_rsqrt_of_pos h0

/-- The reciprocal square root (the host's) of an all-positive array is all-real. -/
theorem allReal_hostRsqrt {x : FVec Ideal s φ} (hx : AllPos x) : AllReal (Host.rsqrt x) := by
  intro i
  obtain ⟨r, h0, hr⟩ := hx i
  show IsReal (Ideal.rsqrt (x i))
  rw [hr]
  exact isReal_rsqrt_of_pos h0

end Elementwise

/-! ### Constants and re-indexings -/

section Layout
variable {s t : Shape}

/-- The splat of a pattern that denotes a real is all-real. -/
theorem allReal_constant (s : Shape) (φ : FTy) (b : BitVec φ.bits) (hb : IsReal (Ideal.ofBits φ b)) :
    AllReal (constant (F := Ideal) s φ b) :=
  fun _ => hb

/-- The splat of a pattern that denotes a positive real is all-positive. -/
theorem allPos_constant (s : Shape) (φ : FTy) (b : BitVec φ.bits) {r : ℝ} (h0 : 0 < r)
    (hb : Ideal.ofBits φ b = (r : EReal)) : AllPos (constant (F := Ideal) s φ b) :=
  fun _ => ⟨r, h0, hb⟩

/-- The splat of a real scalar is all-real. -/
theorem allReal_broadcast (t : Shape) {x : EReal} (hx : IsReal x) : AllReal (broadcast t x) :=
  fun _ => hx

/-- A broadcast along named axes of an all-real array is all-real. -/
theorem allReal_broadcastInDim (t : Shape) (dims : Fin s.rank → Fin t.rank) (h : s.BroadcastsInDim t dims)
    {x : s.Idx → EReal} (hx : AllReal x) : AllReal (broadcastInDim t dims h x) :=
  fun _ => hx _

/-- A broadcast along named axes of an all-positive array is all-positive. -/
theorem allPos_broadcastInDim (t : Shape) (dims : Fin s.rank → Fin t.rank) (h : s.BroadcastsInDim t dims)
    {x : s.Idx → EReal} (hx : AllPos x) : AllPos (broadcastInDim t dims h x) :=
  fun _ => hx _

/-- A broadcast along named axes of an all-nonnegative array is all-nonnegative. -/
theorem allNonneg_broadcastInDim (t : Shape) (dims : Fin s.rank → Fin t.rank) (h : s.BroadcastsInDim t dims)
    {x : s.Idx → EReal} (hx : AllNonneg x) : AllNonneg (broadcastInDim t dims h x) :=
  fun _ => hx _

/-- A broadcast of the splat of a pattern that denotes a real is all-real. -/
theorem allReal_broadcastInDim_constant (t : Shape) (dims : Fin s.rank → Fin t.rank) (h : s.BroadcastsInDim t dims)
    (φ : FTy) (b : BitVec φ.bits) (hb : IsReal (Ideal.ofBits φ b)) :
    AllReal (broadcastInDim t dims h (constant (F := Ideal) s φ b)) :=
  allReal_broadcastInDim t dims h (allReal_constant s φ b hb)

/-- A broadcast to trailing axes of an all-real array is all-real. -/
theorem allReal_broadcastTo (t : Shape) {x : s.Idx → EReal} (h : s.Broadcasts t) (hx : AllReal x) :
    AllReal (broadcastTo t x h) :=
  fun _ => hx _

/-- A shape cast of an all-real array is all-real. -/
theorem allReal_shapeCast (t : Shape) {x : s.Idx → EReal} (h : s.ShapeCasts t) (hx : AllReal x) :
    AllReal (shapeCast t x h) :=
  fun _ => hx _

/-- A shape cast of an all-positive array is all-positive. -/
theorem allPos_shapeCast (t : Shape) {x : s.Idx → EReal} (h : s.ShapeCasts t) (hx : AllPos x) :
    AllPos (shapeCast t x h) :=
  fun _ => hx _

/-- A shape cast of an all-nonnegative array is all-nonnegative. -/
theorem allNonneg_shapeCast (t : Shape) {x : s.Idx → EReal} (h : s.ShapeCasts t) (hx : AllNonneg x) :
    AllNonneg (shapeCast t x h) :=
  fun _ => hx _

/-- A slice of an all-real array is all-real. -/
theorem allReal_extractStridedSlice (t : Shape) (off : Fin s.rank → Nat) {x : s.Idx → EReal} (h : s.Slices off t)
    (hx : AllReal x) : AllReal (extractStridedSlice t off x h) :=
  fun _ => hx _

/-- A gather out of an all-real array is all-real, whatever the dimension numbers and the indices: every entry of the
    result is an entry of the operand. -/
theorem allReal_gather {si : Shape} {w : Nat} (d : GatherDims s si t) {x : s.Idx → EReal} (idx : IVec si w)
    (hx : AllReal x) : AllReal (Host.gather d x idx) :=
  fun _ => hx _

/-- A concatenation of all-real blocks is all-real, whatever the number of blocks and the axis: every entry of the
    result is an entry of one of the blocks. -/
theorem allReal_concatenate (t : Shape) (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- Two all-real blocks side by side are all-real. -/
theorem allReal_concatenate_two (t : Shape) (a : Fin t.rank) {s1 s2 : Shape} {u0 : s1.Idx → EReal} {u1 : s2.Idx → EReal}
    (h : Shape.Concatenates [s1, s2] t a) (h0 : AllReal u0) (h1 : AllReal u1) :
    AllReal (concatenate t a [⟨s1, u0⟩, ⟨s2, u1⟩] h) := by
  refine allReal_concatenate t a [⟨s1, u0⟩, ⟨s2, u1⟩] h fun p hp => ?_
  rcases List.mem_cons.mp hp with rfl | hp
  · exact h0
  rcases List.mem_cons.mp hp with rfl | hp
  · exact h1
  exact absurd hp List.not_mem_nil

/-- Three all-real blocks side by side are all-real. -/
theorem allReal_concatenate_three (t : Shape) (a : Fin t.rank) {s1 s2 s3 : Shape} {u0 : s1.Idx → EReal}
    {u1 : s2.Idx → EReal} {u2 : s3.Idx → EReal} (h : Shape.Concatenates [s1, s2, s3] t a) (h0 : AllReal u0)
    (h1 : AllReal u1) (h2 : AllReal u2) : AllReal (concatenate t a [⟨s1, u0⟩, ⟨s2, u1⟩, ⟨s3, u2⟩] h) := by
  refine allReal_concatenate t a [⟨s1, u0⟩, ⟨s2, u1⟩, ⟨s3, u2⟩] h fun p hp => ?_
  rcases List.mem_cons.mp hp with rfl | hp
  · exact h0
  rcases List.mem_cons.mp hp with rfl | hp
  · exact h1
  rcases List.mem_cons.mp hp with rfl | hp
  · exact h2
  exact absurd hp List.not_mem_nil

end Layout

/-! ### Sums: scatters, reductions, products -/

section Sums
variable {s t : Shape} {φ : FTy}

/-- An accumulating scatter of all-real updates into an all-real operand is all-real, whatever the dimension numbers
    and the indices: every entry of the result is an entry of the operand plus a finite sum of updates. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's sum over axes of an all-real array, from a real initial value, is all-real. -/
theorem allReal_hostReduceAdd {axes : List (Fin s.rank)} {u : Shape} {x : FVec Ideal s φ} {init : u.Idx → Ideal φ}
    (h : s.ReducesTo axes t) (hu : 0 < u.numel) (hx : AllReal x) (hinit : ∀ i, IsReal (init i)) :
    AllReal (Host.reduceAdd x init h hu) := by
  intro j
  show IsReal (Ideal.hostReduceAdd h x (init (Shape.Idx.first hu)) j)
  unfold Ideal.hostReduceAdd
  exact (hinit _).add (isReal_sum _ _ fun i _ => hx i)

/-- A kernel's sum over axes of an all-real array is all-real. -/
theorem allReal_multiReduction_add (axes : List (Fin s.rank)) (t : Shape) {src : FVec Ideal s φ} (acc : BitVec φ.bits)
    (h : s.Reduces axes t) (hφ : FKind.Formats φ) (hacc : acc = FKind.neutral .add φ hφ) (hx : AllReal src) :
    AllReal (multiReduction .add axes t src acc h hφ hacc) := by
  intro j
  show IsReal (Ideal.reduceAdd h src j)
  unfold Ideal.reduceAdd
  exact isReal_sum _ _ fun i _ => hx i

/-- A matrix unit's product of all-real operands onto an all-real accumulator is all-real, whatever the dimension
    numbers: every entry is an accumulator entry plus a finite sum of products. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) := by
  intro j
  show IsReal (FloatOps.matmul d prec lhs rhs acc j)
  rw [Ideal.matmul_apply]
  exact (hacc j).add (isReal_sum _ _ fun k _ => (hl _).mul (hr _))

/-- A matrix unit's product of all-real operands onto the zero splat is all-real. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (matmul d prec lhs rhs (constant (F := Ideal) so .f32 0x00000000#32)) :=
  allReal_matmul d prec hl hr (allReal_constant so .f32 _ ⟨0, by rw [Ideal.ofBits_zero_f32, EReal.coe_zero]⟩)

/-- The host's general product of all-real operands is all-real, whatever the dimension numbers. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Sums

/-! ### The constants of the network -/

section Consts
open Cert.BatchNorm.Consts

/-- The pattern of 0 denotes a real. -/
theorem isReal_ofBits_zero : IsReal (Ideal.ofBits .f32 0x00000000#32) := ⟨_, ofBits_zero⟩
/-- The pattern of 0.5 denotes a real. -/
theorem isReal_ofBits_half : IsReal (Ideal.ofBits .f32 0x3F000000#32) := ⟨_, ofBits_half⟩
/-- The pattern of 1 denotes a real. -/
theorem isReal_ofBits_one : IsReal (Ideal.ofBits .f32 0x3F800000#32) := ⟨_, ofBits_one⟩
/-- The pattern of 600000 denotes a real. -/
theorem isReal_ofBits_600000 : IsReal (Ideal.ofBits .f32 0x49127C00#32) := ⟨_, ofBits_600000⟩
/-- The pattern of 50000 denotes a real. -/
theorem isReal_ofBits_50000 : IsReal (Ideal.ofBits .f32 0x47435000#32) := ⟨_, ofBits_50000⟩
/-- The pattern of 32 denotes a real. -/
theorem isReal_ofBits_32 : IsReal (Ideal.ofBits .f32 0x42000000#32) := ⟨_, ofBits_32⟩
/-- The pattern nearest to 10⁻⁵ denotes a real. -/
theorem isReal_ofBits_eps : IsReal (Ideal.ofBits .f32 0x3727C5AC#32) := ⟨_, ofBits_eps⟩

/-- The pattern of 1 denotes a nonzero number. -/
theorem ofBits_one_ne_zero : Ideal.ofBits .f32 0x3F800000#32 ≠ 0 := by
  rw [ofBits_one, EReal.coe_one]; exact one_ne_zero
/-- The pattern of 600000 denotes a nonzero number. -/
theorem ofBits_600000_ne_zero : Ideal.ofBits .f32 0x49127C00#32 ≠ 0 := by
  rw [ofBits_600000]; exact_mod_cast (by norm_num : (600000 : ℝ) ≠ 0)
/-- The pattern of 50000 denotes a nonzero number. -/
theorem ofBits_50000_ne_zero : Ideal.ofBits .f32 0x47435000#32 ≠ 0 := by
  rw [ofBits_50000]; exact_mod_cast (by norm_num : (50000 : ℝ) ≠ 0)
/-- The pattern of 32 denotes a nonzero number. -/
theorem ofBits_32_ne_zero : Ideal.ofBits .f32 0x42000000#32 ≠ 0 := by
  rw [ofBits_32]; exact_mod_cast (by norm_num : (32 : ℝ) ≠ 0)

/-- The splat of the pattern nearest to 10⁻⁵ is all-positive. -/
theorem allPos_constant_eps (s : Shape) : AllPos (constant (F := Ideal) s .f32 0x3727C5AC#32) :=
  allPos_constant s .f32 _ eps_pos ofBits_eps

/-- The splat of the pattern of 1 is all-positive. -/
theorem allPos_constant_one (s : Shape) : AllPos (constant (F := Ideal) s .f32 0x3F800000#32) :=
  allPos_constant s .f32 _ one_pos ofBits_one

end Consts

/-! ### From a finiteness test to all-real -/

section Finite
variable {s : Shape} {φ : FTy}

/-- An extended real whose absolute value is below +∞ is real. -/
theorem isReal_of_abs_lt_top {x : EReal} (h : max x (-x) < ⊤) : IsReal x := by
  induction x using EReal.rec with
  | bot => simp at h
  | coe r => exact ⟨r, rfl⟩
  | top => simp at h

/-- An extended real that passes the test |x| < +∞ is real. -/
theorem isReal_of_cmp_olt_abs {x top : EReal} (htop : top = ⊤) (h : Ideal.cmp .olt (max x (-x)) top = 1#1) :
    IsReal x := by
  subst htop
  apply isReal_of_abs_lt_top
  by_contra hn
  simp [Ideal.cmp, hn] at h

/-- An array every entry of which passes the test |x| < +∞ is all-real. -/
theorem allReal_of_finite_mask {x inf : FVec Ideal s φ} (hinf : ∀ i, inf i = ⊤)
    (h : ∀ i, cmpf .olt (Host.absf x) inf i = 1#1) : AllReal x :=
  fun i => isReal_of_cmp_olt_abs (hinf i) (h i)

/-- An array for which the conjunction over all entries of the test |x| < +∞ came out true is all-real. -/
theorem allReal_of_all_finite {t u : Shape} {axes : List (Fin s.rank)} [Subsingleton t.Idx] {x inf : FVec Ideal s φ}
    (hinf : ∀ i, inf i = ⊤) (init : u.Idx → BitVec 1) (h : s.ReducesTo axes t) (hu : 0 < u.numel) (j : t.Idx)
    (e : Host.reduce IntOp.andi (cmpf .olt (Host.absf x) inf) init h hu j = 1#1) : AllReal x :=
  allReal_of_finite_mask hinf (Host.reduce_andi_all _ init h hu j e)

/-- The broadcast of the splat of the pattern of +∞ is +∞ everywhere. -/
theorem broadcastInDim_constant_inf {s0 : Shape} (dims : Fin s0.rank → Fin s.rank) (h : s0.BroadcastsInDim s dims)
    (i : s.Idx) : broadcastInDim s dims h (constant (F := Ideal) s0 .f32 0x7F800000#32) i = ⊤ :=
  Cert.BatchNorm.Consts.ofBits_inf

end Finite

end Cert.AllReal
-- ==== Proof.BridgeFinite.lean ====
/-
  The precondition says every float input is finite: it is the conjunction, over the ten float arguments, of "every entry
  passes |x| < +∞". Read at the extended reals, an entry that passes the test is a real number. Here the conjunction is
  taken apart and the six arrays the bridge needs (the node features, the relation embeddings, the three weight blocks of
  the layer, the self-loop relation) are shown to hold reals only.
-/
import proofs.«117589_j28346784154211_2_alg».proof.Pre_finite_inputs
import proofs.«117589_j28346784154211_2_alg».proof.Proof.Gen.Pre_finite_inputs
import proofs.«117589_j28346784154211_2_alg».proof.Proof.LibAllReal
import Idealize.ShloMosaic.Lib.ReduceAll
import Idealize.ShloMosaic.Lib.Affine
import Idealize.ShloMosaic.Lib.ValueIdx

noncomputable section

namespace Cert.Bridge

open Idealize.ShloMosaic Idealize.ShloMosaic.ValueIdx Cert.AllReal Cert.Pre_finite_inputs

instance : Subsingleton (Cert.Pre_finite_inputs.S_).Idx := ⟨fun a b => funext fun d => d.elim0⟩

/-- A conjunction of two one-bit scalars is true only if both are. -/
theorem peel {A B : IVec Cert.Pre_finite_inputs.S_ 1} (h : andi A B ix0 = 1#1) : A ix0 = 1#1 ∧ B ix0 = 1#1 :=
  IntOp.andi_eq_one.mp h

/-- An array whose "all entries pass |x| < +∞" came out true holds reals only. -/
theorem leaf {s : Shape} {φ : FTy} {axes : List (Fin s.rank)} (x : FVec Ideal s φ)
    (bc : (Cert.Pre_finite_inputs.S_).BroadcastsInDim s ![]) (red : s.ReducesTo axes Cert.Pre_finite_inputs.S_)
    (hu : 0 < (Cert.Pre_finite_inputs.S_).numel)
    (e : Host.reduce IntOp.andi (cmpf .olt (Host.absf x)
        (broadcastInDim s ![] bc (constant (F := Ideal) Cert.Pre_finite_inputs.S_ .f32 0x7F800000#32)))
        (constantI Cert.Pre_finite_inputs.S_ 1 1#1) red hu ix0 = 1#1) : AllReal x :=
  allReal_of_all_finite (fun i => broadcastInDim_constant_inf (s0 := Cert.Pre_finite_inputs.S_) _ bc i) _ red hu ix0 e

/-- Under the precondition the six arrays the bridge needs hold reals only. -/
theorem allReal_of_pre (a0 : FVec Ideal S100000x256 .f32) (a1 : FVec Ideal S474x256 .f32)
    (a2 a3 a4 a5 : FVec Ideal S256x256 .f32) (a6 : FVec Ideal S1x256 .f32) (a7 a8 a9 : FVec Ideal S256 .f32)
    (a10 : IVec S2x1000000 32) (a11 : IVec S1000000 32)
    (h : Cert.Pre_finite_inputs.fn (F := Ideal) a0 a1 a2 a3 a4 a5 a6 a7 a8 a9 a10 a11 = fun _ => 1#1) :
    AllReal a0 ∧ AllReal a1 ∧ AllReal a2 ∧ AllReal a3 ∧ AllReal a4 ∧ AllReal a6 := by
  have h48 : Cert.Pre_finite_inputs.fn (F := Ideal) a0 a1 a2 a3 a4 a5 a6 a7 a8 a9 a10 a11 ix0 = 1#1 := congrFun h ix0
  obtain ⟨h43, -⟩ := peel h48
  obtain ⟨h38, -⟩ := peel h43
  obtain ⟨h33, -⟩ := peel h38
  obtain ⟨h28, l6⟩ := peel h33
  obtain ⟨h23, -⟩ := peel h28
  obtain ⟨h18, l4⟩ := peel h23
  obtain ⟨h13, l3⟩ := peel h18
  obtain ⟨h8, l2⟩ := peel h13
  obtain ⟨l0, l1⟩ := peel h8
  exact ⟨leaf _ _ _ _ l0, leaf _ _ _ _ l1, leaf _ _ _ _ l2, leaf _ _ _ _ l3, leaf _ _ _ _ l4, leaf _ _ _ _ l6⟩

end Cert.Bridge

end
-- ==== Proof.BridgeShared.lean ====
/-
  The stages the two programs share are the same functions: both programs print the same operations for the edge
  endpoints, the degree weights, the relation table, the index wrapping, the halves, the spreading of a weight over the
  features and the batch normalisation.
-/
import proofs.«117589_j28346784154211_2_alg».proof.Proof.SpecK
import proofs.«117589_j28346784154211_2_alg».proof.Proof.SpecR

noncomputable section

namespace Cert.Bridge

open Idealize.ShloMosaic

variable {F : FTy → Type} [FloatOps F]

theorem row_eq : @Cert.KernelIdeal.Spec.row F _ = @Cert.ReferenceIdeal.Spec.row F _ := rfl
theorem col_eq : @Cert.KernelIdeal.Spec.col F _ = @Cert.ReferenceIdeal.Spec.col F _ := rfl
theorem norm_eq : @Cert.KernelIdeal.Spec.norm F _ = @Cert.ReferenceIdeal.Spec.norm F _ := rfl
theorem rfull_eq : @Cert.KernelIdeal.Spec.rfull F _ = @Cert.ReferenceIdeal.Spec.rfull F _ := rfl
theorem nodeIdx_eq : @Cert.KernelIdeal.Spec.nodeIdx F _ = @Cert.ReferenceIdeal.Spec.nodeIdx F _ := rfl
theorem relIdx_eq : @Cert.KernelIdeal.Spec.relIdx F _ = @Cert.ReferenceIdeal.Spec.relIdx F _ := rfl
theorem lo_eq (e : EltTy) : @Cert.KernelIdeal.Spec.lo F _ e = @Cert.ReferenceIdeal.Spec.lo F _ e := rfl
theorem hi_eq (e : EltTy) : @Cert.KernelIdeal.Spec.hi F _ e = @Cert.ReferenceIdeal.Spec.hi F _ e := rfl
theorem spread_eq : @Cert.KernelIdeal.Spec.spread F _ = @Cert.ReferenceIdeal.Spec.spread F _ := rfl
theorem overNodes_eq : @Cert.KernelIdeal.Spec.overNodes F _ = @Cert.ReferenceIdeal.Spec.overNodes F _ := rfl
theorem bn_eq : @Cert.KernelIdeal.Spec.bn F _ = @Cert.ReferenceIdeal.Spec.bn F _ := rfl

end Cert.Bridge

end
-- ==== Proof.BridgeAlgebra.lean ====
/-
  Two laws the bridge between the two programs rests on.
  (1) For real a, b, w the contraction of a difference splits: Σ_k (a_k − b_k)·w_k = Σ_k a_k·w_k − Σ_k b_k·w_k. This is
      distributivity, which fails at infinities, so the entries must be real.
  (2) A sum over the edges that satisfy a condition, the edges numbered 0 … a+b−1, is the sum over the first a of them plus
      the sum over the last b: true in any commutative monoid, so also for extended reals.
-/
import proofs.«117589_j28346784154211_2_alg».proof.Proof.LibRealSums
import Mathlib.Algebra.BigOperators.Fin

open scoped BigOperators

namespace Cert.Bridge

open Cert.RealSums

/-- Distributivity of a contraction over a difference, for real entries. -/
theorem sum_sub_mul {K : ℕ} (a b w : Fin K → EReal) (ha : ∀ k, IsReal (a k)) (hb : ∀ k, IsReal (b k))
    (hw : ∀ k, IsReal (w k)) :
    ∑ k, (a k - b k) * w k = ∑ k, a k * w k - ∑ k, b k * w k := by
  choose a' ha' using ha
  choose b' hb' using hb
  choose w' hw' using hw
  obtain rfl : a = fun k => ((a' k : ℝ) : EReal) := funext ha'
  obtain rfl : b = fun k => ((b' k : ℝ) : EReal) := funext hb'
  obtain rfl : w = fun k => ((w' k : ℝ) : EReal) := funext hw'
  have e1 : ∀ k, ((a' k : ℝ) : EReal) * ((w' k : ℝ) : EReal) = ((a' k * w' k : ℝ) : EReal) := fun k => (EReal.coe_mul _ _).symm
  have e2 : ∀ k, ((b' k : ℝ) : EReal) * ((w' k : ℝ) : EReal) = ((b' k * w' k : ℝ) : EReal) := fun k => (EReal.coe_mul _ _).symm
  have e3 : ∀ k, (((a' k : ℝ) : EReal) - ((b' k : ℝ) : EReal)) * ((w' k : ℝ) : EReal) = (((a' k - b' k) * w' k : ℝ) : EReal) := fun k => by
    rw [← EReal.coe_sub, ← EReal.coe_mul]
  simp only [e1, e2, e3, coe_sum]
  rw [← EReal.coe_sub, ← Finset.sum_sub_distrib]
  exact congrArg _ (Finset.sum_congr rfl fun k _ => by ring)

/-- A filtered sum over `Fin N`, N = a + b, is the filtered sum over the first a indices plus that over the last b. -/
theorem sum_filter_halves {M : Type*} [AddCommMonoid M] {a b N : ℕ} (h : N = a + b) (P : Fin N → Prop) [DecidablePred P]
    (f : Fin N → M) :
    ∑ e ∈ Finset.univ.filter P, f e
      = ∑ e ∈ (Finset.univ : Finset (Fin a)).filter (fun e => P ⟨e.val, by have := e.isLt; omega⟩), f ⟨e.val, by have := e.isLt; omega⟩
        + ∑ e ∈ (Finset.univ : Finset (Fin b)).filter (fun e => P ⟨a + e.val, by have := e.isLt; omega⟩), f ⟨a + e.val, by have := e.isLt; omega⟩ := by
  subst h
  rw [Finset.sum_filter, Fin.sum_univ_add, Finset.sum_filter, Finset.sum_filter]
  rfl

end Cert.Bridge
-- ==== Proof.LibGatherRows.lean ====
/-
  A gather whose start indices are one column of row numbers, read at an index.

  The start indices have shape [E, 1]: result row e is operand row idx[e, 0], read as a SIGNED integer and clamped
  into [0, N − 1] (a negative number reads row 0, a number past the end reads the last row). For an operand [N, C]
  gathered in whole rows (slice sizes [1, C], the row axis collapsed, the column axis the offset axis) the result at
  (e, k) is the operand at (clamped idx[e, 0], k) (host_gather_rows_apply); for an operand [N] (slice sizes [1]) the
  result at e is the operand at the clamped idx[e, 0] (host_gather_vec_apply). This is what x[idx] lowers to for
  an index vector idx. Both follow from reading the operand index one axis at a time: on the row axis it is the
  clamped start index, on the column axis the result's own column.
-/
import Idealize.ShloMosaic.PureOps
import Idealize.ShloMosaic.Lib.ValueIdx

noncomputable section

namespace Cert.GatherRows

open Idealize.ShloMosaic Idealize.ShloMosaic.ValueIdx

/-- The row a signed row number reads: clamped into [0, N − 1]. -/
def clampRow (N : Nat) (hN : 0 < N) {w : Nat} (b : BitVec w) : Fin N := ⟨min b.toInt.toNat (N - 1), by omega⟩

theorem clampRow_val (N : Nat) (hN : 0 < N) {w : Nat} (b : BitVec w) : (clampRow N hN b).val = min b.toInt.toNat (N - 1) := rfl

/-- A row number already inside [0, N) reads its own row. -/
theorem clampRow_of_toInt (N : Nat) (hN : 0 < N) {w : Nat} (b : BitVec w) (v : Fin N) (h : b.toInt = (v.val : Int)) :
    clampRow N hN b = v := by
  apply Fin.ext
  rw [clampRow_val, h]
  have := v.isLt
  omega

/-! ## Whole rows of width C -/

section Rows
variable {α : Type} {N E C w : Nat}

/-- The dimension numbers of a row gather: operand [N, C], start indices [E, 1], result [E, C]. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand index of result (e, k): the clamped row number, and column k. -/
theorem row_operandIdx (hN : 0 < N) (idx : IVec ⟨2, ![E, 1]⟩ w) (e : Fin E) (k : Fin C) :
    (rowDims N E C wf).operandIdx (ix2 e k) idx = ix2 (clampRow N hN (idx (ix2 e 0))) k := by
  funext a
  refine Fin.ext ?_
  match a with
  | ⟨0, _⟩ =>
    show (rowDims N E C wf).start (ix2 e k) idx 0 + (rowDims N E C wf).batchCoord (ix2 e k) 0 + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    unfold GatherDims.start
    rw [dif_neg (show ¬ (1 : Fin 2) ∈ (rowDims N E C wf).startIndexMap from (show ¬ (1 : Fin 2) ∈ ([0] : List (Fin 2)) by decide))]
    unfold GatherDims.offCoord
    rw [dif_pos (show (1 : Fin 2) ∈ (rowDims N E C wf).sKept from
      (GatherDims.mem_sKept _ _).mpr ⟨(show ¬ (1 : Fin 2) ∈ ([0] : List (Fin 2)) by decide), List.not_mem_nil⟩)]
    simp only [Nat.zero_add]
    rfl

/-- THE ROW GATHER READ AT (e, k): the operand at (clamped idx[e, 0], k), for ANY dimension numbers of a row gather (a
    program's own record: its seven fields are these by unfolding). -/
theorem host_gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (k : Fin C) :
    Host.gather d x idx (ix2 e k) = x (ix2 (clampRow N hN (idx (ix2 e 0))) k) := by
  obtain ⟨od, cs, ob, sb, sm, iv, ss, wf⟩ := d
  dsimp only at h1 h2 h3 h4 h5 h6 h7
  subst h1 h2 h3 h4 h5 h6 h7
  unfold Host.gather
  exact congrArg x (row_operandIdx wf hN idx e k)

end Rows

/-! ## Scalars -/

section Vec
variable {α : Type} {N E w : Nat}

/-- The dimension numbers of the rank-1 form: operand [N], start indices [E, 1], result [E]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF ⟨1, ![N]⟩ ⟨2, ![E, 1]⟩ ⟨1, ![E]⟩ [] [0] [] [0] [] 1 ![1])

/-- The operand index of result e: the clamped row number. -/
theorem vec_operandIdx (hN : 0 < N) (idx : IVec ⟨2, ![E, 1]⟩ w) (e : Fin E) :
    (vecDims N E wf).operandIdx (ix1 e) idx = ix1 (clampRow N hN (idx (ix2 e 0))) := by
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE RANK-1 GATHER READ AT e: the operand at the clamped idx[e, 0], for ANY dimension numbers of that form. -/
theorem host_gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e 0)))) := by
  obtain ⟨od, cs, ob, sb, sm, iv, ss, wf⟩ := d
  dsimp only at h1 h2 h3 h4 h5 h6 h7
  subst h1 h2 h3 h4 h5 h6 h7
  unfold Host.gather
  exact congrArg x (vec_operandIdx wf hN idx e)

end Vec

end Cert.GatherRows

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.BridgeMsg.lean ====
/-
  A half's messages read at an edge e and a feature d, on both sides, and their equality.
  Kernel: (xW[col'(e), d] − rW[et'(e), d])·n(e), where xW and rW are product tables (node features times a weight block,
  relation table times the same block) and col', et' the wrapped and clamped row indices.
  Reference: (Σ_k (x[col'(e), k] − rfull[et'(e), k])·W[k, d])·n(e).
  They agree because a contraction distributes over a difference of REAL entries; the edge weight n(e) is the same
  factor on both sides and may be anything.
-/
import proofs.«117589_j28346784154211_2_alg».proof.Proof.SpecK
import proofs.«117589_j28346784154211_2_alg».proof.Proof.SpecR
import proofs.«117589_j28346784154211_2_alg».proof.Proof.BridgeShared
import proofs.«117589_j28346784154211_2_alg».proof.Proof.BridgeAlgebra
import proofs.«117589_j28346784154211_2_alg».proof.Proof.LibGatherRows
import proofs.«117589_j28346784154211_2_alg».proof.Proof.LibPlainDot
import proofs.«117589_j28346784154211_2_alg».proof.Proof.LibAllReal
import Idealize.ShloMosaic.Lib.ValueIdx
import Idealize.ShloMosaic.Lib.ValueLayout
import Idealize.ShloMosaic.Lib.Pipeline.Value

open scoped BigOperators

noncomputable section

namespace Cert.Bridge

open Idealize.ShloMosaic Idealize.ShloMosaic.ValueIdx Cert.RealSums Cert.AllReal Cert.GatherRows

/-- The node a half-edge's column index names, after wrapping and clamping. -/
def nodeOf (c : IVec ⟨1, ![500000]⟩ 32) (e : Fin 500000) : Fin 100000 :=
  clampRow 100000 (by norm_num) (Cert.KernelIdeal.Spec.nodeIdx (F := Ideal) c (ix2 e 0))
/-- The relation-table row a half-edge's type names, after wrapping and clamping. -/
def relOf (t : IVec ⟨1, ![500000]⟩ 32) (e : Fin 500000) : Fin 475 :=
  clampRow 475 (by norm_num) (Cert.KernelIdeal.Spec.relIdx (F := Ideal) t (ix2 e 0))

/-- The kernel's message at (e, d). -/
theorem msgK_apply (xWm : FVec Ideal ⟨2, ![100000, 256]⟩ .f32) (rWm : FVec Ideal ⟨2, ![475, 256]⟩ .f32)
    (c t : IVec ⟨1, ![500000]⟩ 32) (n : FVec Ideal ⟨1, ![500000]⟩ .f32) (e : Fin 500000) (d : Fin 256) :
    Cert.KernelIdeal.Spec.msgK (F := Ideal) xWm rWm c t n (ix2 e d)
      = (xWm (ix2 (nodeOf c e) d) - rWm (ix2 (relOf t e) d)) * Cert.KernelIdeal.Spec.spread (F := Ideal) n (ix2 e d) := by
  unfold Cert.KernelIdeal.Spec.msgK nodeOf relOf
  show (Host.gather _ _ _ (ix2 e d) - Host.gather _ _ _ (ix2 e d)) * _ = _
  rw [host_gather_rows_apply (by norm_num : 0 < 100000) _ rfl rfl rfl rfl rfl rfl rfl,
    host_gather_rows_apply (by norm_num : 0 < 475) _ rfl rfl rfl rfl rfl rfl rfl]

/-- The reference's message at (e, d). -/
theorem msgR_apply (x : FVec Ideal ⟨2, ![100000, 256]⟩ .f32) (rf : FVec Ideal ⟨2, ![475, 256]⟩ .f32)
    (w : FVec Ideal ⟨2, ![256, 256]⟩ .f32)
    (c t : IVec ⟨1, ![500000]⟩ 32) (n : FVec Ideal ⟨1, ![500000]⟩ .f32) (e : Fin 500000) (d : Fin 256) :
    Cert.ReferenceIdeal.Spec.msgR (F := Ideal) x rf w c t n (ix2 e d)
      = (∑ k : Fin 256, (x (ix2 (nodeOf c e) k) - rf (ix2 (relOf t e) k)) * w (ix2 k d))
          * Cert.KernelIdeal.Spec.spread (F := Ideal) n (ix2 e d) := by
  unfold Cert.ReferenceIdeal.Spec.msgR nodeOf relOf
  rw [spread_eq, nodeIdx_eq, relIdx_eq]
  show (Host.dotGeneral _ _ _ _ (ix2 e d)) * _ = _
  simp only [Host.dotGeneral]
  rw [Cert.PlainDot.dotGeneral_apply _ rfl rfl rfl rfl rfl rfl]
  refine congrArg (· * _) (Finset.sum_congr rfl fun k _ => ?_)
  show (Host.gather _ _ _ (ix2 e k) - Host.gather _ _ _ (ix2 e k)) * _ = _
  rw [host_gather_rows_apply (by norm_num : 0 < 100000) _ rfl rfl rfl rfl rfl rfl rfl,
    host_gather_rows_apply (by norm_num : 0 < 475) _ rfl rfl rfl rfl rfl rfl rfl]

end Cert.Bridge

end
-- ==== Proof.BridgeTables.lean ====
/-
  The product tables read at an index. The region's result array is x·[w_in | w_out | w_loop]; its three column blocks
  are x·w_in, x·w_out, x·w_loop, because column j of the stacked weights is column j, j − 256 or j − 512 of the block
  it falls in. The relation table times a weight block, and the self-loop relation times w_loop, are plain products.
  (Rounding to bf16 on the way into a product is the identity on extended reals.)
-/
import proofs.«117589_j28346784154211_2_alg».proof.Proof.SpecK
import proofs.«117589_j28346784154211_2_alg».proof.Proof.LibPlainDot
import Idealize.ShloMosaic.Lib.ValueIdx
import Idealize.ShloMosaic.Lib.ValueLayout
import Idealize.ShloMosaic.Lib.Pipeline.Value

open scoped BigOperators

noncomputable section

namespace Cert.Bridge

open Idealize.ShloMosaic Idealize.ShloMosaic.ValueIdx

section
variable (w1 w2 w3 : FVec Ideal ⟨2, ![256, 256]⟩ .f32) (k d : Fin 256)

/-- The first 256 columns of the stacked weights are w_in. -/
theorem wcat_in : Cert.KernelIdeal.Spec.wcat (F := Ideal) w1 w2 w3 (ix2 k (⟨d.val, by have := d.isLt; omega⟩ : Fin 768)) = w1 (ix2 k d) := by
  unfold Cert.KernelIdeal.Spec.wcat
  refine concatenate_apply_piece (t := ⟨2, ![256, 768]⟩) (1 : Fin 2) [⟨⟨2, ![256, 256]⟩, w1⟩, ⟨⟨2, ![256, 256]⟩, w2⟩, ⟨⟨2, ![256, 256]⟩, w3⟩] _ (ix2 k (⟨d.val, by have := d.isLt; omega⟩ : Fin 768)) 0 (by simp) _ w1 rfl rfl 0 rfl (ix2 k d) (fun b hb => ?_) (Nat.zero_add _)
  match b with
  | ⟨0, _⟩ => rfl
  | ⟨1, _⟩ => exact absurd rfl hb

/-- Columns 256 … 511 are w_out. -/
theorem wcat_out : Cert.KernelIdeal.Spec.wcat (F := Ideal) w1 w2 w3 (ix2 k (⟨256 + d.val, by have := d.isLt; omega⟩ : Fin 768)) = w2 (ix2 k d) := by
  unfold Cert.KernelIdeal.Spec.wcat
  refine concatenate_apply_piece (t := ⟨2, ![256, 768]⟩) (1 : Fin 2) [⟨⟨2, ![256, 256]⟩, w1⟩, ⟨⟨2, ![256, 256]⟩, w2⟩, ⟨⟨2, ![256, 256]⟩, w3⟩] _ (ix2 k (⟨256 + d.val, by have := d.isLt; omega⟩ : Fin 768)) 1 (by simp) _ w2 rfl rfl 256 rfl (ix2 k d) (fun b hb => ?_) rfl
  match b with
  | ⟨0, _⟩ => rfl
  | ⟨1, _⟩ => exact absurd rfl hb

/-- Columns 512 … 767 are w_loop. -/
theorem wcat_loop : Cert.KernelIdeal.Spec.wcat (F := Ideal) w1 w2 w3 (ix2 k (⟨512 + d.val, by have := d.isLt; omega⟩ : Fin 768)) = w3 (ix2 k d) := by
  unfold Cert.KernelIdeal.Spec.wcat
  refine concatenate_apply_piece (t := ⟨2, ![256, 768]⟩) (1 : Fin 2) [⟨⟨2, ![256, 256]⟩, w1⟩, ⟨⟨2, ![256, 256]⟩, w2⟩, ⟨⟨2, ![256, 256]⟩, w3⟩] _ (ix2 k (⟨512 + d.val, by have := d.isLt; omega⟩ : Fin 768)) 2 (by simp) _ w3 rfl rfl 512 rfl (ix2 k d) (fun b hb => ?_) rfl
  match b with
  | ⟨0, _⟩ => rfl
  | ⟨1, _⟩ => exact absurd rfl hb
end

section
variable (X : FVec Ideal ⟨2, ![100000, 768]⟩ .f32) (n : Fin 100000) (d : Fin 256)

theorem xWin_apply : Cert.KernelIdeal.Spec.xWin (F := Ideal) X (ix2 n d) = X (ix2 n (⟨d.val, by have := d.isLt; omega⟩ : Fin 768)) := by
  unfold Cert.KernelIdeal.Spec.xWin
  exact slice2_axis1_apply 0 X _ n d _ (Nat.zero_add _).symm
theorem xWout_apply : Cert.KernelIdeal.Spec.xWout (F := Ideal) X (ix2 n d) = X (ix2 n (⟨256 + d.val, by have := d.isLt; omega⟩ : Fin 768)) := by
  unfold Cert.KernelIdeal.Spec.xWout
  exact slice2_axis1_apply 256 X _ n d _ rfl
theorem xWloop_apply : Cert.KernelIdeal.Spec.xWloop (F := Ideal) X (ix2 n d) = X (ix2 n (⟨512 + d.val, by have := d.isLt; omega⟩ : Fin 768)) := by
  unfold Cert.KernelIdeal.Spec.xWloop
  exact slice2_axis1_apply 512 X _ n d _ rfl
end

section
variable (x : FVec Ideal ⟨2, ![100000, 256]⟩ .f32) (w1 w2 w3 : FVec Ideal ⟨2, ![256, 256]⟩ .f32) (n : Fin 100000) (d : Fin 256)

/-- The region's result array from the arguments. -/
abbrev XW : FVec Ideal ⟨2, ![100000, 768]⟩ .f32 :=
  Cert.KernelIdeal.Spec.xwI (truncf .bf16 x Cert.KernelIdeal.Facts₀.bitsLt_bf16_f32)
    (truncf .bf16 (Cert.KernelIdeal.Spec.wcat (F := Ideal) w1 w2 w3) Cert.KernelIdeal.Facts₀.bitsLt_bf16_f32)

theorem tabIn : Cert.KernelIdeal.Spec.xWin (F := Ideal) (XW x w1 w2 w3) (ix2 n d) = ∑ k : Fin 256, x (ix2 n k) * w1 (ix2 k d) := by
  rw [xWin_apply]
  show ∑ k : Fin 256, x (ix2 n k) * Cert.KernelIdeal.Spec.wcat (F := Ideal) w1 w2 w3 (ix2 k _) = _
  exact Finset.sum_congr rfl fun k _ => congrArg (_ * ·) (wcat_in w1 w2 w3 k d)
theorem tabOut : Cert.KernelIdeal.Spec.xWout (F := Ideal) (XW x w1 w2 w3) (ix2 n d) = ∑ k : Fin 256, x (ix2 n k) * w2 (ix2 k d) := by
  rw [xWout_apply]
  show ∑ k : Fin 256, x (ix2 n k) * Cert.KernelIdeal.Spec.wcat (F := Ideal) w1 w2 w3 (ix2 k _) = _
  exact Finset.sum_congr rfl fun k _ => congrArg (_ * ·) (wcat_out w1 w2 w3 k d)
theorem tabLoop : Cert.KernelIdeal.Spec.xWloop (F := Ideal) (XW x w1 w2 w3) (ix2 n d) = ∑ k : Fin 256, x (ix2 n k) * w3 (ix2 k d) := by
  rw [xWloop_apply]
  show ∑ k : Fin 256, x (ix2 n k) * Cert.KernelIdeal.Spec.wcat (F := Ideal) w1 w2 w3 (ix2 k _) = _
  exact Finset.sum_congr rfl fun k _ => congrArg (_ * ·) (wcat_loop w1 w2 w3 k d)
end

/-- The relation table times a weight block. -/
theorem rW_apply (rf : FVec Ideal ⟨2, ![475, 256]⟩ .f32) (w : FVec Ideal ⟨2, ![256, 256]⟩ .f32) (t : Fin 475) (d : Fin 256) :
    Cert.KernelIdeal.Spec.rW (F := Ideal) rf w (ix2 t d) = ∑ k : Fin 256, rf (ix2 t k) * w (ix2 k d) := by
  unfold Cert.KernelIdeal.Spec.rW
  simp only [Host.dotGeneral]
  rw [Cert.PlainDot.dotGeneral_apply _ rfl rfl rfl rfl rfl rfl]
  rfl

/-- The self-loop relation times w_loop. -/
theorem lrW_apply (lr : FVec Ideal ⟨2, ![1, 256]⟩ .f32) (w : FVec Ideal ⟨2, ![256, 256]⟩ .f32) (d : Fin 256) :
    Cert.KernelIdeal.Spec.lrW (F := Ideal) lr w (ix2 (0 : Fin 1) d) = ∑ k : Fin 256, lr (ix2 (0 : Fin 1) k) * w (ix2 k d) := by
  unfold Cert.KernelIdeal.Spec.lrW
  simp only [Host.dotGeneral]
  rw [Cert.PlainDot.dotGeneral_apply _ rfl rfl rfl rfl rfl rfl]
  rfl

end Cert.Bridge

end
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.BridgeAgg.lean ====
/-
  Layout operations read at an index, as the comparison of the two aggregates needs them: a vector made a one-column
  array, a stretch of a vector, and two row blocks stacked (a row of the stack is a row of the first block or, shifted by
  the first block's height, of the second).
-/
import proofs.«117589_j28346784154211_2_alg».proof.Proof.BridgeAlgebra
import proofs.«117589_j28346784154211_2_alg».proof.Proof.LibScatterRows
import Idealize.ShloMosaic.Lib.ValueIdx
import Idealize.ShloMosaic.Lib.ValueLayout
import Idealize.ShloMosaic.Lib.Pipeline.Value

open scoped BigOperators

noncomputable section

namespace Cert.Bridge

open Idealize.ShloMosaic Idealize.ShloMosaic.ValueIdx

/-- A vector made a one-column array reads, at row e, the vector's entry e. -/
theorem bcol_apply {α : Type} {E : ℕ} (v : (⟨1, ![E]⟩ : Shape).Idx → α)
    (h : (⟨1, ![E]⟩ : Shape).BroadcastsInDim ⟨2, ![E, 1]⟩ ![0]) (e : Fin E) :
    broadcastInDim ⟨2, ![E, 1]⟩ ![0] h v (ix2 e (0 : Fin 1)) = v (ix1 e) := by
  refine broadcastInDim_apply ![0] h v (ix2 e (0 : Fin 1)) (ix1 e) fun a => ?_
  match a with
  | ⟨0, _⟩ =>
    show e.val = if E = 1 then 0 else e.val
    split
    · have := e.isLt; omega
    · rfl

/-- A stretch of a vector starting at o reads, at e, the vector's entry o + e. -/
theorem stretch_apply {α : Type} {N m : ℕ} (o : ℕ) (v : (⟨1, ![N]⟩ : Shape).Idx → α)
    (h : (⟨1, ![N]⟩ : Shape).Slices ![o] ⟨1, ![m]⟩) (e : Fin m) (k : Fin N) (hk : k.val = o + e.val) :
    extractStridedSlice ⟨1, ![m]⟩ ![o] v h (ix1 e) = v (ix1 k) :=
  extractStridedSlice_apply _ _ _ _ _ fun a => by
    match a with
    | ⟨0, _⟩ => exact hk

/-- Two row blocks stacked: a row of the first block. -/
theorem stack_lo {α : Type} {a b N C : ℕ} (A : (⟨2, ![a, C]⟩ : Shape).Idx → α) (B : (⟨2, ![b, C]⟩ : Shape).Idx → α)
    (h : Shape.Concatenates [⟨2, ![a, C]⟩, ⟨2, ![b, C]⟩] ⟨2, ![N, C]⟩ 0) (e : Fin a) (k : Fin N) (hk : k.val = e.val) (d : Fin C) :
    concatenate ⟨2, ![N, C]⟩ 0 [⟨⟨2, ![a, C]⟩, A⟩, ⟨⟨2, ![b, C]⟩, B⟩] h (ix2 k d) = A (ix2 e d) := by
  refine concatenate_pair_apply_left (0 : Fin 2) A B h (ix2 k d) rfl (ix2 e d) fun bb => ?_
  match bb with
  | ⟨0, _⟩ => exact hk.symm
  | ⟨1, _⟩ => rfl

/-- Two row blocks stacked: a row of the second block. -/
theorem stack_hi {α : Type} {a b N C : ℕ} (A : (⟨2, ![a, C]⟩ : Shape).Idx → α) (B : (⟨2, ![b, C]⟩ : Shape).Idx → α)
    (h : Shape.Concatenates [⟨2, ![a, C]⟩, ⟨2, ![b, C]⟩] ⟨2, ![N, C]⟩ 0) (e : Fin b) (k : Fin N) (hk : k.val = a + e.val) (d : Fin C) :
    concatenate ⟨2, ![N, C]⟩ 0 [⟨⟨2, ![a, C]⟩, A⟩, ⟨⟨2, ![b, C]⟩, B⟩] h (ix2 k d) = B (ix2 e d) := by
  refine concatenate_pair_apply_right (0 : Fin 2) A B h (ix2 k d) rfl rfl (ix2 e d) (fun bb hb => ?_) ?_
  · match bb with
    | ⟨0, _⟩ => exact absurd rfl hb
    | ⟨1, _⟩ => rfl
  · show e.val + a = k.val
    omega

end Cert.Bridge

end
-- ==== Proof.BridgeParts.lean ====
/-
  The two aggregates and the two self-loop terms, named, and their equalities.
  · aggK: the kernel's one scatter-add of the two halves' messages, stacked, at all the edges' source nodes;
    it is the sum of the reference's two scatter-adds, each of one half at its half of the source nodes. Entry (n, d) of
    a scatter-add into zeros is the sum over the edges e with row(e) = n of the update's entry (e, d); the edges are
    numbered 0 … 999999, the first half is 0 … 499999. Only commutativity and associativity of the sum are used, so the
    messages may be any extended reals.
  · loopK = x·w_loop − lr·w_loop (the third column block of the region's result minus the self-loop row of products),
    loopR = (x − lr)·w_loop: equal for real entries.
-/
import proofs.«117589_j28346784154211_2_alg».proof.Proof.BridgeMsg
import proofs.«117589_j28346784154211_2_alg».proof.Proof.BridgeTables
import proofs.«117589_j28346784154211_2_alg».proof.Proof.BridgeAgg
import Idealize.ShloMosaic.Lib.IdealHost

open scoped BigOperators

noncomputable section

namespace Cert.Bridge

open Idealize.ShloMosaic Idealize.ShloMosaic.ValueIdx Cert.RealSums Cert.AllReal

/-- A one-row matrix spread down m rows reads, at (r, t), the row's entry t. -/
theorem onerow_apply {α : Type} {m n : ℕ} (h : (⟨2, ![1, n]⟩ : Shape).BroadcastsInDim ⟨2, ![m, n]⟩ ![0, 1])
    (y : (⟨2, ![1, n]⟩ : Shape).Idx → α) (r : Fin m) (t : Fin n) :
    broadcastInDim ⟨2, ![m, n]⟩ ![0, 1] h y (ix2 r t) = y (ix2 (0 : Fin 1) t) := by
  refine broadcastInDim_apply ![0, 1] h y (ix2 r t) (ix2 (0 : Fin 1) t) fun a => ?_
  match a with
  | ⟨0, _⟩ =>
    show (0 : ℕ) = if (1 : ℕ) = 1 then 0 else _
    simp
  | ⟨1, _⟩ =>
    show t.val = if n = 1 then 0 else t.val
    split
    · have := t.isLt; omega
    · rfl

/-- A splat of the zero pattern is zero everywhere. -/
theorem zeros_apply {T : Shape} (h : (⟨0, ![]⟩ : Shape).BroadcastsInDim T ![]) (i : T.Idx) :
    broadcastInDim T ![] h (constant (F := Ideal) ⟨0, ![]⟩ .f32 0x00000000#32) i = 0 :=
  (broadcastInDim_scalar_apply h _ i).trans Ideal.ofBits_zero_f32

open Cert.KernelIdeal Cert.KernelIdeal.Facts₀ in
/-- The kernel's aggregate: all messages, the two halves stacked, summed at the edges' source nodes. -/
def aggK (M1 M2 : FVec Ideal ⟨2, ![500000, 256]⟩ .f32) (rowv : IVec ⟨1, ![1000000]⟩ 32) : FVec Ideal ⟨2, ![100000, 256]⟩ .f32 :=
  Host.scatterAdd scatter_S100000x256_S1000000x1_S1000000x256_1_0_0_1
    (broadcastInDim S100000x256 ![] bcast_S_S100000x256 (constant (F := Ideal) S_ .f32 0x00000000#32))
    (broadcastInDim S1000000x1 ![0] bcast_S1000000_S1000000x1_0 rowv)
    (concatenate S1000000x256 0 [⟨S500000x256, M1⟩, ⟨S500000x256, M2⟩] concatenates_S500000x256_S500000x256_S1000000x256_d0)

/-- The one scatter of the stacked halves is the sum of the two halves' scatters. -/
theorem agg_eq (M1 M2 : FVec Ideal ⟨2, ![500000, 256]⟩ .f32) (rowv : IVec ⟨1, ![1000000]⟩ 32) :
    aggK M1 M2 rowv
      = addf (Cert.ReferenceIdeal.Spec.aggR (F := Ideal) M1 (Cert.ReferenceIdeal.Spec.lo (F := Ideal) (e := .i32) rowv))
             (Cert.ReferenceIdeal.Spec.aggR (F := Ideal) M2 (Cert.ReferenceIdeal.Spec.hi (F := Ideal) (e := .i32) rowv)) := by
  funext j
  obtain ⟨n, d, rfl⟩ : ∃ (n : Fin 100000) (d : Fin 256), j = ix2 n d := ⟨j 0, j 1, eq_ix2 j⟩
  rw [addf_apply]
  unfold aggK Cert.ReferenceIdeal.Spec.aggR Cert.ReferenceIdeal.Spec.lo Cert.ReferenceIdeal.Spec.hi
  rw [Cert.ScatterRows.host_scatterAdd_rows_apply _ rfl rfl rfl rfl, Cert.ScatterRows.host_scatterAdd_rows_apply _ rfl rfl rfl rfl,
    Cert.ScatterRows.host_scatterAdd_rows_apply _ rfl rfl rfl rfl, zeros_apply, zero_add, zero_add, zero_add,
    sum_filter_halves (a := 500000) (b := 500000) (by norm_num : 1000000 = 500000 + 500000)]
  refine congrArg₂ HAdd.hAdd ?_ ?_
  · refine Finset.sum_congr (Finset.filter_congr fun e _ => ?_) fun e _ => ?_
    · rw [bcol_apply, bcol_apply, stretch_apply 0 rowv _ e ⟨e.val, by have := e.isLt; omega⟩ (Nat.zero_add _).symm]
    · exact stack_lo (N := 1000000) M1 M2 _ e ⟨e.val, by have := e.isLt; omega⟩ rfl d
  · refine Finset.sum_congr (Finset.filter_congr fun e _ => ?_) fun e _ => ?_
    · rw [bcol_apply, bcol_apply, stretch_apply 500000 rowv _ e ⟨500000 + e.val, by have := e.isLt; omega⟩ rfl]
    · exact stack_hi (N := 1000000) M1 M2 _ e ⟨500000 + e.val, by have := e.isLt; omega⟩ rfl d

open Cert.KernelIdeal Cert.KernelIdeal.Facts₀ in
/-- The kernel's self-loop term. -/
def loopK (xw : FVec Ideal ⟨2, ![100000, 768]⟩ .f32) (lr : FVec Ideal ⟨2, ![1, 256]⟩ .f32) (w : FVec Ideal ⟨2, ![256, 256]⟩ .f32) :
    FVec Ideal ⟨2, ![100000, 256]⟩ .f32 :=
  subf (Cert.KernelIdeal.Spec.xWloop (F := Ideal) xw)
    (broadcastInDim S100000x256 ![0, 1] bcast_S1x256_S100000x256_0_1 (Cert.KernelIdeal.Spec.lrW (F := Ideal) lr w))

open Cert.ReferenceIdeal Cert.ReferenceIdeal.Facts₀ in
/-- The reference's self-loop term. -/
def loopR (x : FVec Ideal ⟨2, ![100000, 256]⟩ .f32) (lr : FVec Ideal ⟨2, ![1, 256]⟩ .f32) (w : FVec Ideal ⟨2, ![256, 256]⟩ .f32) :
    FVec Ideal ⟨2, ![100000, 256]⟩ .f32 :=
  Host.dotGeneral dot_S100000x256_S256x256_S100000x256_1_0_0_1_n_n none
    (subf x (broadcastInDim S100000x256 ![0, 1] bcast_S1x256_S100000x256_0_1 lr)) w

/-- x·w_loop − lr·w_loop = (x − lr)·w_loop, entry by entry, for real x, lr, w_loop. -/
theorem loop_eq (x : FVec Ideal ⟨2, ![100000, 256]⟩ .f32) (lr : FVec Ideal ⟨2, ![1, 256]⟩ .f32)
    (w1 w2 w3 : FVec Ideal ⟨2, ![256, 256]⟩ .f32) (hx : AllReal x) (hlr : AllReal lr) (hw3 : AllReal w3) :
    loopK (XW x w1 w2 w3) lr w3 = loopR x lr w3 := by
  funext j
  obtain ⟨n, d, rfl⟩ : ∃ (n : Fin 100000) (d : Fin 256), j = ix2 n d := ⟨j 0, j 1, eq_ix2 j⟩
  unfold loopK loopR
  simp only [Host.dotGeneral]
  rw [Cert.PlainDot.dotGeneral_apply _ rfl rfl rfl rfl rfl rfl, subf_apply, tabLoop, onerow_apply, lrW_apply]
  refine ((sum_sub_mul _ _ _ (fun k => hx _) (fun k => hlr _) (fun k => hw3 _)).symm).trans ?_
  refine Finset.sum_congr rfl fun k _ => congrArg (· * w3 (ix2 k d)) ?_
  rw [subf_apply, onerow_apply]

end Cert.Bridge

end
-- ==== Proof.BridgeH.lean ====
/-
  The two programs compute the same pre-normalisation activations, hence the same layer output.
  Entry (n, d) on both sides is (sum of the edge messages at node n) + (self-loop term) + bias:
  · a half's messages agree entry by entry (a contraction distributes over a difference of reals: the kernel multiplies
    first and gathers rows of the product tables, the reference gathers rows and multiplies);
  · the kernel's one scatter of the stacked halves is the sum of the reference's two scatters;
  · the self-loop terms agree by the same distributivity;
  · batch normalisation and tanh are the same function applied to equal arrays.
  Needed of the inputs: the node features, the relation embeddings, the self-loop relation and the three weight blocks are
  real (no infinities).
-/
import proofs.«117589_j28346784154211_2_alg».proof.Proof.BridgeParts

open scoped BigOperators

noncomputable section

namespace Cert.Bridge

open Idealize.ShloMosaic Idealize.ShloMosaic.ValueIdx Cert.RealSums Cert.AllReal

section
variable (x : FVec Ideal ⟨2, ![100000, 256]⟩ .f32) (r : FVec Ideal ⟨2, ![474, 256]⟩ .f32) (lr : FVec Ideal ⟨2, ![1, 256]⟩ .f32)
  (w1 w2 w3 : FVec Ideal ⟨2, ![256, 256]⟩ .f32)

/-- The relation table with the self-loop row appended holds reals when both parts do. -/
theorem rfull_real (hr : AllReal r) (hlr : AllReal lr) : AllReal (Cert.KernelIdeal.Spec.rfull (F := Ideal) r lr) := by
  unfold Cert.KernelIdeal.Spec.rfull
  exact allReal_concatenate_two _ _ _ hr hlr

/-- A half's messages agree, for any product table `tab` = x·w. -/
theorem msg_eq (w : FVec Ideal ⟨2, ![256, 256]⟩ .f32) (tab : FVec Ideal ⟨2, ![100000, 256]⟩ .f32)
    (htab : ∀ (n : Fin 100000) (d : Fin 256), tab (ix2 n d) = ∑ k : Fin 256, x (ix2 n k) * w (ix2 k d))
    (hx : AllReal x) (hrf : AllReal (Cert.KernelIdeal.Spec.rfull (F := Ideal) r lr)) (hw : AllReal w)
    (c t : IVec ⟨1, ![500000]⟩ 32) (n : FVec Ideal ⟨1, ![500000]⟩ .f32) :
    Cert.KernelIdeal.Spec.msgK (F := Ideal) tab (Cert.KernelIdeal.Spec.rW (F := Ideal) (Cert.KernelIdeal.Spec.rfull (F := Ideal) r lr) w) c t n
      = Cert.ReferenceIdeal.Spec.msgR (F := Ideal) x (Cert.ReferenceIdeal.Spec.rfull (F := Ideal) r lr) w c t n := by
  funext j
  obtain ⟨e, d, rfl⟩ : ∃ (e : Fin 500000) (d : Fin 256), j = ix2 e d := ⟨j 0, j 1, eq_ix2 j⟩
  rw [msgK_apply, msgR_apply, ← rfull_eq, htab, rW_apply]
  exact congrArg (· * _) (sum_sub_mul _ _ _ (fun k => hx _) (fun k => hrf _) (fun k => hw _)).symm

/-- The kernel's activations: aggregate, self-loop term, bias. -/
theorem hK_unfold (xw : FVec Ideal ⟨2, ![100000, 768]⟩ .f32) (bias : FVec Ideal ⟨1, ![256]⟩ .f32)
    (ei : IVec ⟨2, ![2, 1000000]⟩ 32) (et : IVec ⟨1, ![1000000]⟩ 32) :
    Cert.KernelIdeal.Spec.hK (F := Ideal) xw r lr w1 w2 w3 bias ei et
      = addf (addf
          (aggK
            (Cert.KernelIdeal.Spec.msgK (F := Ideal) (Cert.KernelIdeal.Spec.xWin (F := Ideal) xw)
              (Cert.KernelIdeal.Spec.rW (F := Ideal) (Cert.KernelIdeal.Spec.rfull (F := Ideal) r lr) w1)
              (Cert.KernelIdeal.Spec.lo (F := Ideal) (Cert.KernelIdeal.Spec.col (F := Ideal) ei)) (Cert.KernelIdeal.Spec.lo (F := Ideal) et)
              (Cert.KernelIdeal.Spec.lo (F := Ideal) (Cert.KernelIdeal.Spec.norm (F := Ideal) ei)))
            (Cert.KernelIdeal.Spec.msgK (F := Ideal) (Cert.KernelIdeal.Spec.xWout (F := Ideal) xw)
              (Cert.KernelIdeal.Spec.rW (F := Ideal) (Cert.KernelIdeal.Spec.rfull (F := Ideal) r lr) w2)
              (Cert.KernelIdeal.Spec.hi (F := Ideal) (Cert.KernelIdeal.Spec.col (F := Ideal) ei)) (Cert.KernelIdeal.Spec.hi (F := Ideal) et)
              (Cert.KernelIdeal.Spec.hi (F := Ideal) (Cert.KernelIdeal.Spec.norm (F := Ideal) ei)))
            (Cert.KernelIdeal.Spec.row (F := Ideal) ei))
          (loopK xw lr w3))
        (Cert.KernelIdeal.Spec.overNodes (F := Ideal) bias) := rfl

/-- The reference's activations: the two halves' aggregates, self-loop term, bias. -/
theorem hR_unfold (bias : FVec Ideal ⟨1, ![256]⟩ .f32) (ei : IVec ⟨2, ![2, 1000000]⟩ 32) (et : IVec ⟨1, ![1000000]⟩ 32) :
    Cert.ReferenceIdeal.Spec.hR (F := Ideal) x r lr w1 w2 w3 bias ei et
      = addf (addf (addf
          (Cert.ReferenceIdeal.Spec.aggR (F := Ideal)
            (Cert.ReferenceIdeal.Spec.msgR (F := Ideal) x (Cert.ReferenceIdeal.Spec.rfull (F := Ideal) r lr) w1
              (Cert.ReferenceIdeal.Spec.lo (F := Ideal) (Cert.ReferenceIdeal.Spec.col (F := Ideal) ei)) (Cert.ReferenceIdeal.Spec.lo (F := Ideal) et)
              (Cert.ReferenceIdeal.Spec.lo (F := Ideal) (Cert.ReferenceIdeal.Spec.norm (F := Ideal) ei)))
            (Cert.ReferenceIdeal.Spec.lo (F := Ideal) (Cert.ReferenceIdeal.Spec.row (F := Ideal) ei)))
          (Cert.ReferenceIdeal.Spec.aggR (F := Ideal)
            (Cert.ReferenceIdeal.Spec.msgR (F := Ideal) x (Cert.ReferenceIdeal.Spec.rfull (F := Ideal) r lr) w2
              (Cert.ReferenceIdeal.Spec.hi (F := Ideal) (Cert.ReferenceIdeal.Spec.col (F := Ideal) ei)) (Cert.ReferenceIdeal.Spec.hi (F := Ideal) et)
              (Cert.ReferenceIdeal.Spec.hi (F := Ideal) (Cert.ReferenceIdeal.Spec.norm (F := Ideal) ei)))
            (Cert.ReferenceIdeal.Spec.hi (F := Ideal) (Cert.ReferenceIdeal.Spec.row (F := Ideal) ei))))
          (loopR x lr w3))
        (Cert.ReferenceIdeal.Spec.overNodes (F := Ideal) bias) := rfl

/-- The pre-normalisation activations agree. -/
theorem hK_eq_hR (bias : FVec Ideal ⟨1, ![256]⟩ .f32) (ei : IVec ⟨2, ![2, 1000000]⟩ 32) (et : IVec ⟨1, ![1000000]⟩ 32)
    (hx : AllReal x) (hr : AllReal r) (hlr : AllReal lr) (hw1 : AllReal w1) (hw2 : AllReal w2) (hw3 : AllReal w3) :
    Cert.KernelIdeal.Spec.hK (F := Ideal) (XW x w1 w2 w3) r lr w1 w2 w3 bias ei et
      = Cert.ReferenceIdeal.Spec.hR (F := Ideal) x r lr w1 w2 w3 bias ei et := by
  have hrf := rfull_real r lr hr hlr
  rw [hK_unfold, hR_unfold, agg_eq, loop_eq x lr w1 w2 w3 hx hlr hw3,
    msg_eq x r lr w1 (Cert.KernelIdeal.Spec.xWin (F := Ideal) (XW x w1 w2 w3)) (tabIn x w1 w2 w3) hx hrf hw1,
    msg_eq x r lr w2 (Cert.KernelIdeal.Spec.xWout (F := Ideal) (XW x w1 w2 w3)) (tabOut x w1 w2 w3) hx hrf hw2]
  simp only [overNodes_eq, row_eq, col_eq, norm_eq, lo_eq, hi_eq]

/-- The layer outputs agree. -/
theorem resH_eq (bias γ β : FVec Ideal ⟨1, ![256]⟩ .f32) (ei : IVec ⟨2, ![2, 1000000]⟩ 32) (et : IVec ⟨1, ![1000000]⟩ 32)
    (hx : AllReal x) (hr : AllReal r) (hlr : AllReal lr) (hw1 : AllReal w1) (hw2 : AllReal w2) (hw3 : AllReal w3) :
    Cert.KernelIdeal.Spec.resH (F := Ideal) (XW x w1 w2 w3) x r w1 w2 w3 lr bias γ β ei et
      = Cert.ReferenceIdeal.Spec.resH (F := Ideal) x r w1 w2 w3 lr bias γ β ei et := by
  unfold Cert.KernelIdeal.Spec.resH Cert.ReferenceIdeal.Spec.resH
  rw [bn_eq, hK_eq_hR x r lr w1 w2 w3 bias ei et hx hr hlr hw1 hw2 hw3]
end

/-- The relation outputs agree: rounding to bf16 is the identity on extended reals. -/
theorem resR_eq (r : FVec Ideal ⟨2, ![474, 256]⟩ .f32) (w : FVec Ideal ⟨2, ![256, 256]⟩ .f32) :
    Cert.KernelIdeal.Spec.resR (F := Ideal) r w = Cert.ReferenceIdeal.Spec.resR (F := Ideal) r w := rfl

end Cert.Bridge

end
-- ==== Proof.KValueBlocks.lean ====
/-
  The matrix-product region read as one array. The region walks 25 row blocks: at point t the body multiplies
  rows 4000·t … 4000·t+3999 of the bf16 node features by the whole 256×768 bf16 weight matrix and writes the
  4000×768 product back as rows 4000·t … of the result array. Entry (r, q) of the result array is therefore
  the sum over k of feature (r, k) · weight (k, q), whichever block row r falls in: row r lies in block r / 4000,
  and the 25 blocks cover all 100000 rows.
  The whole-array product is the specification's `Spec.xwI`.
  Here: the body's one stored value at an index (a sum over the contraction axis), each input block read as
  rows of its array, what a point writes back as a block of that one whole-array product, the cover, and the
  result array after the last point.
-/
import proofs.«117589_j28346784154211_2_alg».proof.Proof.KDefs
import proofs.«117589_j28346784154211_2_alg».proof.Proof.LibPlainDot
import proofs.«117589_j28346784154211_2_alg».proof.Proof.SpecK
import Idealize.ShloMosaic.Lib.Pipeline.Value
import Idealize.ShloMosaic.Lib.ValueIdx

set_option maxRecDepth 16384

noncomputable section

open scoped BigOperators

namespace Cert.KernelIdeal.ValH

open Cert.KernelIdeal Cert.KernelIdeal.Gen Cert.KernelIdeal.GenH
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, q): the sum over k of left block (p, k) · right block (k, q). Both shape casts
    are to the same shape, and the accumulator is zero. -/
theorem pay_apply (x0 : Vec Ideal S4000x256 .bf16) (x1 : Vec Ideal S256x768 .bf16) (p : Fin 4000) (q : Fin 768) :
    k0_pay1 x0 x1 (ix2 p q) = ∑ k : Fin 256, x0 (ix2 p k) * x1 (ix2 k q) := by
  unfold k0_pay1
  rw [shapeCast_self, shapeCast_self]
  exact Cert.PlainDot.matmul_zero_apply dot_S4000x256_S256x768_S4000x768_1_0_0_1_n_n rfl rfl rfl rfl rfl rfl none x0 x1 p q

/-- The printed index maps over the 25 points: the feature window and the result window sit at block row t, column
    block 0; the weight window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ)

/-- The feature window's block at point t is rows 4000·t … 4000·t+3999 of the feature array. -/
theorem iblk0_apply (c : Dev nD) (t : Fin cfg0.N) (p : Fin 4000) (k : Fin 256) (r : Fin 100000)
    (hr : r.val = 4000 * t.val + p.val) :
    (iblk m c 0 t : Vec Ideal S4000x256 .bf16) (ix2 p k) = (V m c main_v30 : S100000x256.Idx → Elt Ideal .bf16) (ix2 r k) := by
  obtain ⟨e0, e1, -, -, -, -⟩ := idx_facts t
  unfold iblk
  rw [View.read_apply]
  show V m c main_v30 _ = V m c main_v30 _
  refine congrArg (V m c main_v30) ?_
  funext a
  apply Fin.ext
  match a with
  | ⟨0, _⟩ => show win0_0.index t (0 : Fin 2) * 4000 + 1 * p.val = r.val; rw [e0, hr]; omega
  | ⟨1, _⟩ => show win0_0.index t (1 : Fin 2) * 256 + 1 * k.val = k.val; rw [e1]; omega

/-- The weight window's block at every point is the whole weight array. -/
theorem iblk1_apply (c : Dev nD) (t : Fin cfg0.N) (k : Fin 256) (q : Fin 768) :
    (iblk m c 1 t : Vec Ideal S256x768 .bf16) (ix2 k q) = (V m c main_v31 : S256x768.Idx → Elt Ideal .bf16) (ix2 k q) := by
  obtain ⟨-, -, e2, e3, -, -⟩ := idx_facts t
  unfold iblk
  rw [View.read_apply]
  show V m c main_v31 _ = V m c main_v31 _
  refine congrArg (V m c main_v31) ?_
  funext a
  apply Fin.ext
  match a with
  | ⟨0, _⟩ => show win0_1.index t (0 : Fin 2) * 256 + 1 * k.val = k.val; rw [e2]; omega
  | ⟨1, _⟩ => show win0_1.index t (1 : Fin 2) * 768 + 1 * q.val = q.val; rw [e3]; omega

/-- What the body leaves in the result buffer at point t, at block index j, is the whole-array product at the array
    index i that j names: row 4000·t + j₀, column j₁. -/
theorem out_apply (c : Dev nD) (t : Fin cfg0.N) (j : S4000x768.Idx) (i : S100000x768.Idx)
    (hi0 : (i 0).val = 4000 * t.val + (j 0).val) (hi1 : (i 1).val = (j 1).val) :
    out0_2 (iblk m c 0 t) (iblk m c 1 t) j = Spec.xwI (V m c main_v30) (V m c main_v31) i := by
  unfold out0_2
  rw [View.canon_unit_zero hz]
  simp only [View.ld_unit_zero (S := S4000x256) hz, View.ld_unit_zero (S := S256x768) hz]
  obtain ⟨p, q, rfl⟩ : ∃ (p : Fin 4000) (q : Fin 768), j = ix2 p q := ⟨j 0, j 1, eq_ix2 j⟩
  refine (pay_apply (iblk m c 0 t) (iblk m c 1 t) p q).trans ?_
  unfold Spec.xwI
  refine Finset.sum_congr rfl fun k _ => ?_
  have hq : (i 1 : Fin 768) = q := Fin.ext hi1
  rw [iblk0_apply m c t p k (i 0) hi0, iblk1_apply m c t k q, hq]

/-- What point t writes back is block t of the whole-array product. -/
theorem flushed_eq (c : Dev nD) (t : Fin cfg0.N) :
    (dats m 0 c).flushed 2 t = ((cfg0.win 2).blk t).view.read (Elt Ideal) (Spec.xwI (V m c main_v30) (V m c main_v31)) := by
  show (cfg0.win 2).cut (grid0.coords t) ((dats m 0 c).after 2 t) = _
  rw [after0_2]
  obtain ⟨-, -, -, -, e4, e5⟩ := idx_facts t
  funext j
  rw [View.read_apply]
  show out0_2 (iblk m c 0 t) (iblk m c 1 t) j = Spec.xwI (V m c main_v30) (V m c main_v31) (((cfg0.win 2).blk t).view.emb j)
  refine out_apply m c t j _ ?_ ?_
  · show win0_2.index t (0 : Fin 2) * 4000 + 1 * (j 0).val = 4000 * t.val + (j 0).val
    rw [e4]; omega
  · show win0_2.index t (1 : Fin 2) * 768 + 1 * (j 1).val = (j 1).val
    rw [e5]; omega

/-- An index of the result array is in point t's block iff each coordinate is in the block's range on its axis. -/
theorem mem_blk (t : Fin cfg0.N) (i : S100000x768.Idx) :
    i ∈ ((cfg0.win 2).blk t).view.set ↔ ∀ a : Fin 2, win0_2.index t a * S4000x768.size a ≤ (i a).val ∧ (i a).val < win0_2.index t a * S4000x768.size a + S4000x768.size a := by
  show i ∈ ((View.whole main_v32).slice (win0_2.rect t)).set ↔ _
  rw [View.set_slice_whole, Rect.mem_set_unit]
  exact Iff.rfl

/-- Every index of the result array is in the block of the point its row falls in: row r is in block r / 4000. -/
theorem cover (i : S100000x768.Idx) :
    ∃ t : Fin cfg0.N, (cfg0.win 2).flush t = true ∧ i ∈ ((cfg0.win 2).blk t).view.set := by
  have hN : cfg0.N = 25 := N_0
  have hi0 : (i 0).val < 100000 := (i 0).isLt
  have hi1 : (i 1).val < 768 := (i 1).isLt
  refine ⟨⟨(i 0).val / 4000, by rw [hN]; omega⟩, flush0_2 _, ?_⟩
  obtain ⟨-, -, -, -, e4, e5⟩ := idx_facts ⟨(i 0).val / 4000, by rw [hN]; omega⟩
  rw [mem_blk]
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 768 ≤ (i 1).val ∧ (i 1).val < win0_2.index _ (1 : Fin 2) * 768 + 768
    rw [e5]; omega

/-- The result array after the last point: the product of the feature array by the weight array as the region
    found them. -/
theorem final2 (c : Dev nD) :
    (dats (F := Ideal) m 0 c).arrAt 2 cfg0.N = Spec.xwI (V m c main_v30) (V m c main_v31) :=
  (dats m 0 c).arrAt_eq_of_cover 2 (Spec.xwI (V m c main_v30) (V m c main_v31)) (fun t _ => flushed_eq m c t) cover

end Cert.KernelIdeal.ValH

end
-- ==== Proof.LibNaryFold.lean ====
/-
  GENERAL LEMMAS (they import only the library's host-run module): reading a fold of host operations when one of them
  takes its operands as a literal family of three references (a concatenation of three arrays), for any signature.

  The contents after a list of host operations is a left fold of the operations' results. An operation whose operands
  are a family of references (a concatenation of three arrays) reads each operand through the family; stated with each
  operand's contents at its own reference, the reading of the fold can go on into the operands. The same for a concatenation of two arrays, whose side condition
  depends on the list of its pieces: with the pieces as plain arguments each can be rewritten by itself.
-/
import Idealize.ShloMosaic.Lib.StableHlo.Run

namespace Cert.NaryFold

open Idealize.ShloMosaic Idealize.ShloMosaic.StableHlo

variable {τ : Topo} {sig : RefSig} {Val : EltTy → Type}

/-- An operation over a literal family of three references: its result with each operand's contents at its own
    reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same statement with the result reference matched up to unfolding. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A concatenation of two arrays with the two arrays as plain arguments: the side condition speaks of their shapes only,
    so each array can be rewritten by itself. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem concatenate_pair_eq {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 h x y := rfl

/-- Reads a buffer off a fold of literal host operations, operation by operation: at its own result buffer an
    operation's result is its function's value, at any other buffer what was there. -/
macro "fold_results" : tactic =>
  `(tactic| (simp only [after_cons, after_nil]
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The same reading with every shared intermediate buffer read once, for a long list. -/
macro "fold_results_simp" : tactic =>
  `(tactic| (simp (disch := decide) only [after_cons, after_nil,
      nullary_result', unary_result', binary_result', ternary_result', quaternary_result', reshape_result', nary3_result',
      concatenate_pair_eq,
      nullary_result_ne', unary_result_ne', binary_result_ne', ternary_result_ne', quaternary_result_ne', reshape_result_ne',
      nary_result_ne']))

end Cert.NaryFold
-- ==== Proof.KValuePre.lean ====
/-
  The arrays the region and the later host lines find, written before the region by the host: the edge index's
  two rows, the edge weights, the relation table with the self-loop relation appended, the features rounded to
  bf16 and the three weight matrices side by side rounded to bf16 — each the specification's stage of the
  argument arrays, read off the fold of the host lines before the region.
-/
import proofs.«117589_j28346784154211_2_alg».proof.Proof.KDefs
import proofs.«117589_j28346784154211_2_alg».proof.Proof.SpecK
import proofs.«117589_j28346784154211_2_alg».proof.Proof.LibNaryFold

set_option maxRecDepth 16384

noncomputable section

namespace Cert.KernelIdeal.ValH

open Cert.KernelIdeal Cert.KernelIdeal.Gen Cert.KernelIdeal.GenH
open Idealize.ShloMosaic Idealize.ShloMosaic.TcCoe Idealize.ShloMosaic.StableHlo Idealize.SL.Sem

variable {F : FTy → Type} [FloatOps F]
variable (m : (ℓ : Loc nD τ sig) → Buf (Elt F) ℓ)

/-- The features as the region finds them: the argument rounded to bf16. -/
theorem V_main_v30 (c : Dev nD) :
    V m c main_v30 = truncf .bf16 (m ((c : Thread nD τ).loc main_arg0)) bitsLt_bf16_f32 := by
  dsimp only [V, V0]
  simp only [hostOps0, hostOps0_1, hostOps0_2, List.flatten_cons, List.flatten_nil, List.append_nil, List.cons_append, List.nil_append]
  fold_results_simp <;> rfl

/-- The stacked weights as the region finds them: [w_in | w_out | w_loop] rounded to bf16. -/
theorem V_main_v31 (c : Dev nD) :
    V m c main_v31 = truncf .bf16 (Spec.wcat (m ((c : Thread nD τ).loc main_arg2)) (m ((c : Thread nD τ).loc main_arg3)) (m ((c : Thread nD τ).loc main_arg4))) bitsLt_bf16_f32 := by
  dsimp only [V, V0]
  simp only [hostOps0, hostOps0_1, hostOps0_2, List.flatten_cons, List.flatten_nil, List.append_nil, List.cons_append, List.nil_append]
  fold_results_simp <;> rfl

/-- The relation table with the self-loop relation appended. -/
theorem V_main_v28 (c : Dev nD) :
    V m c main_v28 = Spec.rfull (m ((c : Thread nD τ).loc main_arg1)) (m ((c : Thread nD τ).loc main_arg6)) := by
  dsimp only [V, V0]
  simp only [hostOps0, hostOps0_1, hostOps0_2, List.flatten_cons, List.flatten_nil, List.append_nil, List.cons_append, List.nil_append]
  fold_results_simp <;> rfl

/-- The edges' source nodes. -/
theorem V_main_v1 (c : Dev nD) : V m c main_v1 = Spec.row (m ((c : Thread nD τ).loc main_arg10)) := by
  dsimp only [V, V0]
  simp only [hostOps0, hostOps0_1, hostOps0_2, List.flatten_cons, List.flatten_nil, List.append_nil, List.cons_append, List.nil_append]
  fold_results_simp <;> rfl

/-- The edges' target nodes. -/
theorem V_main_v3 (c : Dev nD) : V m c main_v3 = Spec.col (m ((c : Thread nD τ).loc main_arg10)) := by
  dsimp only [V, V0]
  simp only [hostOps0, hostOps0_1, hostOps0_2, List.flatten_cons, List.flatten_nil, List.append_nil, List.cons_append, List.nil_append]
  fold_results_simp <;> rfl

/-- The edge weights. -/
theorem V_main_v27 (c : Dev nD) : V m c main_v27 = Spec.norm (m ((c : Thread nD τ).loc main_arg10)) := by
  dsimp only [V, V0]
  simp only [hostOps0, hostOps0_1, hostOps0_2, List.flatten_cons, List.flatten_nil, List.append_nil, List.cons_append, List.nil_append]
  fold_results_simp <;> rfl

end Cert.KernelIdeal.ValH

end
-- ==== Proof.KTail.lean ====
/-
  The host lines after the region, read as functions of what they find. The later lines come in three stretches:
  the first computes the layer's pre-normalisation activations (the messages gathered from the region's product and
  from the relation products, weighted, summed at the source nodes, plus the self-loop term and the bias) and their
  mean over the nodes; the second is the variance over the nodes; the third normalises, scales, shifts, applies tanh,
  and multiplies the relation embeddings by their weight matrix. Each stretch is read over an arbitrary valuation of
  the buffers it finds, given what that valuation holds at the buffers the stretch reads; the fold over the three
  stretches is then the fold of the later two over the fold of the first.
-/
import proofs.«117589_j28346784154211_2_alg».proof.Proof.Gen.KernelIdeal.Launch
import proofs.«117589_j28346784154211_2_alg».proof.Proof.SpecK
import proofs.«117589_j28346784154211_2_alg».proof.Proof.LibNaryFold
import proofs.«117589_j28346784154211_2_alg».proof.Proof.LibHostFold
import Idealize.ShloMosaic.Lib.Pipeline.Frame

set_option maxRecDepth 16384

noncomputable section

namespace Cert.KernelIdeal.ValH

open Cert.KernelIdeal Cert.KernelIdeal.Gen
open Idealize.ShloMosaic Idealize.ShloMosaic.TcCoe Idealize.ShloMosaic.StableHlo Idealize.SL.Sem
open Cert.KernelIdeal.Spec (Tn)

variable {F : FTy → Type} [FloatOps F]

/-- The mean over the nodes, feature by feature. -/
def meanK (h : Tn F S100000x256 .f32) : Tn F S256 .f32 :=
  Host.divf (Host.reduceAdd h (constant (F := F) S_ .f32 0x00000000#32) reducesTo_S100000x256_S256_d0 h_S_)
    (broadcastInDim S256 ![] bcast_S_S256 (constant (F := F) S_ .f32 0x47C35000#32))

section First

variable (X : Valuation τ sig (Elt F))
variable (xw : Tn F S100000x768 .f32) (r : Tn F S474x256 .f32) (lr : Tn F S1x256 .f32) (w_in w_out w_loop : Tn F S256x256 .f32)
  (bias : Tn F S256 .f32) (ei : Tn F S2x1000000 .i32) (et : Tn F S1000000 .i32)

set_option maxHeartbeats 4000000 in
/-- The first stretch leaves the pre-normalisation activations. -/
theorem tail1_v103
    (h32 : X (Proc.devRef .tc main_v32) = xw) (h28 : X (Proc.devRef .tc main_v28) = Spec.rfull r lr)
    (h1 : X (Proc.devRef .tc main_v1) = Spec.row ei) (h3 : X (Proc.devRef .tc main_v3) = Spec.col ei)
    (h27 : X (Proc.devRef .tc main_v27) = Spec.norm ei)
    (ha2 : X (Proc.devRef .tc main_arg2) = w_in) (ha3 : X (Proc.devRef .tc main_arg3) = w_out)
    (ha4 : X (Proc.devRef .tc main_arg4) = w_loop) (ha6 : X (Proc.devRef .tc main_arg6) = lr)
    (ha7 : X (Proc.devRef .tc main_arg7) = bias) (ha11 : X (Proc.devRef .tc main_arg11) = et) :
    after hostOps1 X (Proc.devRef .tc main_v103) = Spec.hK xw r lr w_in w_out w_loop bias ei et := by
  simp only [hostOps1]
  fold_results_simp
  simp only [h32, h28, h1, h3, h27, ha2, ha3, ha4, ha6, ha7, ha11]
  rfl

set_option maxHeartbeats 4000000 in
/-- The first stretch leaves their mean over the nodes. -/
theorem tail1_v106
    (h32 : X (Proc.devRef .tc main_v32) = xw) (h28 : X (Proc.devRef .tc main_v28) = Spec.rfull r lr)
    (h1 : X (Proc.devRef .tc main_v1) = Spec.row ei) (h3 : X (Proc.devRef .tc main_v3) = Spec.col ei)
    (h27 : X (Proc.devRef .tc main_v27) = Spec.norm ei)
    (ha2 : X (Proc.devRef .tc main_arg2) = w_in) (ha3 : X (Proc.devRef .tc main_arg3) = w_out)
    (ha4 : X (Proc.devRef .tc main_arg4) = w_loop) (ha6 : X (Proc.devRef .tc main_arg6) = lr)
    (ha7 : X (Proc.devRef .tc main_arg7) = bias) (ha11 : X (Proc.devRef .tc main_arg11) = et) :
    after hostOps1 X (Proc.devRef .tc main_v106) = meanK (Spec.hK xw r lr w_in w_out w_loop bias ei et) := by
  simp only [hostOps1]
  fold_results_simp
  simp only [h32, h28, h1, h3, h27, ha2, ha3, ha4, ha6, ha7, ha11]
  rfl

/-- The first stretch leaves the integer constant zero the variance's degrees-of-freedom correction converts. -/
theorem tail1_c18 : after hostOps1 X (Proc.devRef .tc main_c_18) = (constantI S_ 32 0#32 : Tn F S_ .i32) := by
  simp only [hostOps1]
  fold_results_simp

end First

section Later

variable (Y : Valuation τ sig (Elt F))

set_option maxHeartbeats 4000000 in
/-- The later two stretches normalise the activations over the nodes, scale, shift and apply tanh. -/
theorem tail23_v123 (h : Tn F S100000x256 .f32) (γ β : Tn F S256 .f32)
    (h103 : Y (Proc.devRef .tc main_v103) = h) (h106 : Y (Proc.devRef .tc main_v106) = meanK h)
    (hc18 : Y (Proc.devRef .tc main_c_18) = (constantI S_ 32 0#32 : Tn F S_ .i32))
    (ha8 : Y (Proc.devRef .tc main_arg8) = γ) (ha9 : Y (Proc.devRef .tc main_arg9) = β) :
    after (hostOps1_1 ++ hostOps1_2) Y (Proc.devRef .tc main_v123) = Spec.bn h γ β := by
  simp only [hostOps1_1, hostOps1_2, List.cons_append, List.nil_append]
  fold_results_simp
  simp only [h103, h106, hc18, ha8, ha9]
  rfl

/-- The last lines multiply the relation embeddings by their weight matrix. -/
theorem tail23_v126 (r : Tn F S474x256 .f32) (w_rel : Tn F S256x256 .f32)
    (ha1 : Y (Proc.devRef .tc main_arg1) = r) (ha5 : Y (Proc.devRef .tc main_arg5) = w_rel) :
    after (hostOps1_1 ++ hostOps1_2) Y (Proc.devRef .tc main_v126) = Spec.resR r w_rel := by
  simp only [hostOps1_1, hostOps1_2, List.cons_append, List.nil_append]
  fold_results_simp
  simp only [ha1, ha5]
  rfl

end Later

end Cert.KernelIdeal.ValH

end
-- ==== Proof.KValue.lean ====
/-
  The kernel program's two results as functions of its argument arrays. After the region the result array of the
  matrix product holds the product of the bf16-rounded features by the bf16-rounded stacked weights; every other
  buffer the later lines read is as the host lines before the region left it. Reading the later lines over these
  contents gives the layer's output (the batch-normalised, tanh-ed sum of messages) and the relation embeddings
  times their weight matrix; the argument arrays end as launched.
-/
import proofs.«117589_j28346784154211_2_alg».proof.Proof.KValueBlocks
import proofs.«117589_j28346784154211_2_alg».proof.Proof.KValuePre
import proofs.«117589_j28346784154211_2_alg».proof.Proof.KTail
import proofs.«117589_j28346784154211_2_alg».proof.Proof.KFrame

set_option maxRecDepth 16384

noncomputable section

namespace Cert.KernelIdeal.ValH

open Cert.KernelIdeal Cert.KernelIdeal.Gen Cert.KernelIdeal.GenH
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-- Core c's buffer contents when the region is left: the pipeline's arrays as computed, every other buffer as the
    region found it. -/
abbrev exitV (c : Dev nD) : Valuation τ sig (Elt Ideal) :=
  Pipeline.withArrays (cfgs 0).spec c (V0 m c) fun w => (dats m 0 c).arrAt w (cfgs 0).N

/-- The product's result array at the region's exit. -/
theorem exit_v32 (c : Dev nD) :
    exitV m c (Proc.devRef .tc main_v32)
      = Spec.xwI (truncf .bf16 (m ((c : Thread nD τ).loc main_arg0)) bitsLt_bf16_f32) (truncf .bf16 (Spec.wcat (m ((c : Thread nD τ).loc main_arg2)) (m ((c : Thread nD τ).loc main_arg3)) (m ((c : Thread nD τ).loc main_arg4))) bitsLt_bf16_f32) :=
  (Pipeline.withArrays_arr spec0 launch0.win.arr_inj c _ _ 2).trans ((final2 m c).trans (by rw [V_main_v30, V_main_v31]))

/-- A buffer that is no array of the pipeline is, at the region's exit, as the region found it. -/
theorem exit_of_ne (c : Dev nD) (b : Ref sig .tc) (hb : ∀ w, Pipeline.arrRef spec0 w ≠ b) :
    exitV m c (Proc.devRef .tc b) = V m c b :=
  Pipeline.withArrays_of_ne spec0 c _ _ b hb

/-- The first stretch of later lines writes no argument array. -/
theorem keep1 (X : Valuation τ sig (Elt Ideal)) (r : Ref sig .tc) (hr : r ∈ argList) :
    after hostOps1 X (Proc.devRef .tc r) = X (Proc.devRef .tc r) :=
  StableHlo.after_of_forall_not_mem (b := Proc.devRef .tc r) _ _
    (fun op hop => ((List.forall_iff_forall_mem.mp hostOps1_keeps) op hop).1 r hr)

theorem tail_split : List.flatten [hostOps1, hostOps1_1, hostOps1_2]
    = (hostOps1 : List (HloOp τ sig (Elt Ideal))) ++ (hostOps1_1 ++ hostOps1_2) := by
  simp only [List.flatten_cons, List.flatten_nil, List.append_nil]

/-- The first result after the later lines. -/
theorem tail_v123 (c : Dev nD) :
    Pipeline.afterTail₀ cfgs (dats m) 0 (V0 m) [hostOps1, hostOps1_1, hostOps1_2] c main_v123
      = Spec.resH (Spec.xwI (truncf .bf16 (m ((c : Thread nD τ).loc main_arg0)) bitsLt_bf16_f32) (truncf .bf16 (Spec.wcat (m ((c : Thread nD τ).loc main_arg2)) (m ((c : Thread nD τ).loc main_arg3)) (m ((c : Thread nD τ).loc main_arg4))) bitsLt_bf16_f32))
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      (m ((c : Thread nD τ).loc main_arg7)) (m ((c : Thread nD τ).loc main_arg8)) (m ((c : Thread nD τ).loc main_arg9)) (m ((c : Thread nD τ).loc main_arg10)) (m ((c : Thread nD τ).loc main_arg11)) := by
  have h32 := exit_v32 m c
  have h28 := (exit_of_ne m c main_v28 (by decide)).trans (V_main_v28 m c)
  have h1 := (exit_of_ne m c main_v1 (by decide)).trans (V_main_v1 m c)
  have h3 := (exit_of_ne m c main_v3 (by decide)).trans (V_main_v3 m c)
  have h27 := (exit_of_ne m c main_v27 (by decide)).trans (V_main_v27 m c)
  have ha2 := (exit_of_ne m c main_arg2 (by decide)).trans (V_main_arg2 m c)
  have ha3 := (exit_of_ne m c main_arg3 (by decide)).trans (V_main_arg3 m c)
  have ha4 := (exit_of_ne m c main_arg4 (by decide)).trans (V_main_arg4 m c)
  have ha6 := (exit_of_ne m c main_arg6 (by decide)).trans (V_main_arg6 m c)
  have ha7 := (exit_of_ne m c main_arg7 (by decide)).trans (V_main_arg7 m c)
  have ha8 := (exit_of_ne m c main_arg8 (by decide)).trans (V_main_arg8 m c)
  have ha9 := (exit_of_ne m c main_arg9 (by decide)).trans (V_main_arg9 m c)
  have ha11 := (exit_of_ne m c main_arg11 (by decide)).trans (V_main_arg11 m c)
  unfold Pipeline.afterTail₀
  rw [tail_split, Cert.HostFold.after_append]
  unfold Spec.resH
  exact tail23_v123 _ _ _ _
    (tail1_v103 (exitV m c) _ _ _ _ _ _ _ _ _ h32 h28 h1 h3 h27 ha2 ha3 ha4 ha6 ha7 ha11)
    (tail1_v106 (exitV m c) _ _ _ _ _ _ _ _ _ h32 h28 h1 h3 h27 ha2 ha3 ha4 ha6 ha7 ha11)
    (tail1_c18 (exitV m c))
    ((keep1 (exitV m c) main_arg8 (by decide)).trans ha8)
    ((keep1 (exitV m c) main_arg9 (by decide)).trans ha9)

/-- The second result after the later lines. -/
theorem tail_v126 (c : Dev nD) :
    Pipeline.afterTail₀ cfgs (dats m) 0 (V0 m) [hostOps1, hostOps1_1, hostOps1_2] c main_v126
      = Spec.resR (m ((c : Thread nD τ).loc main_arg1)) (m ((c : Thread nD τ).loc main_arg5)) := by
  have ha1 := (exit_of_ne m c main_arg1 (by decide)).trans (V_main_arg1 m c)
  have ha5 := (exit_of_ne m c main_arg5 (by decide)).trans (V_main_arg5 m c)
  unfold Pipeline.afterTail₀
  rw [tail_split, Cert.HostFold.after_append]
  exact tail23_v126 _ _ _
    ((keep1 (exitV m c) main_arg1 (by decide)).trans ha1)
    ((keep1 (exitV m c) main_arg5 (by decide)).trans ha5)

/-- The kernel program's run, read: its two results as functions of the argument arrays, the argument arrays as
    launched. -/
theorem run_val : θ_run (defs (F := Ideal)) (onTc (τ := τ) (main (F := Ideal))) ⟨m, fun _ => 0, ρ⟩ (fun r => ∀ c : Dev nD,
      r.2.mem ((c.tc : Thread nD τ).loc main_v123)
        = Spec.resH (Spec.xwI (truncf .bf16 (m ((c.tc : Thread nD τ).loc main_arg0)) bitsLt_bf16_f32) (truncf .bf16 (Spec.wcat (m ((c.tc : Thread nD τ).loc main_arg2)) (m ((c.tc : Thread nD τ).loc main_arg3)) (m ((c.tc : Thread nD τ).loc main_arg4))) bitsLt_bf16_f32))
      (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v126) = Spec.resR (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun st h c =>
    ⟨((h c).2 main_v123 (Pipeline.mem_restRefs_of main_v123 (by decide) (by decide))).trans (tail_v123 m c),
     ((h c).2 main_v126 (Pipeline.mem_restRefs_of main_v126 (by decide) (by decide))).trans (tail_v126 m c),
     arg_end m (dats m) st h c main_arg0 (by decide),
     arg_end m (dats m) st h c main_arg1 (by decide),
     arg_end m (dats m) st h c main_arg2 (by decide),
     arg_end m (dats m) st h c main_arg3 (by decide),
     arg_end m (dats m) st h c main_arg4 (by decide),
     arg_end m (dats m) st h c main_arg5 (by decide),
     arg_end m (dats m) st h c main_arg6 (by decide),
     arg_end m (dats m) st h c main_arg7 (by decide),
     arg_end m (dats m) st h c main_arg8 (by decide),
     arg_end m (dats m) st h c main_arg9 (by decide),
     arg_end m (dats m) st h c main_arg10 (by decide),
     arg_end m (dats m) st h c main_arg11 (by decide)⟩)
    (run_main m ρ)

end Cert.KernelIdeal.ValH

end
-- ==== Proof.Algebraic.lean ====
/-
  The two idealized programs end with equal results. Each run ends with its results at a stated function of the
  twelve arguments: the kernel's program at the layer output taken over the region's product array and at the
  relation product, the reference at the layer output and the relation product computed directly. From memories
  that agree on the arguments these are functions of the same arrays; under the precondition the arrays that enter a
  contraction hold reals only, and on reals the two layer outputs are one function.
-/
import proofs.«117589_j28346784154211_2_alg».proof.Defs
import proofs.«117589_j28346784154211_2_alg».proof.Proof.Gen.KernelIdeal
import proofs.«117589_j28346784154211_2_alg».proof.Proof.Gen.ReferenceIdeal
import proofs.«117589_j28346784154211_2_alg».proof.Proof.Gen.Pre_finite_inputs
import proofs.«117589_j28346784154211_2_alg».proof.Proof.SpecK
import proofs.«117589_j28346784154211_2_alg».proof.Proof.SpecR
import proofs.«117589_j28346784154211_2_alg».proof.Proof.BridgeFinite
import proofs.«117589_j28346784154211_2_alg».proof.Proof.BridgeH
import proofs.«117589_j28346784154211_2_alg».proof.Proof.RefRun
import proofs.«117589_j28346784154211_2_alg».proof.Proof.KValue

noncomputable section

namespace Cert.Proof

open Idealize.ShloMosaic Idealize.SL.Sem

/-- The two idealized programs, run from memories that agree on the twelve arguments, end with equal results. The
    kernel's program ends with its two results at the layer output computed over the region's product array and at
    the relation product; the reference's at the layer output and the relation product computed directly. Under the
    precondition the features, the relation table, the self-loop row and the three weight matrices hold reals only,
    and on reals the two layer outputs are one function of the arguments; the relation products agree outright. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, _, Cert.KernelIdeal.ValH.run_val m ρ, ?_⟩
  refine (θ_run Cert.ReferenceIdeal.defs _ _).mono (fun r h c => ⟨(h c Cert.ReferenceIdeal.main_v108).trans ?_, (h c Cert.ReferenceIdeal.main_v109).trans ?_,
      (h c Cert.ReferenceIdeal.main_arg0).trans (Cert.ReferenceIdeal.RunH.kept_arg0 m' c),
      (h c Cert.ReferenceIdeal.main_arg1).trans (Cert.ReferenceIdeal.RunH.kept_arg1 m' c),
      (h c Cert.ReferenceIdeal.main_arg2).trans (Cert.ReferenceIdeal.RunH.kept_arg2 m' c),
      (h c Cert.ReferenceIdeal.main_arg3).trans (Cert.ReferenceIdeal.RunH.kept_arg3 m' c),
      (h c Cert.ReferenceIdeal.main_arg4).trans (Cert.ReferenceIdeal.RunH.kept_arg4 m' c),
      (h c Cert.ReferenceIdeal.main_arg5).trans (Cert.ReferenceIdeal.RunH.kept_arg5 m' c),
      (h c Cert.ReferenceIdeal.main_arg6).trans (Cert.ReferenceIdeal.RunH.kept_arg6 m' c),
      (h c Cert.ReferenceIdeal.main_arg7).trans (Cert.ReferenceIdeal.RunH.kept_arg7 m' c),
      (h c Cert.ReferenceIdeal.main_arg8).trans (Cert.ReferenceIdeal.RunH.kept_arg8 m' c),
      (h c Cert.ReferenceIdeal.main_arg9).trans (Cert.ReferenceIdeal.RunH.kept_arg9 m' c),
      (h c Cert.ReferenceIdeal.main_arg10).trans (Cert.ReferenceIdeal.RunH.kept_arg10 m' c),
      (h c Cert.ReferenceIdeal.main_arg11).trans (Cert.ReferenceIdeal.RunH.kept_arg11 m' c)⟩)
    (Cert.ReferenceIdeal.RunH.run_all m' ρ')
  · obtain ⟨h0, h1, h2, h3, h4, h6⟩ := Cert.Bridge.allReal_of_pre _ _ _ _ _ _ _ _ _ _ _ _ (hpre c)
    rw [Cert.ReferenceIdeal.RunH.res_h, (hagree c).1, (hagree c).2.1, (hagree c).2.2.1, (hagree c).2.2.2.1, (hagree c).2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.Bridge.resH_eq _ _ _ _ _ _ _ _ _ _ _ h0 h1 h6 h2 h3 h4).symm
  · rw [Cert.ReferenceIdeal.RunH.res_r, (hagree c).2.1, (hagree c).2.2.2.2.2.1]
    exact (Cert.Bridge.resR_eq _ _).symm

end Cert.Proof

end
-- ==== Proof.lean ====
/-
  One layer of a relational graph convolution: 100000 nodes with 256 features, 474 relations, a million edges (the
  first half read in one direction, the second half in the other). Every edge carries the difference of its
  neighbour's features and its relation's embedding, times the weight matrix of its direction, scaled by the
  symmetric degree normalisation 1/√(deg(row)·deg(col)); the messages are summed at the edges' own nodes; a self-loop
  term (x − loop)·W_loop and a bias are added; the sum is normalised feature by feature over the nodes (batch mean
  and variance), scaled, shifted, and passed through tanh. The second result is the relation table times its own
  weight matrix.

  The reference forms each edge's difference first and multiplies it by the weight matrix. The kernel's program
  multiplies first: its one region computes the product of all node features with the three weight matrices set side
  by side (25 blocks of 4000 rows), small products give the images of the relation table and of the self-loop row,
  and each edge then takes the difference of two gathered rows of products. At the extended reals a change of float
  format is the identity, and the two programs agree wherever the entries are REAL: the contraction
  Σₖ (aₖ − bₖ)·wₖ distributes over the difference only when no term is infinite, which the precondition (every float
  input finite) gives for the features, the relation table, the self-loop row and the three weight matrices. Then
  gathering rows and multiplying is multiplying and gathering rows; one scatter-add of the two halves' messages
  stacked is the sum of the two halves' scatter-adds; the batch normalisation and the tanh are the same functions on
  both sides; the relation products agree outright.

  The frames: the kernel's program, at the machine words and at the extended reals alike, by the frame run of its one
  region between the host lines (the body: two loads, a load whose value is unused, one store that covers the output
  block), the reference by the fold of its host lines; no line writes an argument array. The idealized program is the
  printed one read at the extended reals, nothing rewritten, so there is nothing to preserve.
-/
import proofs.«117589_j28346784154211_2_alg».proof.Defs
import proofs.«117589_j28346784154211_2_alg».proof.Proof.Gen.Kernel
import proofs.«117589_j28346784154211_2_alg».proof.Proof.Gen.KernelIdeal
import proofs.«117589_j28346784154211_2_alg».proof.Proof.Gen.ReferenceIdeal
import proofs.«117589_j28346784154211_2_alg».proof.Proof.Gen.Pre_finite_inputs
import proofs.«117589_j28346784154211_2_alg».proof.Proof.KFrame
import proofs.«117589_j28346784154211_2_alg».proof.Proof.KFrameBits
import proofs.«117589_j28346784154211_2_alg».proof.Proof.RefRun
import proofs.«117589_j28346784154211_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.GenH.frame m ρ,
    fun m ρ _ => Cert.KernelIdeal.GenH.frame m ρ,
    fun m ρ _ => Cert.ReferenceIdeal.RunH.frame m ρ,
    trivial,
    Cert.Proof.algebraic⟩

end Cert.Proof

end
